-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S1000000 : Shape := ⟨1, ![1000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel

variable [Facts]

def fn {F : FTy → Type} [FloatOps F] (main_arg0 : FVec F S150000x64 .f32) (main_arg1 : IVec S1000000 32) (main_arg2 : IVec S1000000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  main_v3
-- ==== Kernel.lean ====
abbrev S150000x64 : Shape := ⟨2, ![150000, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S3000x64 : Shape := ⟨2, ![3000, 64]⟩
abbrev S3000 : Shape := ⟨1, ![3000]⟩
abbrev S3000x1 : Shape := ⟨2, ![3000, 1]⟩
abbrev S100000x64 : Shape := ⟨2, ![100000, 64]⟩
abbrev S50000x64 : Shape := ⟨2, ![50000, 64]⟩
abbrev S1000000x64 : Shape := ⟨2, ![1000000, 64]⟩
abbrev S5000x64 : Shape := ⟨2, ![5000, 64]⟩
abbrev S5000x1 : Shape := ⟨2, ![5000, 1]⟩
abbrev S5000 : Shape := ⟨1, ![5000]⟩
abbrev S64 : Shape := ⟨1, ![64]⟩
abbrev S1x64 : Shape := ⟨2, ![1, 64]⟩
abbrev S64x64 : Shape := ⟨2, ![64, 64]⟩
abbrev S2000x64 : Shape := ⟨2, ![2000, 64]⟩
abbrev S2000x1 : Shape := ⟨2, ![2000, 1]⟩
abbrev S2000 : Shape := ⟨1, ![2000]⟩
abbrev S50000x1 : Shape := ⟨2, ![50000, 1]⟩
abbrev S1 : Shape := ⟨1, ![1]⟩
abbrev S1x1 : Shape := ⟨2, ![1, 1]⟩

abbrev nBuf : Space → Nat
  | .hbm => 206
  | .vmem => 85
  | .smem => 0
  | _ => 0

abbrev hbmTy0_0 (i : Nat) : BufTy := match i % 128 with
  | 0 => ⟨S150000x64, .f32⟩
  | 1 => ⟨S1000000, .i32⟩
  | 2 => ⟨S1000000, .i32⟩
  | 3 => ⟨S_, .f32⟩
  | 4 => ⟨S1000000, .f32⟩
  | 5 => ⟨S_, .f32⟩
  | 6 => ⟨S100000, .f32⟩
  | 7 => ⟨S1000000x1, .i32⟩
  | 8 => ⟨S100000, .f32⟩
  | 9 => ⟨S_, .f32⟩
  | 10 => ⟨S100000, .f32⟩
  | 11 => ⟨S100000, .f32⟩
  | 12 => ⟨S_, .f32⟩
  | 13 => ⟨S100000, .f32⟩
  | 14 => ⟨S100000, .f32⟩
  | 15 => ⟨S100000x1, .f32⟩
  | 16 => ⟨S_, .f32⟩
  | 17 => ⟨S100000, .f32⟩
  | 18 => ⟨S100000, .f32⟩
  | 19 => ⟨S100000x1, .f32⟩
  | 20 => ⟨S150000x64, .f32⟩
  | 21 => ⟨S100000x64, .f32⟩
  | 22 => ⟨S50000x64, .f32⟩
  | 23 => ⟨S100000x64, .f32⟩
  | 24 => ⟨S50000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x64, .f32⟩
  | 52 => ⟨S1000000x1, .f32⟩
  | 53 => ⟨S1000000x64, .f32⟩
  | 54 => ⟨S_, .f32⟩
  | 55 => ⟨S100000x64, .f32⟩
  | 56 => ⟨S1000000x1, .i32⟩
  | 57 => ⟨S100000x64, .f32⟩
  | 58 => ⟨S_, .f32⟩
  | 59 => ⟨S64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S1000000x1, .i32⟩
  | 66 => ⟨S100000x64, .f32⟩
  | 67 => ⟨S_, .f32⟩
  | 68 => ⟨S64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S1000000x1, .i32⟩
  | 75 => ⟨S100000x64, .f32⟩
  | 76 => ⟨S64x64, .f32⟩
  | 77 => ⟨S100000x64, .f32⟩
  | 78 => ⟨S100000x64, .f32⟩
  | 79 => ⟨S100000x64, .f32⟩
  | 80 => ⟨S100000x64, .f32⟩
  | 81 => ⟨S100000x64, .f32⟩
  | 82 => ⟨S100000x64, .f32⟩
  | 83 => ⟨S100000x64, .f32⟩
  | 84 => ⟨S100000x1, .f32⟩
  | 85 => ⟨S100000x1, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x64, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x64, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000x64, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S150000x64, .f32⟩

abbrev hbmTy0_1 (i : Nat) : BufTy := match i % 128 with
  | 0 => ⟨S1000000, .i32⟩
  | 1 => ⟨S1000000x1, .i32⟩
  | 2 => ⟨S1000000x64, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x64, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x1, .f32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .f32⟩
  | 30 => ⟨S1000000x64, .f32⟩
  | 31 => ⟨S1000000x64, .f32⟩
  | 32 => ⟨S_, .f32⟩
  | 33 => ⟨S50000x64, .f32⟩
  | 34 => ⟨S1000000x1, .i32⟩
  | 35 => ⟨S50000x64, .f32⟩
  | 36 => ⟨S_, .f32⟩
  | 37 => ⟨S50000x64, .f32⟩
  | 38 => ⟨S1000000x1, .i32⟩
  | 39 => ⟨S50000x64, .f32⟩
  | 40 => ⟨S_, .f32⟩
  | 41 => ⟨S50000x64, .f32⟩
  | 42 => ⟨S1000000x1, .i32⟩
  | 43 => ⟨S50000x64, .f32⟩
  | 44 => ⟨S_, .f32⟩
  | 45 => ⟨S50000x64, .f32⟩
  | 46 => ⟨S1000000x1, .i32⟩
  | 47 => ⟨S50000x64, .f32⟩
  | 48 => ⟨S_, .f32⟩
  | 49 => ⟨S50000x1, .f32⟩
  | 50 => ⟨S1000000x1, .i32⟩
  | 51 => ⟨S50000x1, .f32⟩
  | 52 => ⟨S_, .f32⟩
  | 53 => ⟨S50000x1, .f32⟩
  | 54 => ⟨S1000000x1, .i32⟩
  | 55 => ⟨S50000x1, .f32⟩
  | 56 => ⟨S_, .f32⟩
  | 57 => ⟨S50000x64, .f32⟩
  | 58 => ⟨S1000000x1, .i32⟩
  | 59 => ⟨S50000x64, .f32⟩
  | 60 => ⟨S_, .f32⟩
  | 61 => ⟨S50000x64, .f32⟩
  | 62 => ⟨S1000000x1, .i32⟩
  | 63 => ⟨S50000x64, .f32⟩
  | 64 => ⟨S100000x64, .f32⟩
  | 65 => ⟨S100000x64, .f32⟩
  | 66 => ⟨S64x64, .f32⟩
  | 67 => ⟨S_, .f32⟩
  | 68 => ⟨S64, .f32⟩
  | 69 => ⟨S1x64, .f32⟩
  | 70 => ⟨S_, .f32⟩
  | 71 => ⟨S1, .f32⟩
  | 72 => ⟨S1x1, .f32⟩
  | 73 => ⟨S_, .f32⟩
  | 74 => ⟨S64, .f32⟩
  | 75 => ⟨S1x64, .f32⟩
  | 76 => ⟨S50000x64, .f32⟩
  | 77 => ⟨S150000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x1, .f32⟩
  | .local _ .vmem, ⟨29, _⟩ => ⟨S2000x1, .f32⟩
  | .local _ .vmem, ⟨30, _⟩ => ⟨S2000x1, .f32⟩
  | .local _ .vmem, ⟨31, _⟩ => ⟨S2000x1, .f32⟩
  | .local _ .vmem, ⟨32, _⟩ => ⟨S64x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x1, .f32⟩
  | .local _ .vmem, ⟨48, _⟩ => ⟨S2000x1, .f32⟩
  | .local _ .vmem, ⟨49, _⟩ => ⟨S2000x1, .f32⟩
  | .local _ .vmem, ⟨50, _⟩ => ⟨S2000x1, .f32⟩
  | .local _ .vmem, ⟨51, _⟩ => ⟨S5000x1, .f32⟩
  | .local _ .vmem, ⟨52, _⟩ => ⟨S5000x1, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2000x64, .f32⟩
  | .local _ .vmem, ⟨67, _⟩ => ⟨S2000x64, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S2000x64, .f32⟩
  | .local _ .vmem, ⟨72, _⟩ => ⟨S2000x64, .f32⟩
  | .local _ .vmem, ⟨73, _⟩ => ⟨S2000x64, .f32⟩
  | .local _ .vmem, ⟨74, _⟩ => ⟨S2000x64, .f32⟩
  | .local _ .vmem, ⟨75, _⟩ => ⟨S2000x1, .f32⟩
  | .local _ .vmem, ⟨76, _⟩ => ⟨S2000x1, .f32⟩
  | .local _ .vmem, ⟨77, _⟩ => ⟨S2000x1, .f32⟩
  | .local _ .vmem, ⟨78, _⟩ => ⟨S2000x1, .f32⟩
  | .local _ .vmem, ⟨79, _⟩ => ⟨S64x64, .f32⟩
  | .local _ .vmem, ⟨80, _⟩ => ⟨S1x64, .f32⟩
  | .local _ .vmem, ⟨81, _⟩ => ⟨S1x1, .f32⟩
  | .local _ .vmem, ⟨82, _⟩ => ⟨S1x64, .f32⟩
  | .local _ .vmem, ⟨83, _⟩ => ⟨S2000x64, .f32⟩
  | .local _ .vmem, ⟨84, _⟩ => ⟨S2000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57_0 : Ref sig .tc := ⟨.hbm, 77, rfl⟩
abbrev main_v57_1 : Ref sig .tc := ⟨.hbm, 78, rfl⟩
abbrev main_v57_2 : Ref sig .tc := ⟨.hbm, 79, rfl⟩
abbrev main_v57_3 : Ref sig .tc := ⟨.hbm, 80, rfl⟩
abbrev main_v57_4 : Ref sig .tc := ⟨.hbm, 81, rfl⟩
abbrev main_v57_5 : Ref sig .tc := ⟨.hbm, 82, rfl⟩
abbrev main_v57_6 : Ref sig .tc := ⟨.hbm, 83, rfl⟩
abbrev main_v57_7 : Ref sig .tc := ⟨.hbm, 84, rfl⟩
abbrev main_v57_8 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_c_21 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_22 : Ref sig .tc := ⟨.hbm, 122, rfl⟩
abbrev main_v86 : Ref sig .tc := ⟨.hbm, 123, rfl⟩
abbrev main_v87 : Ref sig .tc := ⟨.hbm, 124, rfl⟩
abbrev main_c_23 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_24 : Ref sig .tc := ⟨.hbm, 131, rfl⟩
abbrev main_v93 : Ref sig .tc := ⟨.hbm, 132, rfl⟩
abbrev main_v94 : Ref sig .tc := ⟨.hbm, 133, rfl⟩
abbrev main_c_25 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_26 : Ref sig .tc := ⟨.hbm, 140, rfl⟩
abbrev main_v100 : Ref sig .tc := ⟨.hbm, 141, rfl⟩
abbrev main_v101 : Ref sig .tc := ⟨.hbm, 142, rfl⟩
abbrev main_c_27 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_28 : Ref sig .tc := ⟨.hbm, 149, rfl⟩
abbrev main_v107 : Ref sig .tc := ⟨.hbm, 150, rfl⟩
abbrev main_v108 : Ref sig .tc := ⟨.hbm, 151, rfl⟩
abbrev main_c_29 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114_0 : Ref sig .tc := ⟨.hbm, 158, rfl⟩
abbrev main_v114_1 : Ref sig .tc := ⟨.hbm, 159, rfl⟩
abbrev main_cst_30 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_31 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_32 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_33 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_34 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_35 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_36 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_37 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_38 : Ref sig .tc := ⟨.hbm, 195, rfl⟩
abbrev main_v142 : Ref sig .tc := ⟨.hbm, 196, rfl⟩
abbrev main_v143 : Ref sig .tc := ⟨.hbm, 197, rfl⟩
abbrev main_cst_39 : Ref sig .tc := ⟨.hbm, 198, rfl⟩
abbrev main_v144 : Ref sig .tc := ⟨.hbm, 199, rfl⟩
abbrev main_v145 : Ref sig .tc := ⟨.hbm, 200, rfl⟩
abbrev main_cst_40 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg10_1 : Ref sig .tc := ⟨.vmem, 34, rfl⟩
abbrev cc2_stg11_0 : Ref sig .tc := ⟨.vmem, 35, rfl⟩
abbrev cc2_stg11_1 : Ref sig .tc := ⟨.vmem, 36, rfl⟩
abbrev cc2_stg12_0 : Ref sig .tc := ⟨.vmem, 37, rfl⟩
abbrev cc2_stg12_1 : Ref sig .tc := ⟨.vmem, 38, rfl⟩
abbrev cc2_stg13_0 : Ref sig .tc := ⟨.vmem, 39, rfl⟩
abbrev cc2_stg13_1 : Ref sig .tc := ⟨.vmem, 40, rfl⟩
abbrev cc2_stg14_0 : Ref sig .tc := ⟨.vmem, 41, rfl⟩
abbrev cc2_stg14_1 : Ref sig .tc := ⟨.vmem, 42, rfl⟩
abbrev cc2_stg15_0 : Ref sig .tc := ⟨.vmem, 43, rfl⟩
abbrev cc2_stg15_1 : Ref sig .tc := ⟨.vmem, 44, rfl⟩
abbrev cc2_stg16_0 : Ref sig .tc := ⟨.vmem, 45, rfl⟩
abbrev cc2_stg16_1 : Ref sig .tc := ⟨.vmem, 46, rfl⟩
abbrev cc2_stg17_0 : Ref sig .tc := ⟨.vmem, 47, rfl⟩
abbrev cc2_stg17_1 : Ref sig .tc := ⟨.vmem, 48, rfl⟩
abbrev cc2_stg18_0 : Ref sig .tc := ⟨.vmem, 49, rfl⟩
abbrev cc2_stg18_1 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc3_stg2_1 : Ref sig .tc := ⟨.vmem, 56, rfl⟩
abbrev cc3_stg3_0 : Ref sig .tc := ⟨.vmem, 57, rfl⟩
abbrev cc3_stg3_1 : Ref sig .tc := ⟨.vmem, 58, rfl⟩
abbrev cc3_stg4_0 : Ref sig .tc := ⟨.vmem, 59, rfl⟩
abbrev cc3_stg4_1 : Ref sig .tc := ⟨.vmem, 60, rfl⟩
abbrev cc4_stg0_0 : Ref sig .tc := ⟨.vmem, 61, rfl⟩
abbrev cc4_stg0_1 : Ref sig .tc := ⟨.vmem, 62, rfl⟩
abbrev cc4_stg1_0 : Ref sig .tc := ⟨.vmem, 63, rfl⟩
abbrev cc4_stg1_1 : Ref sig .tc := ⟨.vmem, 64, rfl⟩
abbrev cc4_stg2_0 : Ref sig .tc := ⟨.vmem, 65, rfl⟩
abbrev cc4_stg2_1 : Ref sig .tc := ⟨.vmem, 66, rfl⟩
abbrev cc4_stg3_0 : Ref sig .tc := ⟨.vmem, 67, rfl⟩
abbrev cc4_stg3_1 : Ref sig .tc := ⟨.vmem, 68, rfl⟩
abbrev cc4_stg4_0 : Ref sig .tc := ⟨.vmem, 69, rfl⟩
abbrev cc4_stg4_1 : Ref sig .tc := ⟨.vmem, 70, rfl⟩
abbrev cc4_stg5_0 : Ref sig .tc := ⟨.vmem, 71, rfl⟩
abbrev cc4_stg5_1 : Ref sig .tc := ⟨.vmem, 72, rfl⟩
abbrev cc4_stg6_0 : Ref sig .tc := ⟨.vmem, 73, rfl⟩
abbrev cc4_stg6_1 : Ref sig .tc := ⟨.vmem, 74, rfl⟩
abbrev cc4_stg7_0 : Ref sig .tc := ⟨.vmem, 75, rfl⟩
abbrev cc4_stg7_1 : Ref sig .tc := ⟨.vmem, 76, rfl⟩
abbrev cc4_stg8_0 : Ref sig .tc := ⟨.vmem, 77, rfl⟩
abbrev cc4_stg8_1 : Ref sig .tc := ⟨.vmem, 78, rfl⟩
abbrev cc4_stg9_0 : Ref sig .tc := ⟨.vmem, 79, rfl⟩
abbrev cc4_stg10_0 : Ref sig .tc := ⟨.vmem, 80, rfl⟩
abbrev cc4_stg11_0 : Ref sig .tc := ⟨.vmem, 81, rfl⟩
abbrev cc4_stg12_0 : Ref sig .tc := ⟨.vmem, 82, rfl⟩
abbrev cc4_stg13_0 : Ref sig .tc := ⟨.vmem, 83, rfl⟩
abbrev cc4_stg13_1 : Ref sig .tc := ⟨.vmem, 84, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc2_sem8_0 : DmaSem sig := 30
abbrev cc2_sem8_1 : DmaSem sig := 31
abbrev cc2_sem9_0 : DmaSem sig := 32
abbrev cc2_sem10_0 : DmaSem sig := 33
abbrev cc2_sem10_1 : DmaSem sig := 34
abbrev cc2_sem11_0 : DmaSem sig := 35
abbrev cc2_sem11_1 : DmaSem sig := 36
abbrev cc2_sem12_0 : DmaSem sig := 37
abbrev cc2_sem12_1 : DmaSem sig := 38
abbrev cc2_sem13_0 : DmaSem sig := 39
abbrev cc2_sem13_1 : DmaSem sig := 40
abbrev cc2_sem14_0 : DmaSem sig := 41
abbrev cc2_sem14_1 : DmaSem sig := 42
abbrev cc2_sem15_0 : DmaSem sig := 43
abbrev cc2_sem15_1 : DmaSem sig := 44
abbrev cc2_sem16_0 : DmaSem sig := 45
abbrev cc2_sem16_1 : DmaSem sig := 46
abbrev cc2_sem17_0 : DmaSem sig := 47
abbrev cc2_sem17_1 : DmaSem sig := 48
abbrev cc2_sem18_0 : DmaSem sig := 49
abbrev cc2_sem18_1 : DmaSem sig := 50
abbrev cc3_sem0_0 : DmaSem sig := 51
abbrev cc3_sem0_1 : DmaSem sig := 52
abbrev cc3_sem1_0 : DmaSem sig := 53
abbrev cc3_sem1_1 : DmaSem sig := 54
abbrev cc3_sem2_0 : DmaSem sig := 55
abbrev cc3_sem2_1 : DmaSem sig := 56
abbrev cc3_sem3_0 : DmaSem sig := 57
abbrev cc3_sem3_1 : DmaSem sig := 58
abbrev cc3_sem4_0 : DmaSem sig := 59
abbrev cc3_sem4_1 : DmaSem sig := 60
abbrev cc4_sem0_0 : DmaSem sig := 61
abbrev cc4_sem0_1 : DmaSem sig := 62
abbrev cc4_sem1_0 : DmaSem sig := 63
abbrev cc4_sem1_1 : DmaSem sig := 64
abbrev cc4_sem2_0 : DmaSem sig := 65
abbrev cc4_sem2_1 : DmaSem sig := 66
abbrev cc4_sem3_0 : DmaSem sig := 67
abbrev cc4_sem3_1 : DmaSem sig := 68
abbrev cc4_sem4_0 : DmaSem sig := 69
abbrev cc4_sem4_1 : DmaSem sig := 70
abbrev cc4_sem5_0 : DmaSem sig := 71
abbrev cc4_sem5_1 : DmaSem sig := 72
abbrev cc4_sem6_0 : DmaSem sig := 73
abbrev cc4_sem6_1 : DmaSem sig := 74
abbrev cc4_sem7_0 : DmaSem sig := 75
abbrev cc4_sem7_1 : DmaSem sig := 76
abbrev cc4_sem8_0 : DmaSem sig := 77
abbrev cc4_sem8_1 : DmaSem sig := 78
abbrev cc4_sem9_0 : DmaSem sig := 79
abbrev cc4_sem10_0 : DmaSem sig := 80
abbrev cc4_sem11_0 : DmaSem sig := 81
abbrev cc4_sem12_0 : DmaSem sig := 82
abbrev cc4_sem13_0 : DmaSem sig := 83
abbrev cc4_sem13_1 : DmaSem sig := 84

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2000x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S2000x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S2000x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S2000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S2000x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S2000x64 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S2000x1 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S2000x1 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S64x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S2000x64 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  inb_S3000x64_S3000x64_0_0 : ∀ a, (![0, 0] : Fin 2 → Nat) a + S3000x64.size a ≤ S3000x64.size a
  h_S3000x64 : 0 < S3000x64.numel
  reduces_S3000x64_S3000 : S3000x64.Reduces [1] S3000
  shapeCasts_S3000_S3000x1 : S3000.ShapeCasts S3000x1
  broadcasts_S3000x1_S3000x64 : S3000x1.Broadcasts S3000x64
  slices_S150000x64_S100000x64_0_0 : S150000x64.Slices ![0, 0] S100000x64
  slices_S150000x64_S50000x64_100000_0 : S150000x64.Slices ![100000, 0] S50000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  bcast_S_S100000x64 : S_.BroadcastsInDim S100000x64 (![] : Fin 0 → Fin S100000x64.rank)
  reducesTo_S50000x64_S64_d0 : S50000x64.ReducesTo [0] S64
  h_S_ : 0 < S_.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S2000x64_S2000 : S2000x64.Reduces [1] S2000
  shapeCasts_S2000_S2000x1 : S2000.ShapeCasts S2000x1
  broadcasts_S2000x1_S2000x64 : S2000x1.Broadcasts S2000x64
  shapeCasts_S5000x1_S5000x1 : S5000x1.ShapeCasts S5000x1
  bcast_S_S50000x64 : S_.BroadcastsInDim S50000x64 (![] : Fin 0 → Fin S50000x64.rank)
  bcast_S_S50000x1 : S_.BroadcastsInDim S50000x1 (![] : Fin 0 → Fin S50000x1.rank)
  bcast_S100000x1_S100000x64_0_1 : S100000x1.BroadcastsInDim S100000x64 (![0, 1] : Fin 2 → Fin S100000x64.rank)
  reducesTo_S100000x64_S64_d0 : S100000x64.ReducesTo [0] S64
  reducesTo_S100000x1_S1_d0 : S100000x1.ReducesTo [0] S1
  bcast_S1_S1x1_1 : S1.BroadcastsInDim S1x1 (![1] : Fin 1 → Fin S1x1.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S2000x64 : S1x64.Broadcasts S2000x64
  broadcasts_S1x1_S2000x1 : S1x1.Broadcasts S2000x1
  concatenates_S100000x64_S50000x64_S150000x64_d0 : Shape.Concatenates [S100000x64, S50000x64] S150000x64 0
  scatter_S100000_S1000000x1_S1000000_n_0_0_1_wf : ScatterDims.WF S100000 S1000000x1 S1000000 [] [0] [0] 1
  gather_S50000x64_S1000000x1_S1000000x64_1_0_n_n_0_1_164_wf : GatherDims.WF S50000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S50000x64_S50000x64_S64x64_0_0_1_1_n_n_wf : DotDims.WF S50000x64 S50000x64 S64x64 [0] [0] [1] [1] [] []
  dot_S2000x64_S64x64_S2000x64_1_0_0_1_n_n_wf : DotDims.WF S2000x64 S64x64 S2000x64 [1] [0] [0] [1] [] []
  gather_S100000x1_S1000000x1_S1000000x1_1_0_n_n_0_1_11_wf : GatherDims.WF S100000x1 S1000000x1 S1000000x1 [1] [0] [] [0] [] 1 ![1, 1]
  scatter_S50000x64_S1000000x1_S1000000x64_1_0_0_1_wf : ScatterDims.WF S50000x64 S1000000x1 S1000000x64 [1] [0] [0] 1
  scatter_S50000x1_S1000000x1_S1000000x1_1_0_0_1_wf : ScatterDims.WF S50000x1 S1000000x1 S1000000x1 [1] [0] [0] 1
  dot_S100000x64_S100000x64_S64x64_0_0_1_1_n_n_wf : DotDims.WF S100000x64 S100000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1000000x64.size a
  hwx1_0 : ∀ i : grid1.Coords, EltTy.bits .f32 = 32 ∨ (Rect.block (s := S1000000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1000000x64.size a
  hwx1_1 : ∀ i : grid1.Coords, EltTy.bits .f32 = 32 ∨ (Rect.block (s := S1000000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1000000x64.size a
  hwx1_2 : ∀ i : grid1.Coords, EltTy.bits .f32 = 32 ∨ (Rect.block (s := S1000000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S1000000x1.size a
  hwx1_3 : ∀ i : grid1.Coords, EltTy.bits .f32 = 32 ∨ (Rect.block (s := S1000000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S1000000x64.size a
  hwx1_4 : ∀ i : grid1.Coords, EltTy.bits .f32 = 32 ∨ (Rect.block (s := S1000000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S100000x1.size a
  hwx2_7 : ∀ i : grid2.Coords, EltTy.bits .f32 = 32 ∨ (Rect.block (s := S100000x1) S2000x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x1.size a ≤ S100000x1.size a
  hwx2_8 : ∀ i : grid2.Coords, EltTy.bits .f32 = 32 ∨ (Rect.block (s := S100000x1) S2000x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x64.size a ≤ S100000x64.size a
  hwx2_10 : ∀ i : grid2.Coords, EltTy.bits .f32 = 32 ∨ (Rect.block (s := S100000x64) S2000x64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x64.size a ≤ S100000x64.size a
  hwx2_11 : ∀ i : grid2.Coords, EltTy.bits .f32 = 32 ∨ (Rect.block (s := S100000x64) S2000x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x64.size a ≤ S100000x64.size a
  hwx2_12 : ∀ i : grid2.Coords, EltTy.bits .f32 = 32 ∨ (Rect.block (s := S100000x64) S2000x64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x64.size a ≤ S100000x64.size a
  hwx2_13 : ∀ i : grid2.Coords, EltTy.bits .f32 = 32 ∨ (Rect.block (s := S100000x64) S2000x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x64.size a ≤ S100000x64.size a
  hwx2_14 : ∀ i : grid2.Coords, EltTy.bits .f32 = 32 ∨ (Rect.block (s := S100000x64) S2000x64.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x64.size a ≤ S100000x64.size a
  hwx2_15 : ∀ i : grid2.Coords, EltTy.bits .f32 = 32 ∨ (Rect.block (s := S100000x64) S2000x64.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x64.size a ≤ S100000x64.size a
  hwx2_16 : ∀ i : grid2.Coords, EltTy.bits .f32 = 32 ∨ (Rect.block (s := S100000x64) S2000x64.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S2000x1.size a ≤ S100000x1.size a
  hwx2_17 : ∀ i : grid2.Coords, EltTy.bits .f32 = 32 ∨ (Rect.block (s := S100000x1) S2000x1.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S2000x1.size a ≤ S100000x1.size a
  hwx2_18 : ∀ i : grid2.Coords, EltTy.bits .f32 = 32 ∨ (Rect.block (s := S100000x1) S2000x1.size (cc2_transform_18 i) (hinb2_18 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S1000000x1.size a
  hwx3_0 : ∀ i : grid3.Coords, EltTy.bits .f32 = 32 ∨ (Rect.block (s := S1000000x1) S5000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S1000000x64.size a
  hwx3_1 : ∀ i : grid3.Coords, EltTy.bits .f32 = 32 ∨ (Rect.block (s := S1000000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S1000000x64.size a
  hwx3_2 : ∀ i : grid3.Coords, EltTy.bits .f32 = 32 ∨ (Rect.block (s := S1000000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S1000000x64.size a
  hwx3_3 : ∀ i : grid3.Coords, EltTy.bits .f32 = 32 ∨ (Rect.block (s := S1000000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S1000000x64.size a
  hwx3_4 : ∀ i : grid3.Coords, EltTy.bits .f32 = 32 ∨ (Rect.block (s := S1000000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S50000x64.size a
  hwx4_4 : ∀ i : grid4.Coords, EltTy.bits .f32 = 32 ∨ (Rect.block (s := S50000x64) S2000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S50000x64.size a
  hwx4_5 : ∀ i : grid4.Coords, EltTy.bits .f32 = 32 ∨ (Rect.block (s := S50000x64) S2000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S50000x64.size a
  hwx4_6 : ∀ i : grid4.Coords, EltTy.bits .f32 = 32 ∨ (Rect.block (s := S50000x64) S2000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x1.size a ≤ S50000x1.size a
  hwx4_7 : ∀ i : grid4.Coords, EltTy.bits .f32 = 32 ∨ (Rect.block (s := S50000x1) S2000x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x1.size a ≤ S50000x1.size a
  hwx4_8 : ∀ i : grid4.Coords, EltTy.bits .f32 = 32 ∨ (Rect.block (s := S50000x1) S2000x1.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x64.size a ≤ S64x64.size a
  hwx4_9 : ∀ i : grid4.Coords, EltTy.bits .f32 = 32 ∨ (Rect.block (s := S64x64) S64x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x1.size a ≤ S1x1.size a
  hwx4_11 : ∀ i : grid4.Coords, EltTy.bits .f32 = 32 ∨ (Rect.block (s := S1x1) S1x1.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S2000x64.size a ≤ S50000x64.size a
  hwx4_13 : ∀ i : grid4.Coords, EltTy.bits .f32 = 32 ∨ (Rect.block (s := S50000x64) S2000x64.size (cc4_transform_13 i) (hinb4_13 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S50000x64_S50000x64_S64x64_0_0_1_1_n_n : DotDims S50000x64 S50000x64 S64x64 where
  lhsContracting := [0]
  rhsContracting := [0]
  lhsNonContracting := [1]
  rhsNonContracting := [1]
  lhsBatch := []
  rhsBatch := []
  wf := dot_S50000x64_S50000x64_S64x64_0_0_1_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S100000x64_S100000x64_S64x64_0_0_1_1_n_n : DotDims S100000x64 S100000x64 S64x64 where
  lhsContracting := [0]
  rhsContracting := [0]
  lhsNonContracting := [1]
  rhsNonContracting := [1]
  lhsBatch := []
  rhsBatch := []
  wf := dot_S100000x64_S100000x64_S64x64_0_0_1_1_n_n_wf

abbrev win0_0 : Pipeline.Window sig grid0 :=
  Pipeline.Window.ofSpec (Memref.whole main_arg0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S3000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38_0) S5000x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v48) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v55) S2000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v8) S2000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v11) S2000x1.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v56) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v57_0) S2000x64.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v57_1) S2000x64.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v57_2) S2000x64.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v57_3) S2000x64.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v57_4) S2000x64.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v57_5) S2000x64.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v57_6) S2000x64.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v57_7) S2000x1.size cc2_transform_17 reads2_17 true false 2 stage2_17 sem2_17
    hrank2 hreads2_17 hinb2_17 nbuf2_17 (Memref.isWhole_whole _) hwx2_17 hstage2_17

abbrev win2_18 : Pipeline.Window sig grid2 :=
  Pipeline.Window.ofSpec (Memref.whole main_v57_8) S2000x1.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

abbrev win3_0 : Pipeline.Window sig grid3 :=
  Pipeline.Window.ofSpec (Memref.whole main_v38_0) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v114_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v114_1) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v14) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v117) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v123) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v126) S2000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v135) S2000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v138) S2000x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v120) S2000x64.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v129) S2000x1.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v132) S2000x1.size cc4_transform_8 reads4_8 false false 2 stage4_8 sem4_8
    hrank4 hreads4_8 hinb4_8 nbuf4_8 (Memref.isWhole_whole _) hwx4_8 hstage4_8

abbrev win4_9 : Pipeline.Window sig grid4 :=
  Pipeline.Window.ofSpec (Memref.whole main_v141) S64x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v143) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v145) S1x1.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v147) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v148) S2000x64.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S150000x64 : Shape := ⟨2, ![150000, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S150000 : Shape := ⟨1, ![150000]⟩
abbrev S150000x1 : Shape := ⟨2, ![150000, 1]⟩
abbrev S100000x64 : Shape := ⟨2, ![100000, 64]⟩
abbrev S50000x64 : Shape := ⟨2, ![50000, 64]⟩
abbrev S1000000x64 : Shape := ⟨2, ![1000000, 64]⟩
abbrev S64 : Shape := ⟨1, ![64]⟩
abbrev S1x64 : Shape := ⟨2, ![1, 64]⟩
abbrev S50000 : Shape := ⟨1, ![50000]⟩
abbrev S50000x1 : Shape := ⟨2, ![50000, 1]⟩
abbrev S1 : Shape := ⟨1, ![1]⟩
abbrev S1x1 : Shape := ⟨2, ![1, 1]⟩
abbrev S64x64 : Shape := ⟨2, ![64, 64]⟩

abbrev nBuf : Space → Nat
  | .hbm => 349
  | .vmem => 0
  | .smem => 0
  | _ => 0

abbrev hbmTy0_0 (i : Nat) : BufTy := match i % 128 with
  | 0 => ⟨S150000x64, .f32⟩
  | 1 => ⟨S1000000, .i32⟩
  | 2 => ⟨S1000000, .i32⟩
  | 3 => ⟨S_, .f32⟩
  | 4 => ⟨S1000000, .f32⟩
  | 5 => ⟨S_, .f32⟩
  | 6 => ⟨S100000, .f32⟩
  | 7 => ⟨S1000000x1, .i32⟩
  | 8 => ⟨S100000, .f32⟩
  | 9 => ⟨S_, .f32⟩
  | 10 => ⟨S100000, .f32⟩
  | 11 => ⟨S100000, .f32⟩
  | 12 => ⟨S_, .f32⟩
  | 13 => ⟨S100000, .f32⟩
  | 14 => ⟨S100000, .f32⟩
  | 15 => ⟨S100000x1, .f32⟩
  | 16 => ⟨S_, .f32⟩
  | 17 => ⟨S100000, .f32⟩
  | 18 => ⟨S100000, .f32⟩
  | 19 => ⟨S100000x1, .f32⟩
  | 20 => ⟨S150000x64, .f32⟩
  | 21 => ⟨S_, .f32⟩
  | 22 => ⟨S150000, .f32⟩
  | 23 => ⟨S150000x1, .f32⟩
  | 24 => ⟨S150000x1, .f32⟩
  | 25 => ⟨S_, .f32⟩
  | 26 => ⟨S150000x1, .f32⟩
  | 27 => ⟨S150000x1, .f32⟩
  | 28 => ⟨S150000x64, .f32⟩
  | 29 => ⟨S150000x64, .f32⟩
  | 30 => ⟨S100000x64, .f32⟩
  | 31 => ⟨S50000x64, .f32⟩
  | 32 => ⟨S100000x64, .f32⟩
  | 33 => ⟨S50000x64, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x64, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x64, .f32⟩
  | 62 => ⟨S_, .f32⟩
  | 63 => ⟨S1000000, .f32⟩
  | 64 => ⟨S1000000x1, .f32⟩
  | 65 => ⟨S_, .f32⟩
  | 66 => ⟨S100000x64, .f32⟩
  | 67 => ⟨S1000000x1, .i32⟩
  | 68 => ⟨S100000x64, .f32⟩
  | 69 => ⟨S_, .f32⟩
  | 70 => ⟨S64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S1000000x1, .i32⟩
  | 77 => ⟨S100000x64, .f32⟩
  | 78 => ⟨S_, .f32⟩
  | 79 => ⟨S64, .f32⟩
  | 80 => ⟨S1x64, .f32⟩
  | 81 => ⟨S100000x64, .f32⟩
  | 82 => ⟨S100000x64, .f32⟩
  | 83 => ⟨S100000x64, .f32⟩
  | 84 => ⟨S_, .f32⟩
  | 85 => ⟨S100000, .f32⟩
  | 86 => ⟨S100000x1, .f32⟩
  | 87 => ⟨S100000x1, .f32⟩
  | 88 => ⟨S100000x64, .f32⟩
  | 89 => ⟨S_, .f32⟩
  | 90 => ⟨S100000, .f32⟩
  | 91 => ⟨S100000x1, .f32⟩
  | 92 => ⟨S100000x1, .f32⟩
  | 93 => ⟨S100000x64, .f32⟩
  | 94 => ⟨S_, .f32⟩
  | 95 => ⟨S100000, .f32⟩
  | 96 => ⟨S100000x1, .f32⟩
  | 97 => ⟨S100000x1, .f32⟩
  | 98 => ⟨S100000x1, .f32⟩
  | 99 => ⟨S_, .f32⟩
  | 100 => ⟨S100000x1, .f32⟩
  | 101 => ⟨S100000x1, .f32⟩
  | 102 => ⟨S100000x64, .f32⟩
  | 103 => ⟨S_, .f32⟩
  | 104 => ⟨S100000, .f32⟩
  | 105 => ⟨S100000x1, .f32⟩
  | 106 => ⟨S100000x1, .f32⟩
  | 107 => ⟨S100000x1, .f32⟩
  | 108 => ⟨S100000x1, .f32⟩
  | 109 => ⟨S_, .f32⟩
  | 110 => ⟨S100000x1, .f32⟩
  | 111 => ⟨S100000x1, .f32⟩
  | 112 => ⟨S100000x64, .f32⟩
  | 113 => ⟨S100000x64, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S_, .f32⟩
  | 124 => ⟨S50000x64, .f32⟩
  | 125 => ⟨S1000000x1, .i32⟩
  | 126 => ⟨S50000x64, .f32⟩
  | 127 => ⟨S50000x64, .f32⟩
  | _ => ⟨S150000x64, .f32⟩

abbrev hbmTy0_1 (i : Nat) : BufTy := match i % 128 with
  | 0 => ⟨S_, .f32⟩
  | 1 => ⟨S50000, .f32⟩
  | 2 => ⟨S50000x1, .f32⟩
  | 3 => ⟨S100000x1, .f32⟩
  | 4 => ⟨S_, .f32⟩
  | 5 => ⟨S100000x1, .f32⟩
  | 6 => ⟨S100000x1, .f32⟩
  | 7 => ⟨S100000x1, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x1, .f32⟩
  | 17 => ⟨S_, .f32⟩
  | 18 => ⟨S50000x1, .f32⟩
  | 19 => ⟨S1000000x1, .i32⟩
  | 20 => ⟨S50000x1, .f32⟩
  | 21 => ⟨S50000x1, .f32⟩
  | 22 => ⟨S100000x64, .f32⟩
  | 23 => ⟨S100000x64, .f32⟩
  | 24 => ⟨S_, .f32⟩
  | 25 => ⟨S64, .f32⟩
  | 26 => ⟨S1x64, .f32⟩
  | 27 => ⟨S100000x64, .f32⟩
  | 28 => ⟨S100000x64, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x64, .f32⟩
  | 38 => ⟨S_, .f32⟩
  | 39 => ⟨S50000x64, .f32⟩
  | 40 => ⟨S1000000x1, .i32⟩
  | 41 => ⟨S50000x64, .f32⟩
  | 42 => ⟨S50000x64, .f32⟩
  | 43 => ⟨S50000x64, .f32⟩
  | 44 => ⟨S_, .f32⟩
  | 45 => ⟨S100000x1, .f32⟩
  | 46 => ⟨S100000x1, .f32⟩
  | 47 => ⟨S100000x1, .f32⟩
  | 48 => ⟨S_, .f32⟩
  | 49 => ⟨S1, .f32⟩
  | 50 => ⟨S1x1, .f32⟩
  | 51 => ⟨S_, .f32⟩
  | 52 => ⟨S100000x1, .f32⟩
  | 53 => ⟨S100000x1, .f32⟩
  | 54 => ⟨S100000x1, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x1, .f32⟩
  | 64 => ⟨S_, .f32⟩
  | 65 => ⟨S50000x1, .f32⟩
  | 66 => ⟨S1000000x1, .i32⟩
  | 67 => ⟨S50000x1, .f32⟩
  | 68 => ⟨S50000x1, .f32⟩
  | 69 => ⟨S50000x1, .f32⟩
  | 70 => ⟨S50000x64, .f32⟩
  | 71 => ⟨S_, .f32⟩
  | 72 => ⟨S50000, .f32⟩
  | 73 => ⟨S50000x1, .f32⟩
  | 74 => ⟨S50000x1, .f32⟩
  | 75 => ⟨S50000x1, .f32⟩
  | 76 => ⟨S1000000x64, .f32⟩
  | 77 => ⟨S1000000x64, .f32⟩
  | 78 => ⟨S_, .f32⟩
  | 79 => ⟨S100000x64, .f32⟩
  | 80 => ⟨S1000000x1, .i32⟩
  | 81 => ⟨S100000x64, .f32⟩
  | 82 => ⟨S64x64, .f32⟩
  | 83 => ⟨S100000x64, .f32⟩
  | 84 => ⟨S100000x64, .f32⟩
  | 85 => ⟨S_, .f32⟩
  | 86 => ⟨S100000x1, .f32⟩
  | 87 => ⟨S100000x1, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S_, .f32⟩
  | 98 => ⟨S100000x1, .f32⟩
  | 99 => ⟨S100000x1, .f32⟩
  | 100 => ⟨S100000x64, .f32⟩
  | 101 => ⟨S100000x64, .f32⟩
  | 102 => ⟨S100000x64, .f32⟩
  | 103 => ⟨S100000x64, .f32⟩
  | 104 => ⟨S100000x64, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x64, .f32⟩
  | 114 => ⟨S1000000x64, .f32⟩
  | 115 => ⟨S1000000x64, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x1, .f32⟩
  | 125 => ⟨S1000000x64, .f32⟩
  | 126 => ⟨S1000000x64, .f32⟩
  | 127 => ⟨S_, .f32⟩
  | _ => ⟨S150000x64, .f32⟩

abbrev hbmTy0_2 (i : Nat) : BufTy := match i % 128 with
  | 0 => ⟨S50000x64, .f32⟩
  | 1 => ⟨S1000000x1, .i32⟩
  | 2 => ⟨S50000x64, .f32⟩
  | 3 => ⟨S_, .f32⟩
  | 4 => ⟨S100000x1, .f32⟩
  | 5 => ⟨S100000x1, .f32⟩
  | 6 => ⟨S100000x64, .f32⟩
  | 7 => ⟨S100000x64, .f32⟩
  | 8 => ⟨S100000x64, .f32⟩
  | 9 => ⟨S100000x64, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x64, .f32⟩
  | 19 => ⟨S_, .f32⟩
  | 20 => ⟨S50000x64, .f32⟩
  | 21 => ⟨S1000000x1, .i32⟩
  | 22 => ⟨S50000x64, .f32⟩
  | 23 => ⟨S50000x64, .f32⟩
  | 24 => ⟨S100000x64, .f32⟩
  | 25 => ⟨S100000x64, .f32⟩
  | 26 => ⟨S64x64, .f32⟩
  | 27 => ⟨S_, .f32⟩
  | 28 => ⟨S100000x1, .f32⟩
  | 29 => ⟨S100000x1, .f32⟩
  | 30 => ⟨S100000x64, .f32⟩
  | 31 => ⟨S100000x64, .f32⟩
  | 32 => ⟨S100000x64, .f32⟩
  | 33 => ⟨S100000x64, .f32⟩
  | 34 => ⟨S_, .f32⟩
  | 35 => ⟨S64, .f32⟩
  | 36 => ⟨S1x64, .f32⟩
  | 37 => ⟨S_, .f32⟩
  | 38 => ⟨S100000x1, .f32⟩
  | 39 => ⟨S100000x1, .f32⟩
  | 40 => ⟨S100000x64, .f32⟩
  | 41 => ⟨S100000x64, .f32⟩
  | 42 => ⟨S100000x64, .f32⟩
  | 43 => ⟨S100000x64, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x64, .f32⟩
  | 53 => ⟨S_, .f32⟩
  | 54 => ⟨S50000x64, .f32⟩
  | 55 => ⟨S1000000x1, .i32⟩
  | 56 => ⟨S50000x64, .f32⟩
  | 57 => ⟨S50000x64, .f32⟩
  | 58 => ⟨S50000x64, .f32⟩
  | 59 => ⟨S50000x64, .f32⟩
  | 60 => ⟨S100000x64, .f32⟩
  | 61 => ⟨S100000x64, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S1000000x64, .f32⟩
  | 72 => ⟨S1000000x64, .f32⟩
  | 73 => ⟨S_, .f32⟩
  | 74 => ⟨S50000x64, .f32⟩
  | 75 => ⟨S1000000x1, .i32⟩
  | 76 => ⟨S50000x64, .f32⟩
  | 77 => ⟨S50000x64, .f32⟩
  | 78 => ⟨S50000x64, .f32⟩
  | 79 => ⟨S100000x64, .f32⟩
  | 80 => ⟨S50000x64, .f32⟩
  | 81 => ⟨S150000x64, .f32⟩
  | 82 => ⟨S150000x1, .f32⟩
  | 83 => ⟨S_, .f32⟩
  | 84 => ⟨S150000x1, .f32⟩
  | 85 => ⟨S150000x1, .f32⟩
  | 86 => ⟨S150000x1, .f32⟩
  | 87 => ⟨S_, .f32⟩
  | 88 => ⟨S150000x1, .f32⟩
  | 89 => ⟨S150000x1, .f32⟩
  | 90 => ⟨S150000x1, .f32⟩
  | 91 => ⟨S150000x64, .f32⟩
  | 92 => ⟨S150000x64, .f32⟩
  | _ => ⟨S150000x64, .f32⟩

abbrev hbmTy (i : Nat) : BufTy := match i / 128 with
  | 0 => hbmTy0_0 i
  | 1 => hbmTy0_1 i
  | 2 => hbmTy0_2 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_21 : Ref sig .tc := ⟨.hbm, 114, rfl⟩
abbrev main_v84 : Ref sig .tc := ⟨.hbm, 115, rfl⟩
abbrev main_v85 : Ref sig .tc := ⟨.hbm, 116, rfl⟩
abbrev main_c_22 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_23 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_24 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_25 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_26 : Ref sig .tc := ⟨.hbm, 136, rfl⟩
abbrev main_v101 : Ref sig .tc := ⟨.hbm, 137, rfl⟩
abbrev main_v102 : Ref sig .tc := ⟨.hbm, 138, rfl⟩
abbrev main_c_27 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_28 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_29 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_30 : Ref sig .tc := ⟨.hbm, 157, rfl⟩
abbrev main_v118 : Ref sig .tc := ⟨.hbm, 158, rfl⟩
abbrev main_v119 : Ref sig .tc := ⟨.hbm, 159, rfl⟩
abbrev main_c_31 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_32 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_33 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_34 : Ref sig .tc := ⟨.hbm, 176, rfl⟩
abbrev main_v133 : Ref sig .tc := ⟨.hbm, 177, rfl⟩
abbrev main_v134 : Ref sig .tc := ⟨.hbm, 178, rfl⟩
abbrev main_cst_35 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_36 : Ref sig .tc := ⟨.hbm, 183, rfl⟩
abbrev main_v138 : Ref sig .tc := ⟨.hbm, 184, rfl⟩
abbrev main_v139 : Ref sig .tc := ⟨.hbm, 185, rfl⟩
abbrev main_c_37 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_38 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_39 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_40 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_41 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_42 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_c_43 : Ref sig .tc := ⟨.hbm, 233, rfl⟩
abbrev main_v181 : Ref sig .tc := ⟨.hbm, 234, rfl⟩
abbrev main_v182 : Ref sig .tc := ⟨.hbm, 235, rfl⟩
abbrev main_c_44 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_c_45 : Ref sig .tc := ⟨.hbm, 244, rfl⟩
abbrev main_v190 : Ref sig .tc := ⟨.hbm, 245, rfl⟩
abbrev main_v191 : Ref sig .tc := ⟨.hbm, 246, rfl⟩
abbrev main_c_46 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_cst_47 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_cst_48 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_c_49 : Ref sig .tc := ⟨.hbm, 266, rfl⟩
abbrev main_v208 : Ref sig .tc := ⟨.hbm, 267, rfl⟩
abbrev main_v209 : Ref sig .tc := ⟨.hbm, 268, rfl⟩
abbrev main_c_50 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_cst_51 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_52 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_cst_53 : Ref sig .tc := ⟨.hbm, 290, rfl⟩
abbrev main_v228 : Ref sig .tc := ⟨.hbm, 291, rfl⟩
abbrev main_v229 : Ref sig .tc := ⟨.hbm, 292, rfl⟩
abbrev main_cst_54 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_c_55 : Ref sig .tc := ⟨.hbm, 300, rfl⟩
abbrev main_v236 : Ref sig .tc := ⟨.hbm, 301, rfl⟩
abbrev main_v237 : Ref sig .tc := ⟨.hbm, 302, rfl⟩
abbrev main_c_56 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_cst_57 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_c_58 : Ref sig .tc := ⟨.hbm, 318, rfl⟩
abbrev main_v251 : Ref sig .tc := ⟨.hbm, 319, rfl⟩
abbrev main_v252 : Ref sig .tc := ⟨.hbm, 320, rfl⟩
abbrev main_c_59 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_cst_60 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_cst_61 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_cst_62 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S150000x64_S100000x64_0_0 : S150000x64.Slices ![0, 0] S100000x64
  slices_S150000x64_S50000x64_100000_0 : S150000x64.Slices ![100000, 0] S50000x64
  reducesTo_S1000000x64_S1000000_d1 : S1000000x64.ReducesTo [1] S1000000
  bcast_S_S100000x64 : S_.BroadcastsInDim S100000x64 (![] : Fin 0 → Fin S100000x64.rank)
  reducesTo_S50000x64_S64_d0 : S50000x64.ReducesTo [0] S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S50000x64 : S_.BroadcastsInDim S50000x64 (![] : Fin 0 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  reducesTo_S100000x64_S64_d0 : S100000x64.ReducesTo [0] S64
  bcast_S1x64_S50000x64_0_1 : S1x64.BroadcastsInDim S50000x64 (![0, 1] : Fin 2 → Fin S50000x64.rank)
  reducesTo_S100000x1_S1_d0 : S100000x1.ReducesTo [0] S1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S1000000x1_S1000000x64_0_1 : S1000000x1.BroadcastsInDim S1000000x64 (![0, 1] : Fin 2 → Fin S1000000x64.rank)
  concatenates_S100000x64_S50000x64_S150000x64_d0 : Shape.Concatenates [S100000x64, S50000x64] S150000x64 0
  concatenates_S100000x1_S50000x1_S150000x1_d0 : Shape.Concatenates [S100000x1, S50000x1] S150000x1 0
  scatter_S100000_S1000000x1_S1000000_n_0_0_1_wf : ScatterDims.WF S100000 S1000000x1 S1000000 [] [0] [0] 1
  gather_S50000x64_S1000000x1_S1000000x64_1_0_n_n_0_1_164_wf : GatherDims.WF S50000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S50000x64_S1000000x1_S1000000x64_1_0_0_1_wf : ScatterDims.WF S50000x64 S1000000x1 S1000000x64 [1] [0] [0] 1
  gather_S100000x1_S1000000x1_S1000000x1_1_0_n_n_0_1_11_wf : GatherDims.WF S100000x1 S1000000x1 S1000000x1 [1] [0] [] [0] [] 1 ![1, 1]
  scatter_S50000x1_S1000000x1_S1000000x1_1_0_0_1_wf : ScatterDims.WF S50000x1 S1000000x1 S1000000x1 [1] [0] [0] 1
  dot_S50000x64_S50000x64_S64x64_0_0_1_1_n_n_wf : DotDims.WF S50000x64 S50000x64 S64x64 [0] [0] [1] [1] [] []
  dot_S100000x64_S64x64_S100000x64_1_0_0_1_n_n_wf : DotDims.WF S100000x64 S64x64 S100000x64 [1] [0] [0] [1] [] []
  dot_S100000x64_S100000x64_S64x64_0_0_1_1_n_n_wf : DotDims.WF S100000x64 S100000x64 S64x64 [0] [0] [1] [1] [] []
  dot_S50000x64_S64x64_S50000x64_1_0_0_1_n_n_wf : DotDims.WF S50000x64 S64x64 S50000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x64_S50000x64_S64x64_0_0_1_1_n_n : DotDims S50000x64 S50000x64 S64x64 where
  lhsContracting := [0]
  rhsContracting := [0]
  lhsNonContracting := [1]
  rhsNonContracting := [1]
  lhsBatch := []
  rhsBatch := []
  wf := dot_S50000x64_S50000x64_S64x64_0_0_1_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S100000x64_S64x64_0_0_1_1_n_n : DotDims S100000x64 S100000x64 S64x64 where
  lhsContracting := [0]
  rhsContracting := [0]
  lhsNonContracting := [1]
  rhsNonContracting := [1]
  lhsBatch := []
  rhsBatch := []
  wf := dot_S100000x64_S100000x64_S64x64_0_0_1_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The blocked program's run with its result named. Its @main is eleven segments: six stretches of host
  operations and five pipelined regions. Every weakly fair execution terminates without a fault; at the
  end every unscoped buffer holds the last boundary's contents, the fold W11 of the launch memory through
  the segments. Read at the result buffer this names the result array, W11 m ρ c main_v149; read at the
  three arguments it gives them back unchanged. The argument is the one that proves the frame (the launch
  over the segments, the last thread state read against the final state), with one more buffer read.
-/
import proofs.«138700_j66589172957770_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's
    contents and the three arguments as launched. -/
theorem run_result : θ_run defs (onTc (τ := τ) (main (F := F))) ⟨m, fun _ => 0, ρ⟩ (fun r => ∀ c : Dev nD,
      r.2.mem ((c.tc : Thread nD τ).loc main_v149) = W11 m ρ c (Proc.devRef .tc main_v149)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v149 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c)⟩)

end Cert.KernelIdeal.Result

end
-- ==== Proof.RefResult.lean ====
/-
  The plain program's run names its result by one long composed term of the arguments; that term is the
  last stage, operation by operation, so the two agree by unfolding.
-/
import proofs.«138700_j66589172957770_1_alg».proof.Proof.RefRun
import proofs.«138700_j66589172957770_1_alg».proof.Proof.RefRead

set_option maxRecDepth 16384

noncomputable section

namespace Cert.RefResult

open Idealize.ShloMosaic Idealize.ShloMosaic.TcCoe Idealize.SL.Sem
open Cert.ReferenceIdeal Cert.ReferenceIdeal.Gen Cert.ReferenceIdeal.Read

/-- The term the run states for the result buffer is the last stage of the arguments as launched. -/
theorem res_eq (m : (ℓ : Loc nD τ sig) → Buf (Elt Ideal) ℓ) (c : Dev nD) :
    Cert.ReferenceIdeal.Value.res_main_v276 (F := Ideal) m c
      = val_main_v276 (F := Ideal) (m ((c.tc : Thread nD τ).loc main_arg0)) (m ((c.tc : Thread nD τ).loc main_arg1)) (m ((c.tc : Thread nD τ).loc main_arg2)) := by
  unfold Cert.ReferenceIdeal.Value.res_main_v276; rfl

end Cert.RefResult

end
-- ==== Proof.Stages.lean ====
/-
  The two programs compute one array. Writing n = 100000 users, m = 50000 items, E = 1000000 edges, D = 64:
  the rows of x are normalised (xn = x / max(|x|, eps)), split into user rows (xu, vu) and item rows (xi, vi);
  per edge e = (u e, i e) the score xui e = <xu (u e), xi (i e)>; per user the sums over its edges
  (sxi, svi, A) and their complements (sxj, svj), the scalars b_pos, b_neg, the user result
  (zu1 + zu2) / (max(du1, c) + max(du2, c)); per item the sums over its edges of per-user quantities
  and the item result (zi1 + zi2) / (max(di1, c) + max(di2, c)).

  This module names the three arrays of the blocked program that the plain program never forms as
  arrays of their own, as functions of the plain program's stages:
  * p0   : vu / dui                                  (the plain program divides after gathering and scaling);
  * outU : rows 0..n-1 of the result                 (the plain program divides after joining users and items);
  * outI : rows n..n+m-1 of the result.
-/
import proofs.«138700_j66589172957770_1_alg».proof.Proof.RefRead

noncomputable section

namespace Cert.Stages

open Idealize.ShloMosaic Cert.ReferenceIdeal Cert.ReferenceIdeal.Read

/-- The float argument array and an integer argument array. -/
abbrev XArr := (⟨S150000x64, .f32⟩ : BufTy).Contents (Elt Ideal)
abbrev IArr := (⟨S1000000, .i32⟩ : BufTy).Contents (Elt Ideal)

/-- The entry of an n x 1 column that row j of an n x 64 array sees. -/
abbrev colU (j : S100000x64.Idx) : S100000x1.Idx := fun a => match a with
  | ⟨0, _⟩ => ⟨(j 0).val, (j 0).isLt⟩
  | ⟨1, _⟩ => ⟨0, Nat.one_pos⟩
/-- The entry of an m x 1 column that row j of an m x 64 array sees. -/
abbrev colI (j : S50000x64.Idx) : S50000x1.Idx := fun a => match a with
  | ⟨0, _⟩ => ⟨(j 0).val, (j 0).isLt⟩
  | ⟨1, _⟩ => ⟨0, Nat.one_pos⟩

/-- The clamp c = f32(1e-6) under both denominators. -/
def clampC : Elt Ideal .f32 := FloatOps.ofBits (F := Ideal) .f32 0x358637BD#32

/-- vu / dui: each raw user row over that user's clamped degree. -/
def p0 (x : XArr) (u : IArr) : (⟨S100000x64, .f32⟩ : BufTy).Contents (Elt Ideal) := fun j =>
  FloatOps.hostDivf (F := Ideal) (φ := .f32) (val_main_v19 (F := Ideal) x j) (val_main_v8 (F := Ideal) u (colU j))

/-- The user rows of the result: (zu1 + zu2) / (max(du1, c) + max(du2, c)), the denominator one number per row. -/
def outU (x : XArr) (u i : IArr) : (⟨S100000x64, .f32⟩ : BufTy).Contents (Elt Ideal) := fun j =>
  FloatOps.hostDivf (F := Ideal) (φ := .f32) (val_main_v265 (F := Ideal) x u i j)
    (FloatOps.addf (F := Ideal) (φ := .f32) (FloatOps.maximumf (F := Ideal) (φ := .f32) (val_main_v73 (F := Ideal) x u i (colU j)) clampC)
      (FloatOps.maximumf (F := Ideal) (φ := .f32) (val_main_v81 (F := Ideal) x u i (colU j)) clampC))

/-- The item rows of the result: (zi1 + zi2) / (max(di1, c) + max(di2, c)). -/
def outI (x : XArr) (u i : IArr) : (⟨S50000x64, .f32⟩ : BufTy).Contents (Elt Ideal) := fun j =>
  FloatOps.hostDivf (F := Ideal) (φ := .f32) (val_main_v266 (F := Ideal) x u i j)
    (FloatOps.addf (F := Ideal) (φ := .f32) (FloatOps.maximumf (F := Ideal) (φ := .f32) (val_main_v111 (F := Ideal) x u i (colI j)) clampC)
      (FloatOps.maximumf (F := Ideal) (φ := .f32) (val_main_v154 (F := Ideal) x u i (colI j)) clampC))

end Cert.Stages

end
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.Region0.lean ====
/-
  Region 0: the rows of x normalised. Each grid point t reads rows 3000 t .. 3000 t + 2999 of x and writes the
  same rows of the result; row r of the result is x r over max (sqrt (sum_k (x r k)^2)) eps. The plain program's
  stage 16 is the same quotient, its row sum started from the zero word (which denotes 0).
-/
import proofs.«138700_j66589172957770_1_alg».proof.Proof.Gen.KernelIdeal.Frame
import proofs.«138700_j66589172957770_1_alg».proof.Proof.Stages
import proofs.«138700_j66589172957770_1_alg».proof.Proof.LibRowLayout

set_option maxRecDepth 16384

noncomputable section

namespace Cert.Regions

open Idealize.ShloMosaic Idealize.ShloMosaic.TcCoe Idealize.SL.Sem
open Cert.KernelIdeal Cert.KernelIdeal.Gen Cert.Stages
open Idealize.ShloMosaic.ValueIdx Cert.ReferenceIdeal.Read

variable (V : (c : Dev nD) → (b : Ref sig .tc) → Buf (Elt Ideal) ((c : Thread nD τ).loc b))

theorem hz0 : (![0, 0] : Fin 2 → Nat) = fun _ => 0 := funext fun a => by fin_cases a <;> rfl

/-- The normalised row, entry by entry: x r q over max (sqrt (sum_k (x r k)^2)) eps. -/
def xnAt (x : XArr) (r : Fin 150000) (q : Fin 64) : EReal :=
  Ideal.div (x (ix2 r q))
    (max (Ideal.sqrt (∑ k : Fin 64, x (ix2 r k) * x (ix2 r k))) (Ideal.ofBits .f32 0x2B8CBCCC#32))

/-- Stage 16 of the plain program is the normalised row. -/
theorem stage16_apply (x : XArr) (r : Fin 150000) (q : Fin 64) :
    val_main_v16 (F := Ideal) x (ix2 r q) = xnAt x r q := by
  rw [val_main_v16_apply, val_main_v15_apply, val_main_v14_apply, val_main_v12_apply, val_main_v13_apply,
    val_main_cst_4_apply, val_main_call0_v2_apply, val_main_call0_v1_apply, val_main_call0_cst_apply]
  have hk : ∀ k : Fin 64, idx_main_call0_v1 (idx_main_call0_v2 (idx_main_v15 (ix2 r q))) k = ix2 r k :=
    fun k => funext fun a => Fin.ext (by match a with | ⟨0, _⟩ => rfl | ⟨1, _⟩ => rfl)
  simp only [hk, val_main_call0_v0_apply]
  show Ideal.div (x (ix2 r q)) (max (Ideal.sqrt (Ideal.ofBits .f32 0x00000000#32 + ∑ k : Fin 64, x (ix2 r k) * x (ix2 r k))) _) = _
  rw [Ideal.ofBits_zero_f32, zero_add]
  rfl

/-- The body's payload at row p, column q of its 3000 x 64 block. -/
theorem pay0_apply (x0 : Vec Ideal S3000x64 .f32) (p : Fin 3000) (q : Fin 64) :
    k0_pay1 (F := Ideal) x0 (ix2 p q)
      = Ideal.div (x0 (ix2 p q))
          (max (Ideal.sqrt (∑ k : Fin 64, x0 (ix2 p k) * x0 (ix2 p k))) (Ideal.ofBits .f32 0x2B8CBCCC#32)) := by
  unfold k0_pay1
  refine congrArg (Ideal.div (x0 (ix2 p q))) ?_
  refine (Cert.LibRowLayout.broadcastTo_a1_ab_apply _ _ p q).trans ?_
  refine congrArg (fun z => max (Ideal.sqrt z) (Ideal.ofBits .f32 0x2B8CBCCC#32)) ?_
  refine (Cert.LibRowLayout.shapeCast_a_a1_apply _ _ p (0 : Fin 1)).trans ?_
  exact Cert.LibRowLayout.multiReduction_row _ _ _ _ _ p

/-- One point of region 0 over variables: if row p of the loaded block is row r of x, the payload's row p is
    stage 16's row r. -/
theorem point0 (x : XArr) (x0 : Vec Ideal S3000x64 .f32) (p : Fin 3000) (q : Fin 64) (r : Fin 150000)
    (hx0 : ∀ k : Fin 64, x0 (ix2 p k) = x (ix2 r k)) :
    k0_pay1 (F := Ideal) x0 (ix2 p q) = val_main_v16 (F := Ideal) x (ix2 r q) := by
  rw [pay0_apply, stage16_apply]
  unfold xnAt
  simp only [hx0]

/-- The printed index maps of region 0, decided over its 50 points: block t of either window starts at row
    3000 t, column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row p, column k of the input block at point t is row 3000 t + p of x. -/
theorem iblk0_apply (c : Dev nD) (x : XArr) (h0 : V c main_arg0 = x) (t : Fin cfg0.N) (p : Fin 3000) (k : Fin 64)
    (r : Fin 150000) (hr : r.val = t.val * 3000 + p.val) :
    (iblk0 V c 0 t : Vec Ideal S3000x64 .f32) (ix2 p k) = x (ix2 r k) := by
  obtain ⟨e0, e1, -, -⟩ := idx_facts0 t
  unfold iblk0
  rw [View.read_apply]
  show V c main_arg0 _ = x _
  rw [h0]
  refine congrArg x (funext fun a => Fin.ext ?_)
  match a with
  | ⟨0, _⟩ => show win0_0.index t (0 : Fin 2) * 3000 + 1 * p.val = r.val; rw [e0, hr]; omega
  | ⟨1, _⟩ => show win0_0.index t (1 : Fin 2) * 64 + 1 * k.val = k.val; rw [e1]; omega

/-- What point t writes back is block t of stage 16. -/
theorem flushed0_eq (c : Dev nD) (x : XArr) (h0 : V c main_arg0 = x) (t : Fin cfg0.N) :
    (dat0 (F := Ideal) V c).flushed 1 t
      = ((cfg0.win 1).blk t).view.read (Elt Ideal) (val_main_v16 (F := Ideal) x) := by
  show (cfg0.win 1).cut (grid0.coords t) ((dat0 V c).after 1 t) = _
  rw [after0_1]
  unfold out0_1
  rw [View.canon_unit_zero hz0]
  simp only [View.ld_unit_zero (S := S3000x64) hz0]
  obtain ⟨-, -, e2, e3⟩ := idx_facts0 t
  have ht : t.val < 50 := lt_of_lt_of_eq t.isLt (show cfg0.N = 50 from N_0)
  funext j
  obtain ⟨p, q, rfl⟩ : ∃ (p : Fin 3000) (q : Fin 64), j = ix2 p q := ⟨j 0, j 1, eq_ix2 j⟩
  have hp : p.val < 3000 := p.isLt
  have hr : t.val * 3000 + p.val < 150000 := by omega
  show k0_pay1 (F := Ideal) (iblk0 V c 0 t) (ix2 p q)
    = val_main_v16 (F := Ideal) x (((cfg0.win 1).blk t).view.emb (ix2 p q))
  have hemb : ((cfg0.win 1).blk t).view.emb (ix2 p q) = ix2 (⟨t.val * 3000 + p.val, hr⟩ : Fin 150000) q := by
    funext a; apply Fin.ext
    match a with
    | ⟨0, _⟩ => show win0_1.index t (0 : Fin 2) * 3000 + 1 * p.val = t.val * 3000 + p.val; rw [e2]; omega
    | ⟨1, _⟩ => show win0_1.index t (1 : Fin 2) * 64 + 1 * q.val = q.val; rw [e3]; omega
  rw [hemb]
  exact point0 x (iblk0 V c 0 t) p q ⟨t.val * 3000 + p.val, hr⟩
    (fun k => iblk0_apply V c x h0 t p k ⟨t.val * 3000 + p.val, hr⟩ rfl)

/-- An index of the array is in point t's block iff each coordinate is in the block's range on its axis. -/
theorem mem_blk0 (t : Fin cfg0.N) (i : S150000x64.Idx) :
    i ∈ ((cfg0.win 1).blk t).view.set ↔ ∀ a : Fin 2, win0_1.index t a * S3000x64.size a ≤ (i a).val
      ∧ (i a).val < win0_1.index t a * S3000x64.size a + S3000x64.size a := by
  show i ∈ ((View.whole main_v12).slice (win0_1.rect t)).set ↔ _
  rw [View.set_slice_whole, Rect.mem_set_unit]
  exact Iff.rfl

/-- Every row r is in the block of point r / 3000. -/
theorem cover0 (i : S150000x64.Idx) :
    ∃ t : Fin cfg0.N, (cfg0.win 1).flush t = true ∧ i ∈ ((cfg0.win 1).blk t).view.set := by
  have hi0 : (i 0).val < 150000 := (i 0).isLt
  have hi1 : (i 1).val < 64 := (i 1).isLt
  have hlt : (i 0).val / 3000 < cfg0.N := by rw [show cfg0.N = 50 from N_0]; omega
  obtain ⟨-, -, e2, e3⟩ := idx_facts0 ⟨(i 0).val / 3000, hlt⟩
  refine ⟨⟨(i 0).val / 3000, hlt⟩, flush0_1 _, ?_⟩
  rw [mem_blk0]
  intro a
  match a with
  | ⟨0, _⟩ =>
    show win0_1.index ⟨(i 0).val / 3000, hlt⟩ (0 : Fin 2) * 3000 ≤ (i 0).val
      ∧ (i 0).val < win0_1.index ⟨(i 0).val / 3000, hlt⟩ (0 : Fin 2) * 3000 + 3000
    rw [e2]; show (i 0).val / 3000 * 3000 ≤ (i 0).val ∧ (i 0).val < (i 0).val / 3000 * 3000 + 3000; omega
  | ⟨1, _⟩ =>
    show win0_1.index ⟨(i 0).val / 3000, hlt⟩ (1 : Fin 2) * 64 ≤ (i 1).val
      ∧ (i 1).val < win0_1.index ⟨(i 0).val / 3000, hlt⟩ (1 : Fin 2) * 64 + 64
    rw [e3]; omega

theorem region0_xn (c : Dev nD) (x : XArr) (u i : IArr)
    (h0 : V c main_arg0 = x) :
    (dat0 (F := Ideal) V c).arrAt 1 cfg0.N = Cert.ReferenceIdeal.Read.val_main_v16 (F := Ideal) x :=
  (dat0 (F := Ideal) V c).arrAt_eq_of_cover 1 (val_main_v16 (F := Ideal) x)
    (fun t _ => flushed0_eq V c x h0 t) cover0

end Cert.Regions

end
-- ==== Proof.Fold1.lean ====
/-
  The blocked program's buffers at its first two boundaries, as stages of the plain program.
  Boundary 1 is the first stretch of host operations run from the launch memory: it forms the two degree
  columns dui = max(count, 1) and duj = max(50000 - count, 1) by the very operations the plain program
  uses, and leaves the arguments alone. Boundary 2 is the exit of the first region, which writes the
  normalised rows x / max(|x|, eps) and nothing else.
-/
import proofs.«138700_j66589172957770_1_alg».proof.Proof.Gen.KernelIdeal.Frame
import proofs.«138700_j66589172957770_1_alg».proof.Proof.Stages
import proofs.«138700_j66589172957770_1_alg».proof.Proof.Region0
import Idealize.ShloMosaic.Lib.StableHlo.Run

set_option maxRecDepth 16384

noncomputable section

namespace Cert.Fold

open Idealize.ShloMosaic Idealize.ShloMosaic.TcCoe Idealize.SL.Sem Idealize.ShloMosaic.StableHlo
open Cert.KernelIdeal Cert.KernelIdeal.Gen Cert.Stages

variable (m : (ℓ : Loc nD τ sig) → Buf (Elt Ideal) ℓ) (ρ : Dev nD → PrngReg)

/-- The three argument arrays as launched, per device. -/
abbrev xa (c : Dev nD) : XArr := m ((c : Thread nD τ).loc main_arg0)
abbrev ua (c : Dev nD) : IArr := m ((c : Thread nD τ).loc main_arg1)
abbrev ia (c : Dev nD) : IArr := m ((c : Thread nD τ).loc main_arg2)

/-! ## Boundary 1 -/

theorem w1_v8 (c : Dev nD) : W1 (F := Ideal) m ρ c (Proc.devRef .tc main_v8) = Cert.ReferenceIdeal.Read.val_main_v8 (F := Ideal) (ua m c) := by
  dsimp only [W1, hostOps0]
  after_results_simp
  rfl

theorem w1_v11 (c : Dev nD) : W1 (F := Ideal) m ρ c (Proc.devRef .tc main_v11) = Cert.ReferenceIdeal.Read.val_main_v11 (F := Ideal) (ua m c) := by
  dsimp only [W1, hostOps0]
  after_results_simp
  rfl

theorem w1_arg0 (c : Dev nD) : W1 (F := Ideal) m ρ c (Proc.devRef .tc main_arg0) = (xa m c) := by
  dsimp only [W1, hostOps0]
  after_results_simp

theorem w1_arg1 (c : Dev nD) : W1 (F := Ideal) m ρ c (Proc.devRef .tc main_arg1) = (ua m c) := by
  dsimp only [W1, hostOps0]
  after_results_simp

theorem w1_arg2 (c : Dev nD) : W1 (F := Ideal) m ρ c (Proc.devRef .tc main_arg2) = (ia m c) := by
  dsimp only [W1, hostOps0]
  after_results_simp

/-! ## Boundary 2 -/

theorem w2_arg0 (c : Dev nD) : W2 (F := Ideal) m ρ c (Proc.devRef .tc main_arg0) = (xa m c) :=
  ((W2_arr m ρ c 0).trans (((dat0 (V1 (F := Ideal) m ρ) c).arrAt_in 0 rfl _).trans (A_eq0 (V1 (F := Ideal) m ρ) c 0))).trans (w1_arg0 m ρ c)

theorem w2_arg1 (c : Dev nD) : W2 (F := Ideal) m ρ c (Proc.devRef .tc main_arg1) = (ua m c) :=
  (W2_of_ne m ρ c main_arg1 (by decide)).trans (w1_arg1 m ρ c)

theorem w2_arg2 (c : Dev nD) : W2 (F := Ideal) m ρ c (Proc.devRef .tc main_arg2) = (ia m c) :=
  (W2_of_ne m ρ c main_arg2 (by decide)).trans (w1_arg2 m ρ c)

theorem w2_v8 (c : Dev nD) : W2 (F := Ideal) m ρ c (Proc.devRef .tc main_v8) = Cert.ReferenceIdeal.Read.val_main_v8 (F := Ideal) (ua m c) :=
  (W2_of_ne m ρ c main_v8 (by decide)).trans (w1_v8 m ρ c)

theorem w2_v11 (c : Dev nD) : W2 (F := Ideal) m ρ c (Proc.devRef .tc main_v11) = Cert.ReferenceIdeal.Read.val_main_v11 (F := Ideal) (ua m c) :=
  (W2_of_ne m ρ c main_v11 (by decide)).trans (w1_v11 m ρ c)

theorem w2_v12 (c : Dev nD) : W2 (F := Ideal) m ρ c (Proc.devRef .tc main_v12) = Cert.ReferenceIdeal.Read.val_main_v16 (F := Ideal) (xa m c) :=
  (W2_arr m ρ c 1).trans (Cert.Regions.region0_xn (V1 (F := Ideal) m ρ) c (xa m c) (ua m c) (ia m c) (w1_arg0 m ρ c))

end Cert.Fold

end
-- ==== Proof.Region1Pay.lean ====
/-
  Region 1, one point: per edge e the score xui e = sum_k xu_e e k * xi_e e k, kept as a column, and
  avi e q = xui e * vi_e e q. The plain program's stage 44 is the same row sum (started from the zero word, which
  denotes 0) kept as a column, and its stage 156 is that column spread along the rows times the third array. This
  module reads both sides entry by entry and compares them at one row of one block.
-/
import proofs.«138700_j66589172957770_1_alg».proof.Proof.Gen.KernelIdeal.Skeleton
import proofs.«138700_j66589172957770_1_alg».proof.Proof.Stages
import proofs.«138700_j66589172957770_1_alg».proof.Proof.LibRowLayout

set_option maxRecDepth 16384

noncomputable section

namespace Cert.Regions

open Idealize.ShloMosaic Idealize.ShloMosaic.TcCoe Idealize.SL.Sem
open Cert.KernelIdeal Cert.KernelIdeal.Gen Cert.Stages
open Idealize.ShloMosaic.ValueIdx Cert.ReferenceIdeal.Read

/-! ## The plain program's two stages, entry by entry -/

/-- Stage 44 at edge e: the dot product of row e of stage 41 with row e of stage 27. -/
theorem stage44_apply (x : XArr) (u i : IArr) (e : Fin 1000000) (z : Fin 1) :
    val_main_v44 (F := Ideal) x u i (ix2 e z)
      = ∑ k : Fin 64, val_main_v41 (F := Ideal) x u (ix2 e k) * val_main_v27 (F := Ideal) x i (ix2 e k) := by
  rw [val_main_v44_apply, val_main_v43_apply, val_main_cst_10_apply]
  have hk : ∀ k : Fin 64, idx_main_v43 (idx_main_v44 (ix2 e z)) k = ix2 e k :=
    fun k => funext fun a => Fin.ext (by match a with | ⟨0, _⟩ => rfl | ⟨1, _⟩ => rfl)
  simp only [hk, val_main_v42_apply]
  show Ideal.ofBits .f32 0x00000000#32
    + ∑ k : Fin 64, val_main_v41 (F := Ideal) x u (ix2 e k) * val_main_v27 (F := Ideal) x i (ix2 e k) = _
  rw [Ideal.ofBits_zero_f32, zero_add]

/-- Stage 156 at edge e, column q: the score of e times row e of stage 34. -/
theorem stage156_apply (x : XArr) (u i : IArr) (e : Fin 1000000) (q : Fin 64) :
    val_main_v156 (F := Ideal) x u i (ix2 e q)
      = val_main_v44 (F := Ideal) x u i (ix2 e (0 : Fin 1)) * val_main_v34 (F := Ideal) x i (ix2 e q) := by
  rw [val_main_v156_apply, val_main_v155_apply]
  have h1 : idx_main_v155 (ix2 e q) = ix2 e (0 : Fin 1) :=
    funext fun a => Fin.ext (by match a with | ⟨0, _⟩ => rfl | ⟨1, _⟩ => rfl)
  rw [h1]
  rfl

/-! ## The body's two payloads, entry by entry -/

/-- The score payload at row p of a 5000-row block: the dot product of row p of the two loaded blocks. -/
theorem pay1_xui_apply (a b : Vec Ideal S5000x64 .f32) (p : Fin 5000) (z : Fin 1) :
    k1_pay1 (F := Ideal) a b (ix2 p z) = ∑ k : Fin 64, a (ix2 p k) * b (ix2 p k) := by
  unfold k1_pay1
  refine (Cert.LibRowLayout.shapeCast_a_a1_apply _ _ p z).trans ?_
  refine (Cert.LibRowLayout.multiReduction_row _ _ _ _ _ p).trans ?_
  refine Finset.sum_congr rfl fun k _ => ?_
  have ea := congrFun (shapeCast_self a shapeCasts_S5000x64_S5000x64) (ix2 p k)
  have eb := congrFun (shapeCast_self b shapeCasts_S5000x64_S5000x64) (ix2 p k)
  show shapeCast S5000x64 a shapeCasts_S5000x64_S5000x64 (ix2 p k)
    * shapeCast S5000x64 b shapeCasts_S5000x64_S5000x64 (ix2 p k) = a (ix2 p k) * b (ix2 p k)
  rw [ea, eb]

/-- The second payload at row p, column q: the score of row p times the third block's entry. -/
theorem pay1_avi_apply (a b d : Vec Ideal S5000x64 .f32) (p : Fin 5000) (q : Fin 64) :
    k1_pay2 (F := Ideal) a b d (ix2 p q) = k1_pay1 (F := Ideal) a b (ix2 p (0 : Fin 1)) * d (ix2 p q) := by
  unfold k1_pay2
  have eb := Cert.LibRowLayout.broadcastTo_a1_ab_apply (k1_pay1 (F := Ideal) a b) broadcasts_S5000x1_S5000x64 p q
  have ed := congrFun (shapeCast_self d shapeCasts_S5000x64_S5000x64) (ix2 p q)
  show broadcastTo S5000x64 (k1_pay1 (F := Ideal) a b) broadcasts_S5000x1_S5000x64 (ix2 p q)
    * shapeCast S5000x64 d shapeCasts_S5000x64_S5000x64 (ix2 p q) = _
  rw [eb, ed]

/-! ## One point over variables -/

/-- If row p of the two loaded blocks is row e of stages 41 and 27, the score payload's row p is stage 44's row e. -/
theorem point1_xui (x : XArr) (u i : IArr) (a b : Vec Ideal S5000x64 .f32) (p : Fin 5000) (z : Fin 1)
    (e : Fin 1000000)
    (ha : ∀ k : Fin 64, a (ix2 p k) = val_main_v41 (F := Ideal) x u (ix2 e k))
    (hb : ∀ k : Fin 64, b (ix2 p k) = val_main_v27 (F := Ideal) x i (ix2 e k)) :
    k1_pay1 (F := Ideal) a b (ix2 p z) = val_main_v44 (F := Ideal) x u i (ix2 e z) := by
  rw [pay1_xui_apply, stage44_apply]
  simp only [ha, hb]

/-- If moreover row p of the third block is row e of stage 34, the second payload's row p is stage 156's row e. -/
theorem point1_avi (x : XArr) (u i : IArr) (a b d : Vec Ideal S5000x64 .f32) (p : Fin 5000) (q : Fin 64)
    (e : Fin 1000000)
    (ha : ∀ k : Fin 64, a (ix2 p k) = val_main_v41 (F := Ideal) x u (ix2 e k))
    (hb : ∀ k : Fin 64, b (ix2 p k) = val_main_v27 (F := Ideal) x i (ix2 e k))
    (hd : ∀ k : Fin 64, d (ix2 p k) = val_main_v34 (F := Ideal) x i (ix2 e k)) :
    k1_pay2 (F := Ideal) a b d (ix2 p q) = val_main_v156 (F := Ideal) x u i (ix2 e q) := by
  rw [pay1_avi_apply, stage156_apply, point1_xui x u i a b p (0 : Fin 1) e ha hb, hd]

end Cert.Regions

end
-- ==== Proof.Region1Blocks.lean ====
/-
  Region 1, the blocks: each of its 200 grid points reads and writes rows 5000 t .. 5000 t + 4999 of every array
  (1000000 rows; the score column has one entry per row, the others 64). This module reads an input block's entry
  as an entry of its array, says when an index of a result lies in a point's block, and shows that every index
  lies in the block of point (row / 5000).
-/
import proofs.«138700_j66589172957770_1_alg».proof.Proof.Gen.KernelIdeal.Frame
import Idealize.ShloMosaic.PureOps.Ideal
import Idealize.ShloMosaic.Lib.ValueIdx

set_option maxRecDepth 16384

noncomputable section

namespace Cert.Regions

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The printed index maps of region 1, decided over its 200 points: block t of every window starts at row
    5000 t, column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem lt_200 (t : Fin cfg1.N) : t.val < 200 := lt_of_lt_of_eq t.isLt (show cfg1.N = 200 from N_1)

/-- Row p, column k of the first input block at point t is row 5000 t + p of the first array. -/
theorem iblk1_0_apply (c : Dev nD) (A : (⟨S1000000x64, .f32⟩ : BufTy).Contents (Elt Ideal)) (h : V c main_v37 = A)
    (t : Fin cfg1.N) (p : Fin 5000) (k : Fin 64) (e : Fin 1000000) (he : e.val = t.val * 5000 + p.val) :
    (iblk1 V c 0 t : Vec Ideal S5000x64 .f32) (ix2 p k) = A (ix2 e k) := by
  obtain ⟨e0, e1, -⟩ := idx_facts1 t
  unfold iblk1
  rw [View.read_apply]
  show V c main_v37 _ = A _
  rw [h]
  refine congrArg A (funext fun a => Fin.ext ?_)
  match a with
  | ⟨0, _⟩ => show win1_0.index t (0 : Fin 2) * 5000 + 1 * p.val = e.val; rw [e0, he]; omega
  | ⟨1, _⟩ => show win1_0.index t (1 : Fin 2) * 64 + 1 * k.val = k.val; rw [e1]; omega

/-- The same for the second input block. -/
theorem iblk1_1_apply (c : Dev nD) (A : (⟨S1000000x64, .f32⟩ : BufTy).Contents (Elt Ideal)) (h : V c main_v23 = A)
    (t : Fin cfg1.N) (p : Fin 5000) (k : Fin 64) (e : Fin 1000000) (he : e.val = t.val * 5000 + p.val) :
    (iblk1 V c 1 t : Vec Ideal S5000x64 .f32) (ix2 p k) = A (ix2 e k) := by
  obtain ⟨-, -, e0, e1, -⟩ := idx_facts1 t
  unfold iblk1
  rw [View.read_apply]
  show V c main_v23 _ = A _
  rw [h]
  refine congrArg A (funext fun a => Fin.ext ?_)
  match a with
  | ⟨0, _⟩ => show win1_1.index t (0 : Fin 2) * 5000 + 1 * p.val = e.val; rw [e0, he]; omega
  | ⟨1, _⟩ => show win1_1.index t (1 : Fin 2) * 64 + 1 * k.val = k.val; rw [e1]; omega

/-- The same for the third input block. -/
theorem iblk1_2_apply (c : Dev nD) (A : (⟨S1000000x64, .f32⟩ : BufTy).Contents (Elt Ideal)) (h : V c main_v30 = A)
    (t : Fin cfg1.N) (p : Fin 5000) (k : Fin 64) (e : Fin 1000000) (he : e.val = t.val * 5000 + p.val) :
    (iblk1 V c 2 t : Vec Ideal S5000x64 .f32) (ix2 p k) = A (ix2 e k) := by
  obtain ⟨-, -, -, -, e0, e1, -⟩ := idx_facts1 t
  unfold iblk1
  rw [View.read_apply]
  show V c main_v30 _ = A _
  rw [h]
  refine congrArg A (funext fun a => Fin.ext ?_)
  match a with
  | ⟨0, _⟩ => show win1_2.index t (0 : Fin 2) * 5000 + 1 * p.val = e.val; rw [e0, he]; omega
  | ⟨1, _⟩ => show win1_2.index t (1 : Fin 2) * 64 + 1 * k.val = k.val; rw [e1]; omega

/-- A 5000 x 1 block P that agrees, row by row, with rows 5000 t .. 5000 t + 4999 of a column G: the part of P that
    window 3's write-back at point t moves is block t of G. -/
theorem block1_3_eq (t : Fin cfg1.N) (G : (⟨S1000000x1, .f32⟩ : BufTy).Contents (Elt Ideal))
    (P : Vec Ideal S5000x1 .f32)
    (hP : ∀ (p : Fin 5000) (z : Fin 1) (e : Fin 1000000), e.val = t.val * 5000 + p.val →
      P (ix2 p z) = G (ix2 e z)) :
    (cfg1.win 3).cut (grid1.coords t) P = ((cfg1.win 3).blk t).view.read (Elt Ideal) G := by
  obtain ⟨-, -, -, -, -, -, e6, e7, -⟩ := idx_facts1 t
  have ht := lt_200 t
  funext j
  obtain ⟨p, z, rfl⟩ : ∃ (p : Fin 5000) (z : Fin 1), j = ix2 p z := ⟨j 0, j 1, eq_ix2 j⟩
  have hp : p.val < 5000 := p.isLt
  have hr : t.val * 5000 + p.val < 1000000 := by omega
  show P (ix2 p z) = G (((cfg1.win 3).blk t).view.emb (ix2 p z))
  have hemb : ((cfg1.win 3).blk t).view.emb (ix2 p z) = ix2 (⟨t.val * 5000 + p.val, hr⟩ : Fin 1000000) z := by
    funext a; apply Fin.ext
    match a with
    | ⟨0, _⟩ => show win1_3.index t (0 : Fin 2) * 5000 + 1 * p.val = t.val * 5000 + p.val; rw [e6]; omega
    | ⟨1, _⟩ => show win1_3.index t (1 : Fin 2) * 1 + 1 * z.val = z.val; rw [e7]; omega
  rw [hemb]
  exact hP p z ⟨t.val * 5000 + p.val, hr⟩ rfl

/-- The same for a 5000 x 64 block and window 4. -/
theorem block1_4_eq (t : Fin cfg1.N) (G : (⟨S1000000x64, .f32⟩ : BufTy).Contents (Elt Ideal))
    (P : Vec Ideal S5000x64 .f32)
    (hP : ∀ (p : Fin 5000) (q : Fin 64) (e : Fin 1000000), e.val = t.val * 5000 + p.val →
      P (ix2 p q) = G (ix2 e q)) :
    (cfg1.win 4).cut (grid1.coords t) P = ((cfg1.win 4).blk t).view.read (Elt Ideal) G := by
  obtain ⟨-, -, -, -, -, -, -, -, e8, e9⟩ := idx_facts1 t
  have ht := lt_200 t
  funext j
  obtain ⟨p, q, rfl⟩ : ∃ (p : Fin 5000) (q : Fin 64), j = ix2 p q := ⟨j 0, j 1, eq_ix2 j⟩
  have hp : p.val < 5000 := p.isLt
  have hr : t.val * 5000 + p.val < 1000000 := by omega
  show P (ix2 p q) = G (((cfg1.win 4).blk t).view.emb (ix2 p q))
  have hemb : ((cfg1.win 4).blk t).view.emb (ix2 p q) = ix2 (⟨t.val * 5000 + p.val, hr⟩ : Fin 1000000) q := by
    funext a; apply Fin.ext
    match a with
    | ⟨0, _⟩ => show win1_4.index t (0 : Fin 2) * 5000 + 1 * p.val = t.val * 5000 + p.val; rw [e8]; omega
    | ⟨1, _⟩ => show win1_4.index t (1 : Fin 2) * 64 + 1 * q.val = q.val; rw [e9]; omega
  rw [hemb]
  exact hP p q ⟨t.val * 5000 + p.val, hr⟩ rfl

/-- An index of the score column is in point t's block iff each coordinate is in the block's range on its axis. -/
theorem mem_blk1_3 (t : Fin cfg1.N) (j : S1000000x1.Idx) :
    j ∈ ((cfg1.win 3).blk t).view.set ↔ ∀ a : Fin 2, win1_3.index t a * S5000x1.size a ≤ (j a).val
      ∧ (j a).val < win1_3.index t a * S5000x1.size a + S5000x1.size a := by
  show j ∈ ((View.whole main_v38_0).slice (win1_3.rect t)).set ↔ _
  rw [View.set_slice_whole, Rect.mem_set_unit]
  exact Iff.rfl

/-- The same for the second result. -/
theorem mem_blk1_4 (t : Fin cfg1.N) (j : S1000000x64.Idx) :
    j ∈ ((cfg1.win 4).blk t).view.set ↔ ∀ a : Fin 2, win1_4.index t a * S5000x64.size a ≤ (j a).val
      ∧ (j a).val < win1_4.index t a * S5000x64.size a + S5000x64.size a := by
  show j ∈ ((View.whole main_v38_1).slice (win1_4.rect t)).set ↔ _
  rw [View.set_slice_whole, Rect.mem_set_unit]
  exact Iff.rfl

/-- Every edge e is in the block of point e / 5000. -/
theorem cover1_3' (j : S1000000x1.Idx) :
    ∃ t : Fin cfg1.N, (cfg1.win 3).flush t = true ∧ j ∈ ((cfg1.win 3).blk t).view.set := by
  have hj0 : (j 0).val < 1000000 := (j 0).isLt
  have hj1 : (j 1).val < 1 := (j 1).isLt
  have hlt : (j 0).val / 5000 < cfg1.N := by rw [show cfg1.N = 200 from N_1]; omega
  obtain ⟨-, -, -, -, -, -, e6, e7, -⟩ := idx_facts1 ⟨(j 0).val / 5000, hlt⟩
  refine ⟨⟨(j 0).val / 5000, hlt⟩, flush1_3 _, ?_⟩
  rw [mem_blk1_3]
  intro a
  match a with
  | ⟨0, _⟩ =>
    show win1_3.index ⟨(j 0).val / 5000, hlt⟩ (0 : Fin 2) * 5000 ≤ (j 0).val
      ∧ (j 0).val < win1_3.index ⟨(j 0).val / 5000, hlt⟩ (0 : Fin 2) * 5000 + 5000
    rw [e6]; show (j 0).val / 5000 * 5000 ≤ (j 0).val ∧ (j 0).val < (j 0).val / 5000 * 5000 + 5000; omega
  | ⟨1, _⟩ =>
    show win1_3.index ⟨(j 0).val / 5000, hlt⟩ (1 : Fin 2) * 1 ≤ (j 1).val
      ∧ (j 1).val < win1_3.index ⟨(j 0).val / 5000, hlt⟩ (1 : Fin 2) * 1 + 1
    rw [e7]; omega

theorem cover1_4' (j : S1000000x64.Idx) :
    ∃ t : Fin cfg1.N, (cfg1.win 4).flush t = true ∧ j ∈ ((cfg1.win 4).blk t).view.set := by
  have hj0 : (j 0).val < 1000000 := (j 0).isLt
  have hj1 : (j 1).val < 64 := (j 1).isLt
  have hlt : (j 0).val / 5000 < cfg1.N := by rw [show cfg1.N = 200 from N_1]; omega
  obtain ⟨-, -, -, -, -, -, -, -, e8, e9⟩ := idx_facts1 ⟨(j 0).val / 5000, hlt⟩
  refine ⟨⟨(j 0).val / 5000, hlt⟩, flush1_4 _, ?_⟩
  rw [mem_blk1_4]
  intro a
  match a with
  | ⟨0, _⟩ =>
    show win1_4.index ⟨(j 0).val / 5000, hlt⟩ (0 : Fin 2) * 5000 ≤ (j 0).val
      ∧ (j 0).val < win1_4.index ⟨(j 0).val / 5000, hlt⟩ (0 : Fin 2) * 5000 + 5000
    rw [e8]; show (j 0).val / 5000 * 5000 ≤ (j 0).val ∧ (j 0).val < (j 0).val / 5000 * 5000 + 5000; omega
  | ⟨1, _⟩ =>
    show win1_4.index ⟨(j 0).val / 5000, hlt⟩ (1 : Fin 2) * 64 ≤ (j 1).val
      ∧ (j 1).val < win1_4.index ⟨(j 0).val / 5000, hlt⟩ (1 : Fin 2) * 64 + 64
    rw [e9]; omega

end Cert.Regions

end
-- ==== Proof.Region1.lean ====
/-
  Region 1: per edge e the score xui e = sum_k xu_e e k * xi_e e k, kept as a column, and avi e q = xui e * vi_e e q.
  Each grid point t reads rows 5000 t .. 5000 t + 4999 of the three gathered arrays and writes the same rows of the
  two results; what it writes is block t of the plain program's stage 44, respectively stage 156, and the blocks
  tile the arrays, so the two results are those stages.
-/
import proofs.«138700_j66589172957770_1_alg».proof.Proof.Region1Pay
import proofs.«138700_j66589172957770_1_alg».proof.Proof.Region1Blocks

set_option maxRecDepth 16384

noncomputable section

namespace Cert.Regions

open Idealize.ShloMosaic Idealize.ShloMosaic.TcCoe Idealize.SL.Sem
open Cert.KernelIdeal Cert.KernelIdeal.Gen Cert.Stages
open Idealize.ShloMosaic.ValueIdx Cert.ReferenceIdeal.Read

variable (V : (c : Dev nD) → (b : Ref sig .tc) → Buf (Elt Ideal) ((c : Thread nD τ).loc b))

/-- What point t writes back through window 3 is block t of stage 44. -/
theorem flushed1_3_eq (c : Dev nD) (x : XArr) (u i : IArr)
    (h0 : V c main_v37 = val_main_v41 (F := Ideal) x u)
    (h1 : V c main_v23 = val_main_v27 (F := Ideal) x i)
    (t : Fin cfg1.N) :
    (dat1 (F := Ideal) V c).flushed 3 t
      = ((cfg1.win 3).blk t).view.read (Elt Ideal) (val_main_v44 (F := Ideal) x u i) := by
  show (cfg1.win 3).cut (grid1.coords t) ((dat1 V c).after 3 t) = _
  rw [after1_3]
  unfold out1_3
  rw [View.canon_unit_zero hz1]
  simp only [View.ld_unit_zero (S := S5000x64) hz1]
  exact block1_3_eq t (val_main_v44 (F := Ideal) x u i)
    (k1_pay1 (F := Ideal) (iblk1 V c 0 t) (iblk1 V c 1 t))
    (fun p z e he => point1_xui x u i (iblk1 V c 0 t) (iblk1 V c 1 t) p z e
      (fun k => iblk1_0_apply V c (val_main_v41 (F := Ideal) x u) h0 t p k e he)
      (fun k => iblk1_1_apply V c (val_main_v27 (F := Ideal) x i) h1 t p k e he))

/-- What point t writes back through window 4 is block t of stage 156. -/
theorem flushed1_4_eq (c : Dev nD) (x : XArr) (u i : IArr)
    (h0 : V c main_v37 = val_main_v41 (F := Ideal) x u)
    (h1 : V c main_v23 = val_main_v27 (F := Ideal) x i)
    (h2 : V c main_v30 = val_main_v34 (F := Ideal) x i)
    (t : Fin cfg1.N) :
    (dat1 (F := Ideal) V c).flushed 4 t
      = ((cfg1.win 4).blk t).view.read (Elt Ideal) (val_main_v156 (F := Ideal) x u i) := by
  show (cfg1.win 4).cut (grid1.coords t) ((dat1 V c).after 4 t) = _
  rw [after1_4]
  unfold out1_4
  rw [View.canon_unit_zero hz1]
  simp only [View.ld_unit_zero (S := S5000x64) hz1]
  exact block1_4_eq t (val_main_v156 (F := Ideal) x u i)
    (k1_pay2 (F := Ideal) (iblk1 V c 0 t) (iblk1 V c 1 t) (iblk1 V c 2 t))
    (fun p q e he => point1_avi x u i (iblk1 V c 0 t) (iblk1 V c 1 t) (iblk1 V c 2 t) p q e
      (fun k => iblk1_0_apply V c (val_main_v41 (F := Ideal) x u) h0 t p k e he)
      (fun k => iblk1_1_apply V c (val_main_v27 (F := Ideal) x i) h1 t p k e he)
      (fun k => iblk1_2_apply V c (val_main_v34 (F := Ideal) x i) h2 t p k e he))

theorem region1_xui (c : Dev nD) (x : XArr) (u i : IArr)
    (h0 : V c main_v37 = Cert.ReferenceIdeal.Read.val_main_v41 (F := Ideal) x u)
    (h1 : V c main_v23 = Cert.ReferenceIdeal.Read.val_main_v27 (F := Ideal) x i)
    (h2 : V c main_v30 = Cert.ReferenceIdeal.Read.val_main_v34 (F := Ideal) x i) :
    (dat1 (F := Ideal) V c).arrAt 3 cfg1.N = Cert.ReferenceIdeal.Read.val_main_v44 (F := Ideal) x u i :=
  (dat1 (F := Ideal) V c).arrAt_eq_of_cover 3 (val_main_v44 (F := Ideal) x u i)
    (fun t _ => flushed1_3_eq V c x u i h0 h1 t) cover1_3'

theorem region1_avi (c : Dev nD) (x : XArr) (u i : IArr)
    (h0 : V c main_v37 = Cert.ReferenceIdeal.Read.val_main_v41 (F := Ideal) x u)
    (h1 : V c main_v23 = Cert.ReferenceIdeal.Read.val_main_v27 (F := Ideal) x i)
    (h2 : V c main_v30 = Cert.ReferenceIdeal.Read.val_main_v34 (F := Ideal) x i) :
    (dat1 (F := Ideal) V c).arrAt 4 cfg1.N = Cert.ReferenceIdeal.Read.val_main_v156 (F := Ideal) x u i :=
  (dat1 (F := Ideal) V c).arrAt_eq_of_cover 4 (val_main_v156 (F := Ideal) x u i)
    (fun t _ => flushed1_4_eq V c x u i h0 h1 h2 t) cover1_4'

end Cert.Regions

end
-- ==== Proof.Fold2.lean ====
/-
  Boundaries 3 and 4. The second stretch slices the normalised and the raw rows into their user and item
  parts and gathers, per edge, the item rows at i and the user rows at u (negative indices wrapped, then
  clamped, exactly as the plain program does). The second region writes the per-edge score, the dot
  product of the two gathered normalised rows, and the score times the gathered raw item row.
-/
import proofs.«138700_j66589172957770_1_alg».proof.Proof.Fold1
import proofs.«138700_j66589172957770_1_alg».proof.Proof.Region1
import Idealize.ShloMosaic.Lib.StableHlo.Run

set_option maxRecDepth 16384

noncomputable section

namespace Cert.Fold

open Idealize.ShloMosaic Idealize.ShloMosaic.TcCoe Idealize.SL.Sem Idealize.ShloMosaic.StableHlo
open Cert.KernelIdeal Cert.KernelIdeal.Gen Cert.Stages

variable (m : (ℓ : Loc nD τ sig) → Buf (Elt Ideal) ℓ) (ρ : Dev nD → PrngReg)

/-! ## Boundary 3 -/

theorem w3_v13 (c : Dev nD) : W3 (F := Ideal) m ρ c (Proc.devRef .tc main_v13) = Cert.ReferenceIdeal.Read.val_main_v17 (F := Ideal) (xa m c) := by
  dsimp only [W3, hostOps1]
  after_results_simp
  simp only [w2_arg0 m ρ c, w2_arg1 m ρ c, w2_arg2 m ρ c, w2_v8 m ρ c, w2_v11 m ρ c, w2_v12 m ρ c]
  rfl

theorem w3_v14 (c : Dev nD) : W3 (F := Ideal) m ρ c (Proc.devRef .tc main_v14) = Cert.ReferenceIdeal.Read.val_main_v18 (F := Ideal) (xa m c) := by
  dsimp only [W3, hostOps1]
  after_results_simp
  simp only [w2_arg0 m ρ c, w2_arg1 m ρ c, w2_arg2 m ρ c, w2_v8 m ρ c, w2_v11 m ρ c, w2_v12 m ρ c]
  rfl

theorem w3_v15 (c : Dev nD) : W3 (F := Ideal) m ρ c (Proc.devRef .tc main_v15) = Cert.ReferenceIdeal.Read.val_main_v19 (F := Ideal) (xa m c) := by
  dsimp only [W3, hostOps1]
  after_results_simp
  simp only [w2_arg0 m ρ c, w2_arg1 m ρ c, w2_arg2 m ρ c, w2_v8 m ρ c, w2_v11 m ρ c, w2_v12 m ρ c]
  rfl

theorem w3_v16 (c : Dev nD) : W3 (F := Ideal) m ρ c (Proc.devRef .tc main_v16) = Cert.ReferenceIdeal.Read.val_main_v20 (F := Ideal) (xa m c) := by
  dsimp only [W3, hostOps1]
  after_results_simp
  simp only [w2_arg0 m ρ c, w2_arg1 m ρ c, w2_arg2 m ρ c, w2_v8 m ρ c, w2_v11 m ρ c, w2_v12 m ρ c]
  rfl

theorem w3_v23 (c : Dev nD) : W3 (F := Ideal) m ρ c (Proc.devRef .tc main_v23) = Cert.ReferenceIdeal.Read.val_main_v27 (F := Ideal) (xa m c) (ia m c) := by
  dsimp only [W3, hostOps1]
  after_results_simp
  simp only [w2_arg0 m ρ c, w2_arg1 m ρ c, w2_arg2 m ρ c, w2_v8 m ρ c, w2_v11 m ρ c, w2_v12 m ρ c]
  rfl

theorem w3_v30 (c : Dev nD) : W3 (F := Ideal) m ρ c (Proc.devRef .tc main_v30) = Cert.ReferenceIdeal.Read.val_main_v34 (F := Ideal) (xa m c) (ia m c) := by
  dsimp only [W3, hostOps1]
  after_results_simp
  simp only [w2_arg0 m ρ c, w2_arg1 m ρ c, w2_arg2 m ρ c, w2_v8 m ρ c, w2_v11 m ρ c, w2_v12 m ρ c]
  rfl

theorem w3_v37 (c : Dev nD) : W3 (F := Ideal) m ρ c (Proc.devRef .tc main_v37) = Cert.ReferenceIdeal.Read.val_main_v41 (F := Ideal) (xa m c) (ua m c) := by
  dsimp only [W3, hostOps1]
  after_results_simp
  simp only [w2_arg0 m ρ c, w2_arg1 m ρ c, w2_arg2 m ρ c, w2_v8 m ρ c, w2_v11 m ρ c, w2_v12 m ρ c]
  rfl

theorem w3_arg1 (c : Dev nD) : W3 (F := Ideal) m ρ c (Proc.devRef .tc main_arg1) = (ua m c) := by
  dsimp only [W3, hostOps1]
  after_results_simp
  exact w2_arg1 m ρ c

theorem w3_arg2 (c : Dev nD) : W3 (F := Ideal) m ρ c (Proc.devRef .tc main_arg2) = (ia m c) := by
  dsimp only [W3, hostOps1]
  after_results_simp
  exact w2_arg2 m ρ c

theorem w3_v8 (c : Dev nD) : W3 (F := Ideal) m ρ c (Proc.devRef .tc main_v8) = Cert.ReferenceIdeal.Read.val_main_v8 (F := Ideal) (ua m c) := by
  dsimp only [W3, hostOps1]
  after_results_simp
  exact w2_v8 m ρ c

theorem w3_v11 (c : Dev nD) : W3 (F := Ideal) m ρ c (Proc.devRef .tc main_v11) = Cert.ReferenceIdeal.Read.val_main_v11 (F := Ideal) (ua m c) := by
  dsimp only [W3, hostOps1]
  after_results_simp
  exact w2_v11 m ρ c

/-! ## Boundary 4 -/

theorem w4_v23 (c : Dev nD) : W4 (F := Ideal) m ρ c (Proc.devRef .tc main_v23) = Cert.ReferenceIdeal.Read.val_main_v27 (F := Ideal) (xa m c) (ia m c) :=
  ((W4_arr m ρ c 1).trans (((dat1 (V3 (F := Ideal) m ρ) c).arrAt_in 1 rfl _).trans (A_eq1 (V3 (F := Ideal) m ρ) c 1))).trans (w3_v23 m ρ c)

theorem w4_v30 (c : Dev nD) : W4 (F := Ideal) m ρ c (Proc.devRef .tc main_v30) = Cert.ReferenceIdeal.Read.val_main_v34 (F := Ideal) (xa m c) (ia m c) :=
  ((W4_arr m ρ c 2).trans (((dat1 (V3 (F := Ideal) m ρ) c).arrAt_in 2 rfl _).trans (A_eq1 (V3 (F := Ideal) m ρ) c 2))).trans (w3_v30 m ρ c)

theorem w4_v13 (c : Dev nD) : W4 (F := Ideal) m ρ c (Proc.devRef .tc main_v13) = Cert.ReferenceIdeal.Read.val_main_v17 (F := Ideal) (xa m c) :=
  (W4_of_ne m ρ c main_v13 (by decide)).trans (w3_v13 m ρ c)

theorem w4_v14 (c : Dev nD) : W4 (F := Ideal) m ρ c (Proc.devRef .tc main_v14) = Cert.ReferenceIdeal.Read.val_main_v18 (F := Ideal) (xa m c) :=
  (W4_of_ne m ρ c main_v14 (by decide)).trans (w3_v14 m ρ c)

theorem w4_v15 (c : Dev nD) : W4 (F := Ideal) m ρ c (Proc.devRef .tc main_v15) = Cert.ReferenceIdeal.Read.val_main_v19 (F := Ideal) (xa m c) :=
  (W4_of_ne m ρ c main_v15 (by decide)).trans (w3_v15 m ρ c)

theorem w4_v16 (c : Dev nD) : W4 (F := Ideal) m ρ c (Proc.devRef .tc main_v16) = Cert.ReferenceIdeal.Read.val_main_v20 (F := Ideal) (xa m c) :=
  (W4_of_ne m ρ c main_v16 (by decide)).trans (w3_v16 m ρ c)

theorem w4_arg1 (c : Dev nD) : W4 (F := Ideal) m ρ c (Proc.devRef .tc main_arg1) = (ua m c) :=
  (W4_of_ne m ρ c main_arg1 (by decide)).trans (w3_arg1 m ρ c)

theorem w4_arg2 (c : Dev nD) : W4 (F := Ideal) m ρ c (Proc.devRef .tc main_arg2) = (ia m c) :=
  (W4_of_ne m ρ c main_arg2 (by decide)).trans (w3_arg2 m ρ c)

theorem w4_v8 (c : Dev nD) : W4 (F := Ideal) m ρ c (Proc.devRef .tc main_v8) = Cert.ReferenceIdeal.Read.val_main_v8 (F := Ideal) (ua m c) :=
  (W4_of_ne m ρ c main_v8 (by decide)).trans (w3_v8 m ρ c)

theorem w4_v11 (c : Dev nD) : W4 (F := Ideal) m ρ c (Proc.devRef .tc main_v11) = Cert.ReferenceIdeal.Read.val_main_v11 (F := Ideal) (ua m c) :=
  (W4_of_ne m ρ c main_v11 (by decide)).trans (w3_v11 m ρ c)

theorem w4_v38_0 (c : Dev nD) : W4 (F := Ideal) m ρ c (Proc.devRef .tc main_v38_0) = Cert.ReferenceIdeal.Read.val_main_v44 (F := Ideal) (xa m c) (ua m c) (ia m c) :=
  (W4_arr m ρ c 3).trans (Cert.Regions.region1_xui (V3 (F := Ideal) m ρ) c (xa m c) (ua m c) (ia m c) (w3_v37 m ρ c) (w3_v23 m ρ c) (w3_v30 m ρ c))

theorem w4_v38_1 (c : Dev nD) : W4 (F := Ideal) m ρ c (Proc.devRef .tc main_v38_1) = Cert.ReferenceIdeal.Read.val_main_v156 (F := Ideal) (xa m c) (ua m c) (ia m c) :=
  (W4_arr m ρ c 4).trans (Cert.Regions.region1_avi (V3 (F := Ideal) m ρ) c (xa m c) (ua m c) (ia m c) (w3_v37 m ρ c) (w3_v23 m ρ c) (w3_v30 m ρ c))

end Cert.Fold

end
-- ==== Proof.Degrees.lean ====
/-
  The two degree columns are never zero. dui is max(count, 1) and duj is max(50000 - count, 1), each
  spread down an n x 1 column; a maximum with 1 is at least 1 on the extended reals whatever the other
  side is (a count, or its difference from 50000, possibly infinite), so no finiteness is used. Division
  by such an entry is multiplication by its inverse, which is what lets a sign or a factor move across it.
-/
import proofs.«138700_j66589172957770_1_alg».proof.Proof.Stages

noncomputable section

namespace Cert.Degrees

open Idealize.ShloMosaic Cert.ReferenceIdeal Cert.ReferenceIdeal.Read Cert.Stages

/-- The word of 1.0 denotes the real 1. -/
theorem ofBits_one : Ideal.ofBits .f32 0x3F800000#32 = (1 : EReal) := by
  simp [Ideal.ofBits, Ideal.ieee, -EReal.coe_mul]; norm_num

/-- Every entry of dui = max(count, 1) is at least 1. -/
theorem one_le_dui (u : IArr) (j : S100000x1.Idx) : (1 : EReal) ≤ (val_main_v8 (F := Ideal) u j : EReal) := by
  rw [val_main_v8_apply, val_main_v7_apply, val_main_v6_apply, val_main_cst_2_apply]
  show (1 : EReal) ≤ max _ (Ideal.ofBits .f32 0x3F800000#32)
  rw [ofBits_one]
  exact le_max_right _ _

/-- Every entry of duj = max(50000 - count, 1) is at least 1. -/
theorem one_le_duj (u : IArr) (j : S100000x1.Idx) : (1 : EReal) ≤ (val_main_v11 (F := Ideal) u j : EReal) := by
  rw [val_main_v11_apply, val_main_v10_apply, val_main_v9_apply, val_main_cst_3_apply]
  show (1 : EReal) ≤ max _ (Ideal.ofBits .f32 0x3F800000#32)
  rw [ofBits_one]
  exact le_max_right _ _

theorem dui_ne_zero (u : IArr) (j : S100000x1.Idx) : (val_main_v8 (F := Ideal) u j : EReal) ≠ 0 := fun h => by
  have h1 := one_le_dui u j
  rw [h] at h1
  exact absurd h1 (not_le.mpr zero_lt_one)

theorem duj_ne_zero (u : IArr) (j : S100000x1.Idx) : (val_main_v11 (F := Ideal) u j : EReal) ≠ 0 := fun h => by
  have h1 := one_le_duj u j
  rw [h] at h1
  exact absurd h1 (not_le.mpr zero_lt_one)

/-- Off zero, a sign moves across a division: (-a) / d = -(a / d). -/
theorem div_neg_left (a d : EReal) (hd : d ≠ 0) : Ideal.div (-a) d = -(Ideal.div a d) := by
  rw [Ideal.div, Ideal.div, if_neg hd, if_neg hd, neg_mul]

/-- Off zero, a factor moves across a division: a * (b / d) = (a * b) / d. -/
theorem mul_div_assoc' (a b d : EReal) (hd : d ≠ 0) : a * Ideal.div b d = Ideal.div (a * b) d := by
  rw [Ideal.div, Ideal.div, if_neg hd, if_neg hd, mul_assoc]

end Cert.Degrees

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.Region2Pay.lean ====
/-
  The user-side body, one entry at a time.

  At each grid point the body sees 2000 rows of the seven n x 64 arrays (xu, vu, sxi, sxj, svi, svj, A), the same
  2000 rows of the two degree columns (dui, duj) and the whole 64 x 64 matrix S. Everything it stores in row p
  depends on row p of its inputs only: with
      b_pos p = (sum over k of xu(p,k) * sxi(p,k)) / dui p,      b_neg p = (sum over k of xu(p,k) * sxj(p,k)) / duj p
  the small outputs are quotients of one entry by one degree, and the large one is
      ((A/dui - svi*(b_neg - 1)/dui) + ((xu.S - A)/duj - svj*(b_pos + 1)/duj)) / (max(du1, c) + max(du2, c)).
  Each lemma below reads one stored value at the entry (p, q) of its block, as extended reals.
-/
import proofs.«138700_j66589172957770_1_alg».proof.Proof.Gen.KernelIdeal.Skeleton
import proofs.«138700_j66589172957770_1_alg».proof.Proof.LibRowLayout
import proofs.«138700_j66589172957770_1_alg».proof.Proof.LibPlainDot

noncomputable section

namespace Cert.Region2Pay

open Idealize.ShloMosaic Idealize.ShloMosaic.ValueIdx Cert.KernelIdeal Cert.KernelIdeal.Gen Cert.LibRowLayout

/-- The words of 1.0, of 0.0 and of the clamp, as extended reals. -/
abbrev one : EReal := Ideal.ofBits .f32 0x3F800000#32
abbrev zer : EReal := Ideal.ofBits .f32 0x00000000#32
abbrev clamp : EReal := Ideal.ofBits .f32 0x358637BD#32

/-- A row's score over its degree: (sum over k of a k * b k) / d. -/
def rq (a b : Fin 64 → EReal) (d : EReal) : EReal := Ideal.div (∑ k : Fin 64, a k * b k) d

/-- The row sum of a product of two blocks, kept as a column, at row p. -/
theorem rowsum_apply (X Y : Vec Ideal S2000x64 .f32) (p : Fin 2000) (u : Fin 1) :
    shapeCast S2000x1 (multiReduction (F := Ideal) .add [1] S2000 (mulf X Y) 0x00000000#32 reduces_S2000x64_S2000 (.inl rfl) rfl) shapeCasts_S2000_S2000x1 (ix2 p u)
      = ∑ k : Fin 64, X (ix2 p k) * Y (ix2 p k) := by
  refine (shapeCast_a_a1_apply _ shapeCasts_S2000_S2000x1 p u).trans ?_
  exact multiReduction_row (mulf X Y) 0x00000000#32 reduces_S2000x64_S2000 (.inl rfl) rfl p

/-- b_pos at row p of the block. -/
theorem pay13_apply (X0 X2 : Vec Ideal S2000x64 .f32) (X7 : Vec Ideal S2000x1 .f32) (p : Fin 2000) (u : Fin 1) :
    k2_pay13 (F := Ideal) X0 X2 X7 (ix2 p u) = rq (fun k => X0 (ix2 p k)) (fun k => X2 (ix2 p k)) (X7 (ix2 p u)) := by
  unfold k2_pay13 k2_pay5 k2_pay10 rq
  simp only [shapeCast_self]
  exact congrArg (Ideal.div · (X7 (ix2 p u))) (rowsum_apply X0 X2 p u)

/-- b_neg at row p of the block. -/
theorem pay14_apply (X0 X3 : Vec Ideal S2000x64 .f32) (X8 : Vec Ideal S2000x1 .f32) (p : Fin 2000) (u : Fin 1) :
    k2_pay14 (F := Ideal) X0 X3 X8 (ix2 p u) = rq (fun k => X0 (ix2 p k)) (fun k => X3 (ix2 p k)) (X8 (ix2 p u)) := by
  unfold k2_pay14 k2_pay5 k2_pay11 rq
  simp only [shapeCast_self]
  exact congrArg (Ideal.div · (X8 (ix2 p u))) (rowsum_apply X0 X3 p u)

/-- du1 = (b_pos - b_neg) + 1 at row p. -/
theorem pay15_apply (X0 X2 X3 : Vec Ideal S2000x64 .f32) (X7 X8 : Vec Ideal S2000x1 .f32) (p : Fin 2000) (u : Fin 1) :
    k2_pay15 (F := Ideal) X0 X2 X3 X7 X8 (ix2 p u)
      = (rq (fun k => X0 (ix2 p k)) (fun k => X2 (ix2 p k)) (X7 (ix2 p u)) - rq (fun k => X0 (ix2 p k)) (fun k => X3 (ix2 p k)) (X8 (ix2 p u))) + one := by
  unfold k2_pay15
  show (k2_pay13 (F := Ideal) X0 X2 X7 (ix2 p u) - k2_pay14 (F := Ideal) X0 X3 X8 (ix2 p u)) + one = _
  rw [pay13_apply, pay14_apply]

/-- The second denominator before its 1 is added: (0 - b_neg) + b_pos at row p. -/
theorem pay16_apply (X0 X2 X3 : Vec Ideal S2000x64 .f32) (X7 X8 : Vec Ideal S2000x1 .f32) (p : Fin 2000) (u : Fin 1) :
    k2_pay16 (F := Ideal) X0 X2 X3 X7 X8 (ix2 p u)
      = (zer - rq (fun k => X0 (ix2 p k)) (fun k => X3 (ix2 p k)) (X8 (ix2 p u))) + rq (fun k => X0 (ix2 p k)) (fun k => X2 (ix2 p k)) (X7 (ix2 p u)) := by
  unfold k2_pay16
  show (zer - k2_pay14 (F := Ideal) X0 X3 X8 (ix2 p u)) + k2_pay13 (F := Ideal) X0 X2 X7 (ix2 p u) = _
  rw [pay13_apply, pay14_apply]

/-- s1 = ((0 - b_neg) + 1) / dui, from the stored b_neg column and the degree column. -/
theorem pay3_apply (D N : FVec Ideal S2000x1 .f32) (j : S2000x1.Idx) :
    k2_pay3 (F := Ideal) D N j = Ideal.div ((zer - N j) + one) (D j) := rfl

/-- s2 = (b_pos + 1) / duj. -/
theorem pay4_apply (D P : FVec Ideal S2000x1 .f32) (j : S2000x1.Idx) :
    k2_pay4 (F := Ideal) D P j = Ideal.div (P j + one) (D j) := rfl

/-- A block over a degree column: entry (p, q) over the column's row p. -/
theorem pay18_apply (X : FVec Ideal S2000x64 .f32) (D : FVec Ideal S2000x1 .f32) (p : Fin 2000) (q : Fin 64) :
    k2_pay18 (F := Ideal) X D (ix2 p q) = Ideal.div (X (ix2 p q)) (D (ix2 p (0 : Fin 1))) := by
  unfold k2_pay18
  exact congrArg (Ideal.div (X (ix2 p q))) (broadcastTo_a1_ab_apply D broadcasts_S2000x1_S2000x64 p q)

theorem pay19_apply (X : FVec Ideal S2000x64 .f32) (D : FVec Ideal S2000x1 .f32) (p : Fin 2000) (q : Fin 64) :
    k2_pay19 (F := Ideal) X D (ix2 p q) = Ideal.div (X (ix2 p q)) (D (ix2 p (0 : Fin 1))) := by
  unfold k2_pay19
  exact congrArg (Ideal.div (X (ix2 p q))) (broadcastTo_a1_ab_apply D broadcasts_S2000x1_S2000x64 p q)

theorem pay20_apply (X : FVec Ideal S2000x64 .f32) (D : FVec Ideal S2000x1 .f32) (p : Fin 2000) (q : Fin 64) :
    k2_pay20 (F := Ideal) X D (ix2 p q) = Ideal.div (X (ix2 p q)) (D (ix2 p (0 : Fin 1))) := by
  unfold k2_pay20
  exact congrArg (Ideal.div (X (ix2 p q))) (broadcastTo_a1_ab_apply D broadcasts_S2000x1_S2000x64 p q)

theorem pay21_apply (X : FVec Ideal S2000x64 .f32) (D : FVec Ideal S2000x1 .f32) (p : Fin 2000) (q : Fin 64) :
    k2_pay21 (F := Ideal) X D (ix2 p q) = Ideal.div (X (ix2 p q)) (D (ix2 p (0 : Fin 1))) := by
  unfold k2_pay21
  exact congrArg (Ideal.div (X (ix2 p q))) (broadcastTo_a1_ab_apply D broadcasts_S2000x1_S2000x64 p q)

/-- q1 = vu * (b_neg - 1) / dui at (p, q). -/
theorem pay1_apply (X : FVec Ideal S2000x64 .f32) (D N : FVec Ideal S2000x1 .f32) (p : Fin 2000) (q : Fin 64) :
    k2_pay1 (F := Ideal) X D N (ix2 p q) = Ideal.div (X (ix2 p q) * (N (ix2 p (0 : Fin 1)) - one)) (D (ix2 p (0 : Fin 1))) := by
  unfold k2_pay1
  show Ideal.div (X (ix2 p q) * broadcastTo S2000x64 (subf N (broadcast S2000x1 one)) broadcasts_S2000x1_S2000x64 (ix2 p q))
      (broadcastTo S2000x64 D broadcasts_S2000x1_S2000x64 (ix2 p q)) = _
  rw [broadcastTo_a1_ab_apply, broadcastTo_a1_ab_apply]
  rfl

/-- q2 = vu * (b_pos + 1) / duj at (p, q). -/
theorem pay2_apply (X : FVec Ideal S2000x64 .f32) (D P : FVec Ideal S2000x1 .f32) (p : Fin 2000) (q : Fin 64) :
    k2_pay2 (F := Ideal) X D P (ix2 p q) = Ideal.div (X (ix2 p q) * (P (ix2 p (0 : Fin 1)) + one)) (D (ix2 p (0 : Fin 1))) := by
  unfold k2_pay2
  show Ideal.div (X (ix2 p q) * broadcastTo S2000x64 (addf P (broadcast S2000x1 one)) broadcasts_S2000x1_S2000x64 (ix2 p q))
      (broadcastTo S2000x64 D broadcasts_S2000x1_S2000x64 (ix2 p q)) = _
  rw [broadcastTo_a1_ab_apply, broadcastTo_a1_ab_apply]
  rfl

end Cert.Region2Pay

end
-- ==== Proof.Region2Blocks.lean ====
/-
  Blocks of the user-side region.

  The grid has 50 points. At point t every row window (the seven n x 64 inputs, the seven n x 64 outputs, and the
  four n x 1 columns) holds rows 2000 t .. 2000 t + 1999 of its array, all 64 (or the single) columns; the 64 x 64
  matrix is held whole at every point. So entry (p, q) of a block at point t is entry (2000 t + p, q) of its array,
  the blocks of an output tile its array exactly, and row r lies in the block of point r / 2000.
-/
import proofs.«138700_j66589172957770_1_alg».proof.Proof.Gen.KernelIdeal.Frame
import Idealize.ShloMosaic.Lib.Pipeline.Value
import Idealize.ShloMosaic.Lib.ValueIdx

set_option maxRecDepth 16384

noncomputable section

namespace Cert.Region2Blocks

open Idealize.ShloMosaic Idealize.ShloMosaic.TcCoe Idealize.SL.Sem Idealize.ShloMosaic.ValueIdx
open Cert.KernelIdeal Cert.KernelIdeal.Gen
open Idealize.ShloMosaic.Pipeline (Dat)

theorem hz : (![0, 0] : Fin 2 → Nat) = fun _ => 0 := funext fun a => by fin_cases a <;> rfl

theorem hN : cfg2.N = 50 := N_2

/-! ## The printed index maps, decided over the 50 points -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)
theorem idx2_8 : ∀ t : Fin cfg2.N, win2_8.index t (0 : Fin 2) = t.val ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = t.val ∧ win2_10.index t (1 : Fin 2) = 0 :=
  (by decide +kernel : ∀ t : Fin grid2.N, _)
theorem idx2_11 : ∀ t : Fin cfg2.N, win2_11.index t (0 : Fin 2) = t.val ∧ win2_11.index t (1 : Fin 2) = 0 :=
  (by decide +kernel : ∀ t : Fin grid2.N, _)
theorem idx2_12 : ∀ t : Fin cfg2.N, win2_12.index t (0 : Fin 2) = t.val ∧ win2_12.index t (1 : Fin 2) = 0 :=
  (by decide +kernel : ∀ t : Fin grid2.N, _)
theorem idx2_13 : ∀ t : Fin cfg2.N, win2_13.index t (0 : Fin 2) = t.val ∧ win2_13.index t (1 : Fin 2) = 0 :=
  (by decide +kernel : ∀ t : Fin grid2.N, _)
theorem idx2_14 : ∀ t : Fin cfg2.N, win2_14.index t (0 : Fin 2) = t.val ∧ win2_14.index t (1 : Fin 2) = 0 :=
  (by decide +kernel : ∀ t : Fin grid2.N, _)
theorem idx2_15 : ∀ t : Fin cfg2.N, win2_15.index t (0 : Fin 2) = t.val ∧ win2_15.index t (1 : Fin 2) = 0 :=
  (by decide +kernel : ∀ t : Fin grid2.N, _)
theorem idx2_16 : ∀ t : Fin cfg2.N, win2_16.index t (0 : Fin 2) = t.val ∧ win2_16.index t (1 : Fin 2) = 0 :=
  (by decide +kernel : ∀ t : Fin grid2.N, _)
theorem idx2_17 : ∀ t : Fin cfg2.N, win2_17.index t (0 : Fin 2) = t.val ∧ win2_17.index t (1 : Fin 2) = 0 :=
  (by decide +kernel : ∀ t : Fin grid2.N, _)
theorem idx2_18 : ∀ t : Fin cfg2.N, win2_18.index t (0 : Fin 2) = t.val ∧ win2_18.index t (1 : Fin 2) = 0 :=
  (by decide +kernel : ∀ t : Fin grid2.N, _)

variable (V : (c : Dev nD) → (b : Ref sig .tc) → Buf (Elt Ideal) ((c : Thread nD τ).loc b))

/-! ## An input block's entry is its array's entry -/

/-- Entry (p, q) of input window 0's block at point t is entry (2000 t + p, q) of its array. -/
theorem iblk2_0_apply (c : Dev nD) (t : Fin cfg2.N) (p : Fin 2000) (q : Fin 64) (r : Fin 100000) (hr : r.val = 2000 * t.val + p.val) :
    (iblk2 V c 0 t : Vec Ideal S2000x64 .f32) (ix2 p q) = (V c main_v13 : S100000x64.Idx → EReal) (ix2 r q) := by
  obtain ⟨e0, e1⟩ := idx2_0 t
  unfold iblk2
  rw [View.read_apply]
  show V c main_v13 _ = V c main_v13 _
  refine congrArg (V c main_v13) ?_
  funext a; apply Fin.ext
  match a with
  | ⟨0, _⟩ => show win2_0.index t (0 : Fin 2) * 2000 + 1 * p.val = r.val; rw [e0, hr]; omega
  | ⟨1, _⟩ => show win2_0.index t (1 : Fin 2) * 64 + 1 * q.val = q.val; rw [e1]; omega

/-- Entry (p, q) of input window 1's block at point t is entry (2000 t + p, q) of its array. -/
theorem iblk2_1_apply (c : Dev nD) (t : Fin cfg2.N) (p : Fin 2000) (q : Fin 64) (r : Fin 100000) (hr : r.val = 2000 * t.val + p.val) :
    (iblk2 V c 1 t : Vec Ideal S2000x64 .f32) (ix2 p q) = (V c main_v15 : S100000x64.Idx → EReal) (ix2 r q) := by
  obtain ⟨e0, e1⟩ := idx2_1 t
  unfold iblk2
  rw [View.read_apply]
  show V c main_v15 _ = V c main_v15 _
  refine congrArg (V c main_v15) ?_
  funext a; apply Fin.ext
  match a with
  | ⟨0, _⟩ => show win2_1.index t (0 : Fin 2) * 2000 + 1 * p.val = r.val; rw [e0, hr]; omega
  | ⟨1, _⟩ => show win2_1.index t (1 : Fin 2) * 64 + 1 * q.val = q.val; rw [e1]; omega

/-- Entry (p, q) of input window 2's block at point t is entry (2000 t + p, q) of its array. -/
theorem iblk2_2_apply (c : Dev nD) (t : Fin cfg2.N) (p : Fin 2000) (q : Fin 64) (r : Fin 100000) (hr : r.val = 2000 * t.val + p.val) :
    (iblk2 V c 2 t : Vec Ideal S2000x64 .f32) (ix2 p q) = (V c main_v41 : S100000x64.Idx → EReal) (ix2 r q) := by
  obtain ⟨e0, e1⟩ := idx2_2 t
  unfold iblk2
  rw [View.read_apply]
  show V c main_v41 _ = V c main_v41 _
  refine congrArg (V c main_v41) ?_
  funext a; apply Fin.ext
  match a with
  | ⟨0, _⟩ => show win2_2.index t (0 : Fin 2) * 2000 + 1 * p.val = r.val; rw [e0, hr]; omega
  | ⟨1, _⟩ => show win2_2.index t (1 : Fin 2) * 64 + 1 * q.val = q.val; rw [e1]; omega

/-- Entry (p, q) of input window 3's block at point t is entry (2000 t + p, q) of its array. -/
theorem iblk2_3_apply (c : Dev nD) (t : Fin cfg2.N) (p : Fin 2000) (q : Fin 64) (r : Fin 100000) (hr : r.val = 2000 * t.val + p.val) :
    (iblk2 V c 3 t : Vec Ideal S2000x64 .f32) (ix2 p q) = (V c main_v45 : S100000x64.Idx → EReal) (ix2 r q) := by
  obtain ⟨e0, e1⟩ := idx2_3 t
  unfold iblk2
  rw [View.read_apply]
  show V c main_v45 _ = V c main_v45 _
  refine congrArg (V c main_v45) ?_
  funext a; apply Fin.ext
  match a with
  | ⟨0, _⟩ => show win2_3.index t (0 : Fin 2) * 2000 + 1 * p.val = r.val; rw [e0, hr]; omega
  | ⟨1, _⟩ => show win2_3.index t (1 : Fin 2) * 64 + 1 * q.val = q.val; rw [e1]; omega

/-- Entry (p, q) of input window 4's block at point t is entry (2000 t + p, q) of its array. -/
theorem iblk2_4_apply (c : Dev nD) (t : Fin cfg2.N) (p : Fin 2000) (q : Fin 64) (r : Fin 100000) (hr : r.val = 2000 * t.val + p.val) :
    (iblk2 V c 4 t : Vec Ideal S2000x64 .f32) (ix2 p q) = (V c main_v48 : S100000x64.Idx → EReal) (ix2 r q) := by
  obtain ⟨e0, e1⟩ := idx2_4 t
  unfold iblk2
  rw [View.read_apply]
  show V c main_v48 _ = V c main_v48 _
  refine congrArg (V c main_v48) ?_
  funext a; apply Fin.ext
  match a with
  | ⟨0, _⟩ => show win2_4.index t (0 : Fin 2) * 2000 + 1 * p.val = r.val; rw [e0, hr]; omega
  | ⟨1, _⟩ => show win2_4.index t (1 : Fin 2) * 64 + 1 * q.val = q.val; rw [e1]; omega

/-- Entry (p, q) of input window 5's block at point t is entry (2000 t + p, q) of its array. -/
theorem iblk2_5_apply (c : Dev nD) (t : Fin cfg2.N) (p : Fin 2000) (q : Fin 64) (r : Fin 100000) (hr : r.val = 2000 * t.val + p.val) :
    (iblk2 V c 5 t : Vec Ideal S2000x64 .f32) (ix2 p q) = (V c main_v52 : S100000x64.Idx → EReal) (ix2 r q) := by
  obtain ⟨e0, e1⟩ := idx2_5 t
  unfold iblk2
  rw [View.read_apply]
  show V c main_v52 _ = V c main_v52 _
  refine congrArg (V c main_v52) ?_
  funext a; apply Fin.ext
  match a with
  | ⟨0, _⟩ => show win2_5.index t (0 : Fin 2) * 2000 + 1 * p.val = r.val; rw [e0, hr]; omega
  | ⟨1, _⟩ => show win2_5.index t (1 : Fin 2) * 64 + 1 * q.val = q.val; rw [e1]; omega

/-- Entry (p, q) of input window 6's block at point t is entry (2000 t + p, q) of its array. -/
theorem iblk2_6_apply (c : Dev nD) (t : Fin cfg2.N) (p : Fin 2000) (q : Fin 64) (r : Fin 100000) (hr : r.val = 2000 * t.val + p.val) :
    (iblk2 V c 6 t : Vec Ideal S2000x64 .f32) (ix2 p q) = (V c main_v55 : S100000x64.Idx → EReal) (ix2 r q) := by
  obtain ⟨e0, e1⟩ := idx2_6 t
  unfold iblk2
  rw [View.read_apply]
  show V c main_v55 _ = V c main_v55 _
  refine congrArg (V c main_v55) ?_
  funext a; apply Fin.ext
  match a with
  | ⟨0, _⟩ => show win2_6.index t (0 : Fin 2) * 2000 + 1 * p.val = r.val; rw [e0, hr]; omega
  | ⟨1, _⟩ => show win2_6.index t (1 : Fin 2) * 64 + 1 * q.val = q.val; rw [e1]; omega

/-- Entry (p, 0) of degree window 7's block at point t is entry (2000 t + p, 0) of its column. -/
theorem iblk2_7_apply (c : Dev nD) (t : Fin cfg2.N) (p : Fin 2000) (u : Fin 1) (r : Fin 100000) (hr : r.val = 2000 * t.val + p.val) :
    (iblk2 V c 7 t : Vec Ideal S2000x1 .f32) (ix2 p u) = (V c main_v8 : S100000x1.Idx → EReal) (ix2 r u) := by
  obtain ⟨e0, e1⟩ := idx2_7 t
  unfold iblk2
  rw [View.read_apply]
  show V c main_v8 _ = V c main_v8 _
  refine congrArg (V c main_v8) ?_
  funext a; apply Fin.ext
  match a with
  | ⟨0, _⟩ => show win2_7.index t (0 : Fin 2) * 2000 + 1 * p.val = r.val; rw [e0, hr]; omega
  | ⟨1, _⟩ => show win2_7.index t (1 : Fin 2) * 1 + 1 * u.val = u.val; rw [e1]; omega

/-- Entry (p, 0) of degree window 8's block at point t is entry (2000 t + p, 0) of its column. -/
theorem iblk2_8_apply (c : Dev nD) (t : Fin cfg2.N) (p : Fin 2000) (u : Fin 1) (r : Fin 100000) (hr : r.val = 2000 * t.val + p.val) :
    (iblk2 V c 8 t : Vec Ideal S2000x1 .f32) (ix2 p u) = (V c main_v11 : S100000x1.Idx → EReal) (ix2 r u) := by
  obtain ⟨e0, e1⟩ := idx2_8 t
  unfold iblk2
  rw [View.read_apply]
  show V c main_v11 _ = V c main_v11 _
  refine congrArg (V c main_v11) ?_
  funext a; apply Fin.ext
  match a with
  | ⟨0, _⟩ => show win2_8.index t (0 : Fin 2) * 2000 + 1 * p.val = r.val; rw [e0, hr]; omega
  | ⟨1, _⟩ => show win2_8.index t (1 : Fin 2) * 1 + 1 * u.val = u.val; rw [e1]; omega

/-- The matrix window holds its whole array at every point. -/
theorem iblk2_9_apply (c : Dev nD) (t : Fin cfg2.N) (a b : Fin 64) :
    (iblk2 V c 9 t : Vec Ideal S64x64 .f32) (ix2 a b) = (V c main_v56 : S64x64.Idx → EReal) (ix2 a b) := by
  obtain ⟨e0, e1⟩ := idx2_9 t
  unfold iblk2
  rw [View.read_apply]
  show V c main_v56 _ = V c main_v56 _
  refine congrArg (V c main_v56) ?_
  funext d; apply Fin.ext
  match d with
  | ⟨0, _⟩ => show win2_9.index t (0 : Fin 2) * 64 + 1 * a.val = a.val; rw [e0]; omega
  | ⟨1, _⟩ => show win2_9.index t (1 : Fin 2) * 64 + 1 * b.val = b.val; rw [e1]; omega

/-! ## What an output block is, and that the blocks tile the array -/

/-- A 2000 x 64 block Y is block t of the array G as soon as Y (p, q) = G (2000 t + p, q) for all p, q. -/
theorem out_block_10 (t : Fin cfg2.N) (Y : Vec Ideal S2000x64 .f32) (G : S100000x64.Idx → EReal)
    (h : ∀ (p : Fin 2000) (q : Fin 64) (r : Fin 100000), r.val = 2000 * t.val + p.val → Y (ix2 p q) = G (ix2 r q)) :
    (cfg2.win 10).cut (grid2.coords t) Y = ((cfg2.win 10).blk t).view.read (Elt Ideal) G := by
  obtain ⟨e0, e1⟩ := idx2_10 t
  have hN' := hN
  have ht : t.val < cfg2.N := t.isLt
  funext j
  have hj0 : (j 0).val < 2000 := (j 0).isLt
  have hj1 : (j 1).val < 64 := (j 1).isLt
  have hr : 2000 * t.val + (j 0).val < 100000 := by omega
  show Y ((cfg2.win 10).xinj (grid2.coords t) j) = G (((cfg2.win 10).blk t).view.emb j)
  have a1 : (cfg2.win 10).xinj (grid2.coords t) j = ix2 (⟨(j 0).val, hj0⟩ : Fin 2000) (⟨(j 1).val, hj1⟩ : Fin 64) :=
    funext fun a => Fin.ext (by match a with | ⟨0, _⟩ => rfl | ⟨1, _⟩ => rfl)
  have a2 : ((cfg2.win 10).blk t).view.emb j = ix2 (⟨2000 * t.val + (j 0).val, hr⟩ : Fin 100000) (⟨(j 1).val, hj1⟩ : Fin 64) := by
    funext a; apply Fin.ext
    match a with
    | ⟨0, _⟩ => show win2_10.index t (0 : Fin 2) * 2000 + 1 * (j 0).val = 2000 * t.val + (j 0).val; rw [e0]; omega
    | ⟨1, _⟩ => show win2_10.index t (1 : Fin 2) * 64 + 1 * (j 1).val = (j 1).val; rw [e1]; omega
  exact (congrArg Y a1).trans ((h _ _ _ rfl).trans (congrArg G a2).symm)

/-- Row r of the array is in the block of point r / 2000. -/
theorem cover_10 (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  have hN' := hN
  obtain ⟨t, ht⟩ : ∃ t : Fin cfg2.N, t.val = (i 0).val / 2000 := ⟨⟨(i 0).val / 2000, by omega⟩, rfl⟩
  obtain ⟨e0, e1⟩ := idx2_10 t
  refine ⟨t, flush2_10 t, ?_⟩
  show i ∈ ((View.whole main_v57_0).slice (win2_10.rect t)).set
  rw [View.set_slice_whole, Rect.mem_set_unit]
  intro a
  match a with
  | ⟨0, _⟩ => show win2_10.index t (0 : Fin 2) * 2000 ≤ (i 0).val ∧ (i 0).val < win2_10.index t (0 : Fin 2) * 2000 + 2000; rw [e0, ht]; omega
  | ⟨1, _⟩ => show win2_10.index t (1 : Fin 2) * 64 ≤ (i 1).val ∧ (i 1).val < win2_10.index t (1 : Fin 2) * 64 + 64; rw [e1]; omega

/-- A 2000 x 64 block Y is block t of the array G as soon as Y (p, q) = G (2000 t + p, q) for all p, q. -/
theorem out_block_11 (t : Fin cfg2.N) (Y : Vec Ideal S2000x64 .f32) (G : S100000x64.Idx → EReal)
    (h : ∀ (p : Fin 2000) (q : Fin 64) (r : Fin 100000), r.val = 2000 * t.val + p.val → Y (ix2 p q) = G (ix2 r q)) :
    (cfg2.win 11).cut (grid2.coords t) Y = ((cfg2.win 11).blk t).view.read (Elt Ideal) G := by
  obtain ⟨e0, e1⟩ := idx2_11 t
  have hN' := hN
  have ht : t.val < cfg2.N := t.isLt
  funext j
  have hj0 : (j 0).val < 2000 := (j 0).isLt
  have hj1 : (j 1).val < 64 := (j 1).isLt
  have hr : 2000 * t.val + (j 0).val < 100000 := by omega
  show Y ((cfg2.win 11).xinj (grid2.coords t) j) = G (((cfg2.win 11).blk t).view.emb j)
  have a1 : (cfg2.win 11).xinj (grid2.coords t) j = ix2 (⟨(j 0).val, hj0⟩ : Fin 2000) (⟨(j 1).val, hj1⟩ : Fin 64) :=
    funext fun a => Fin.ext (by match a with | ⟨0, _⟩ => rfl | ⟨1, _⟩ => rfl)
  have a2 : ((cfg2.win 11).blk t).view.emb j = ix2 (⟨2000 * t.val + (j 0).val, hr⟩ : Fin 100000) (⟨(j 1).val, hj1⟩ : Fin 64) := by
    funext a; apply Fin.ext
    match a with
    | ⟨0, _⟩ => show win2_11.index t (0 : Fin 2) * 2000 + 1 * (j 0).val = 2000 * t.val + (j 0).val; rw [e0]; omega
    | ⟨1, _⟩ => show win2_11.index t (1 : Fin 2) * 64 + 1 * (j 1).val = (j 1).val; rw [e1]; omega
  exact (congrArg Y a1).trans ((h _ _ _ rfl).trans (congrArg G a2).symm)

/-- Row r of the array is in the block of point r / 2000. -/
theorem cover_11 (i : S100000x64.Idx) :
    ∃ t : Fin cfg2.N, (cfg2.win 11).flush t = true ∧ i ∈ ((cfg2.win 11).blk t).view.set := by
  have hi0 : (i 0).val < 100000 := (i 0).isLt
  have hi1 : (i 1).val < 64 := (i 1).isLt
  have hN' := hN
  obtain ⟨t, ht⟩ : ∃ t : Fin cfg2.N, t.val = (i 0).val / 2000 := ⟨⟨(i 0).val / 2000, by omega⟩, rfl⟩
  obtain ⟨e0, e1⟩ := idx2_11 t
  refine ⟨t, flush2_11 t, ?_⟩
  show i ∈ ((View.whole main_v57_1).slice (win2_11.rect t)).set
  rw [View.set_slice_whole, Rect.mem_set_unit]
  intro a
  match a with
  | ⟨0, _⟩ => show win2_11.index t (0 : Fin 2) * 2000 ≤ (i 0).val ∧ (i 0).val < win2_11.index t (0 : Fin 2) * 2000 + 2000; rw [e0, ht]; omega
  | ⟨1, _⟩ => show win2_11.index t (1 : Fin 2) * 64 ≤ (i 1).val ∧ (i 1).val < win2_11.index t (1 : Fin 2) * 64 + 64; rw [e1]; omega

/-- A 2000 x 64 block Y is block t of the array G as soon as Y (p, q) = G (2000 t + p, q) for all p, q. -/
theorem out_block_12 (t : Fin cfg2.N) (Y : Vec Ideal S2000x64 .f32) (G : S100000x64.Idx → EReal)
    (h : ∀ (p : Fin 2000) (q : Fin 64) (r : Fin 100000), r.val = 2000 * t.val + p.val → Y (ix2 p q) = G (ix2 r q)) :
    (cfg2.win 12).cut (grid2.coords t) Y = ((cfg2.win 12).blk t).view.read (Elt Ideal) G := by
  obtain ⟨e0, e1⟩ := idx2_12 t
  have hN' := hN
  have ht : t.val < cfg2.N := t.isLt
  funext j
  have hj0 : (j 0).val < 2000 := (j 0).isLt
  have hj1 : (j 1).val < 64 := (j 1).isLt
  have hr : 2000 * t.val + (j 0).val < 100000 := by omega
  show Y ((cfg2.win 12).xinj (grid2.coords t) j) = G (((cfg2.win 12).blk t).view.emb j)
  have a1 : (cfg2.win 12).xinj (grid2.coords t) j = ix2 (⟨(j 0).val, hj0⟩ : Fin 2000) (⟨(j 1).val, hj1⟩ : Fin 64) :=
    funext fun a => Fin.ext (by match a with | ⟨0, _⟩ => rfl | ⟨1, _⟩ => rfl)
  have a2 : ((cfg2.win 12).blk t).view.emb j = ix2 (⟨2000 * t.val + (j 0).val, hr⟩ : Fin 100000) (⟨(j 1).val, hj1⟩ : Fin 64) := by
    funext a; apply Fin.ext
    match a with
    | ⟨0, _⟩ => show win2_12.index t (0 : Fin 2) * 2000 + 1 * (j 0).val = 2000 * t.val + (j 0).val; rw [e0]; omega
    | ⟨1, _⟩ => show win2_12.index t (1 : Fin 2) * 64 + 1 * (j 1).val = (j 1).val; rw [e1]; omega
  exact (congrArg Y a1).trans ((h _ _ _ rfl).trans (congrArg G a2).symm)

/-- Row r of the array is in the block of point r / 2000. -/
theorem cover_12 (i : S100000x64.Idx) :
    ∃ t : Fin cfg2.N, (cfg2.win 12).flush t = true ∧ i ∈ ((cfg2.win 12).blk t).view.set := by
  have hi0 : (i 0).val < 100000 := (i 0).isLt
  have hi1 : (i 1).val < 64 := (i 1).isLt
  have hN' := hN
  obtain ⟨t, ht⟩ : ∃ t : Fin cfg2.N, t.val = (i 0).val / 2000 := ⟨⟨(i 0).val / 2000, by omega⟩, rfl⟩
  obtain ⟨e0, e1⟩ := idx2_12 t
  refine ⟨t, flush2_12 t, ?_⟩
  show i ∈ ((View.whole main_v57_2).slice (win2_12.rect t)).set
  rw [View.set_slice_whole, Rect.mem_set_unit]
  intro a
  match a with
  | ⟨0, _⟩ => show win2_12.index t (0 : Fin 2) * 2000 ≤ (i 0).val ∧ (i 0).val < win2_12.index t (0 : Fin 2) * 2000 + 2000; rw [e0, ht]; omega
  | ⟨1, _⟩ => show win2_12.index t (1 : Fin 2) * 64 ≤ (i 1).val ∧ (i 1).val < win2_12.index t (1 : Fin 2) * 64 + 64; rw [e1]; omega

/-- A 2000 x 64 block Y is block t of the array G as soon as Y (p, q) = G (2000 t + p, q) for all p, q. -/
theorem out_block_13 (t : Fin cfg2.N) (Y : Vec Ideal S2000x64 .f32) (G : S100000x64.Idx → EReal)
    (h : ∀ (p : Fin 2000) (q : Fin 64) (r : Fin 100000), r.val = 2000 * t.val + p.val → Y (ix2 p q) = G (ix2 r q)) :
    (cfg2.win 13).cut (grid2.coords t) Y = ((cfg2.win 13).blk t).view.read (Elt Ideal) G := by
  obtain ⟨e0, e1⟩ := idx2_13 t
  have hN' := hN
  have ht : t.val < cfg2.N := t.isLt
  funext j
  have hj0 : (j 0).val < 2000 := (j 0).isLt
  have hj1 : (j 1).val < 64 := (j 1).isLt
  have hr : 2000 * t.val + (j 0).val < 100000 := by omega
  show Y ((cfg2.win 13).xinj (grid2.coords t) j) = G (((cfg2.win 13).blk t).view.emb j)
  have a1 : (cfg2.win 13).xinj (grid2.coords t) j = ix2 (⟨(j 0).val, hj0⟩ : Fin 2000) (⟨(j 1).val, hj1⟩ : Fin 64) :=
    funext fun a => Fin.ext (by match a with | ⟨0, _⟩ => rfl | ⟨1, _⟩ => rfl)
  have a2 : ((cfg2.win 13).blk t).view.emb j = ix2 (⟨2000 * t.val + (j 0).val, hr⟩ : Fin 100000) (⟨(j 1).val, hj1⟩ : Fin 64) := by
    funext a; apply Fin.ext
    match a with
    | ⟨0, _⟩ => show win2_13.index t (0 : Fin 2) * 2000 + 1 * (j 0).val = 2000 * t.val + (j 0).val; rw [e0]; omega
    | ⟨1, _⟩ => show win2_13.index t (1 : Fin 2) * 64 + 1 * (j 1).val = (j 1).val; rw [e1]; omega
  exact (congrArg Y a1).trans ((h _ _ _ rfl).trans (congrArg G a2).symm)

/-- Row r of the array is in the block of point r / 2000. -/
theorem cover_13 (i : S100000x64.Idx) :
    ∃ t : Fin cfg2.N, (cfg2.win 13).flush t = true ∧ i ∈ ((cfg2.win 13).blk t).view.set := by
  have hi0 : (i 0).val < 100000 := (i 0).isLt
  have hi1 : (i 1).val < 64 := (i 1).isLt
  have hN' := hN
  obtain ⟨t, ht⟩ : ∃ t : Fin cfg2.N, t.val = (i 0).val / 2000 := ⟨⟨(i 0).val / 2000, by omega⟩, rfl⟩
  obtain ⟨e0, e1⟩ := idx2_13 t
  refine ⟨t, flush2_13 t, ?_⟩
  show i ∈ ((View.whole main_v57_3).slice (win2_13.rect t)).set
  rw [View.set_slice_whole, Rect.mem_set_unit]
  intro a
  match a with
  | ⟨0, _⟩ => show win2_13.index t (0 : Fin 2) * 2000 ≤ (i 0).val ∧ (i 0).val < win2_13.index t (0 : Fin 2) * 2000 + 2000; rw [e0, ht]; omega
  | ⟨1, _⟩ => show win2_13.index t (1 : Fin 2) * 64 ≤ (i 1).val ∧ (i 1).val < win2_13.index t (1 : Fin 2) * 64 + 64; rw [e1]; omega

/-- A 2000 x 64 block Y is block t of the array G as soon as Y (p, q) = G (2000 t + p, q) for all p, q. -/
theorem out_block_14 (t : Fin cfg2.N) (Y : Vec Ideal S2000x64 .f32) (G : S100000x64.Idx → EReal)
    (h : ∀ (p : Fin 2000) (q : Fin 64) (r : Fin 100000), r.val = 2000 * t.val + p.val → Y (ix2 p q) = G (ix2 r q)) :
    (cfg2.win 14).cut (grid2.coords t) Y = ((cfg2.win 14).blk t).view.read (Elt Ideal) G := by
  obtain ⟨e0, e1⟩ := idx2_14 t
  have hN' := hN
  have ht : t.val < cfg2.N := t.isLt
  funext j
  have hj0 : (j 0).val < 2000 := (j 0).isLt
  have hj1 : (j 1).val < 64 := (j 1).isLt
  have hr : 2000 * t.val + (j 0).val < 100000 := by omega
  show Y ((cfg2.win 14).xinj (grid2.coords t) j) = G (((cfg2.win 14).blk t).view.emb j)
  have a1 : (cfg2.win 14).xinj (grid2.coords t) j = ix2 (⟨(j 0).val, hj0⟩ : Fin 2000) (⟨(j 1).val, hj1⟩ : Fin 64) :=
    funext fun a => Fin.ext (by match a with | ⟨0, _⟩ => rfl | ⟨1, _⟩ => rfl)
  have a2 : ((cfg2.win 14).blk t).view.emb j = ix2 (⟨2000 * t.val + (j 0).val, hr⟩ : Fin 100000) (⟨(j 1).val, hj1⟩ : Fin 64) := by
    funext a; apply Fin.ext
    match a with
    | ⟨0, _⟩ => show win2_14.index t (0 : Fin 2) * 2000 + 1 * (j 0).val = 2000 * t.val + (j 0).val; rw [e0]; omega
    | ⟨1, _⟩ => show win2_14.index t (1 : Fin 2) * 64 + 1 * (j 1).val = (j 1).val; rw [e1]; omega
  exact (congrArg Y a1).trans ((h _ _ _ rfl).trans (congrArg G a2).symm)

/-- Row r of the array is in the block of point r / 2000. -/
theorem cover_14 (i : S100000x64.Idx) :
    ∃ t : Fin cfg2.N, (cfg2.win 14).flush t = true ∧ i ∈ ((cfg2.win 14).blk t).view.set := by
  have hi0 : (i 0).val < 100000 := (i 0).isLt
  have hi1 : (i 1).val < 64 := (i 1).isLt
  have hN' := hN
  obtain ⟨t, ht⟩ : ∃ t : Fin cfg2.N, t.val = (i 0).val / 2000 := ⟨⟨(i 0).val / 2000, by omega⟩, rfl⟩
  obtain ⟨e0, e1⟩ := idx2_14 t
  refine ⟨t, flush2_14 t, ?_⟩
  show i ∈ ((View.whole main_v57_4).slice (win2_14.rect t)).set
  rw [View.set_slice_whole, Rect.mem_set_unit]
  intro a
  match a with
  | ⟨0, _⟩ => show win2_14.index t (0 : Fin 2) * 2000 ≤ (i 0).val ∧ (i 0).val < win2_14.index t (0 : Fin 2) * 2000 + 2000; rw [e0, ht]; omega
  | ⟨1, _⟩ => show win2_14.index t (1 : Fin 2) * 64 ≤ (i 1).val ∧ (i 1).val < win2_14.index t (1 : Fin 2) * 64 + 64; rw [e1]; omega

/-- A 2000 x 64 block Y is block t of the array G as soon as Y (p, q) = G (2000 t + p, q) for all p, q. -/
theorem out_block_15 (t : Fin cfg2.N) (Y : Vec Ideal S2000x64 .f32) (G : S100000x64.Idx → EReal)
    (h : ∀ (p : Fin 2000) (q : Fin 64) (r : Fin 100000), r.val = 2000 * t.val + p.val → Y (ix2 p q) = G (ix2 r q)) :
    (cfg2.win 15).cut (grid2.coords t) Y = ((cfg2.win 15).blk t).view.read (Elt Ideal) G := by
  obtain ⟨e0, e1⟩ := idx2_15 t
  have hN' := hN
  have ht : t.val < cfg2.N := t.isLt
  funext j
  have hj0 : (j 0).val < 2000 := (j 0).isLt
  have hj1 : (j 1).val < 64 := (j 1).isLt
  have hr : 2000 * t.val + (j 0).val < 100000 := by omega
  show Y ((cfg2.win 15).xinj (grid2.coords t) j) = G (((cfg2.win 15).blk t).view.emb j)
  have a1 : (cfg2.win 15).xinj (grid2.coords t) j = ix2 (⟨(j 0).val, hj0⟩ : Fin 2000) (⟨(j 1).val, hj1⟩ : Fin 64) :=
    funext fun a => Fin.ext (by match a with | ⟨0, _⟩ => rfl | ⟨1, _⟩ => rfl)
  have a2 : ((cfg2.win 15).blk t).view.emb j = ix2 (⟨2000 * t.val + (j 0).val, hr⟩ : Fin 100000) (⟨(j 1).val, hj1⟩ : Fin 64) := by
    funext a; apply Fin.ext
    match a with
    | ⟨0, _⟩ => show win2_15.index t (0 : Fin 2) * 2000 + 1 * (j 0).val = 2000 * t.val + (j 0).val; rw [e0]; omega
    | ⟨1, _⟩ => show win2_15.index t (1 : Fin 2) * 64 + 1 * (j 1).val = (j 1).val; rw [e1]; omega
  exact (congrArg Y a1).trans ((h _ _ _ rfl).trans (congrArg G a2).symm)

/-- Row r of the array is in the block of point r / 2000. -/
theorem cover_15 (i : S100000x64.Idx) :
    ∃ t : Fin cfg2.N, (cfg2.win 15).flush t = true ∧ i ∈ ((cfg2.win 15).blk t).view.set := by
  have hi0 : (i 0).val < 100000 := (i 0).isLt
  have hi1 : (i 1).val < 64 := (i 1).isLt
  have hN' := hN
  obtain ⟨t, ht⟩ : ∃ t : Fin cfg2.N, t.val = (i 0).val / 2000 := ⟨⟨(i 0).val / 2000, by omega⟩, rfl⟩
  obtain ⟨e0, e1⟩ := idx2_15 t
  refine ⟨t, flush2_15 t, ?_⟩
  show i ∈ ((View.whole main_v57_5).slice (win2_15.rect t)).set
  rw [View.set_slice_whole, Rect.mem_set_unit]
  intro a
  match a with
  | ⟨0, _⟩ => show win2_15.index t (0 : Fin 2) * 2000 ≤ (i 0).val ∧ (i 0).val < win2_15.index t (0 : Fin 2) * 2000 + 2000; rw [e0, ht]; omega
  | ⟨1, _⟩ => show win2_15.index t (1 : Fin 2) * 64 ≤ (i 1).val ∧ (i 1).val < win2_15.index t (1 : Fin 2) * 64 + 64; rw [e1]; omega

/-- A 2000 x 64 block Y is block t of the array G as soon as Y (p, q) = G (2000 t + p, q) for all p, q. -/
theorem out_block_16 (t : Fin cfg2.N) (Y : Vec Ideal S2000x64 .f32) (G : S100000x64.Idx → EReal)
    (h : ∀ (p : Fin 2000) (q : Fin 64) (r : Fin 100000), r.val = 2000 * t.val + p.val → Y (ix2 p q) = G (ix2 r q)) :
    (cfg2.win 16).cut (grid2.coords t) Y = ((cfg2.win 16).blk t).view.read (Elt Ideal) G := by
  obtain ⟨e0, e1⟩ := idx2_16 t
  have hN' := hN
  have ht : t.val < cfg2.N := t.isLt
  funext j
  have hj0 : (j 0).val < 2000 := (j 0).isLt
  have hj1 : (j 1).val < 64 := (j 1).isLt
  have hr : 2000 * t.val + (j 0).val < 100000 := by omega
  show Y ((cfg2.win 16).xinj (grid2.coords t) j) = G (((cfg2.win 16).blk t).view.emb j)
  have a1 : (cfg2.win 16).xinj (grid2.coords t) j = ix2 (⟨(j 0).val, hj0⟩ : Fin 2000) (⟨(j 1).val, hj1⟩ : Fin 64) :=
    funext fun a => Fin.ext (by match a with | ⟨0, _⟩ => rfl | ⟨1, _⟩ => rfl)
  have a2 : ((cfg2.win 16).blk t).view.emb j = ix2 (⟨2000 * t.val + (j 0).val, hr⟩ : Fin 100000) (⟨(j 1).val, hj1⟩ : Fin 64) := by
    funext a; apply Fin.ext
    match a with
    | ⟨0, _⟩ => show win2_16.index t (0 : Fin 2) * 2000 + 1 * (j 0).val = 2000 * t.val + (j 0).val; rw [e0]; omega
    | ⟨1, _⟩ => show win2_16.index t (1 : Fin 2) * 64 + 1 * (j 1).val = (j 1).val; rw [e1]; omega
  exact (congrArg Y a1).trans ((h _ _ _ rfl).trans (congrArg G a2).symm)

/-- Row r of the array is in the block of point r / 2000. -/
theorem cover_16 (i : S100000x64.Idx) :
    ∃ t : Fin cfg2.N, (cfg2.win 16).flush t = true ∧ i ∈ ((cfg2.win 16).blk t).view.set := by
  have hi0 : (i 0).val < 100000 := (i 0).isLt
  have hi1 : (i 1).val < 64 := (i 1).isLt
  have hN' := hN
  obtain ⟨t, ht⟩ : ∃ t : Fin cfg2.N, t.val = (i 0).val / 2000 := ⟨⟨(i 0).val / 2000, by omega⟩, rfl⟩
  obtain ⟨e0, e1⟩ := idx2_16 t
  refine ⟨t, flush2_16 t, ?_⟩
  show i ∈ ((View.whole main_v57_6).slice (win2_16.rect t)).set
  rw [View.set_slice_whole, Rect.mem_set_unit]
  intro a
  match a with
  | ⟨0, _⟩ => show win2_16.index t (0 : Fin 2) * 2000 ≤ (i 0).val ∧ (i 0).val < win2_16.index t (0 : Fin 2) * 2000 + 2000; rw [e0, ht]; omega
  | ⟨1, _⟩ => show win2_16.index t (1 : Fin 2) * 64 ≤ (i 1).val ∧ (i 1).val < win2_16.index t (1 : Fin 2) * 64 + 64; rw [e1]; omega

/-- A 2000 x 1 block Y is block t of the column G as soon as Y (p, 0) = G (2000 t + p, 0) for all p. -/
theorem out_block_17 (t : Fin cfg2.N) (Y : Vec Ideal S2000x1 .f32) (G : S100000x1.Idx → EReal)
    (h : ∀ (p : Fin 2000) (u : Fin 1) (r : Fin 100000), r.val = 2000 * t.val + p.val → Y (ix2 p u) = G (ix2 r u)) :
    (cfg2.win 17).cut (grid2.coords t) Y = ((cfg2.win 17).blk t).view.read (Elt Ideal) G := by
  obtain ⟨e0, e1⟩ := idx2_17 t
  have hN' := hN
  have ht : t.val < cfg2.N := t.isLt
  funext j
  have hj0 : (j 0).val < 2000 := (j 0).isLt
  have hj1 : (j 1).val < 1 := (j 1).isLt
  have hr : 2000 * t.val + (j 0).val < 100000 := by omega
  show Y ((cfg2.win 17).xinj (grid2.coords t) j) = G (((cfg2.win 17).blk t).view.emb j)
  have a1 : (cfg2.win 17).xinj (grid2.coords t) j = ix2 (⟨(j 0).val, hj0⟩ : Fin 2000) (⟨(j 1).val, hj1⟩ : Fin 1) :=
    funext fun a => Fin.ext (by match a with | ⟨0, _⟩ => rfl | ⟨1, _⟩ => rfl)
  have a2 : ((cfg2.win 17).blk t).view.emb j = ix2 (⟨2000 * t.val + (j 0).val, hr⟩ : Fin 100000) (⟨(j 1).val, hj1⟩ : Fin 1) := by
    funext a; apply Fin.ext
    match a with
    | ⟨0, _⟩ => show win2_17.index t (0 : Fin 2) * 2000 + 1 * (j 0).val = 2000 * t.val + (j 0).val; rw [e0]; omega
    | ⟨1, _⟩ => show win2_17.index t (1 : Fin 2) * 1 + 1 * (j 1).val = (j 1).val; rw [e1]; omega
  exact (congrArg Y a1).trans ((h _ _ _ rfl).trans (congrArg G a2).symm)

/-- Row r of the column is in the block of point r / 2000. -/
theorem cover_17 (i : S100000x1.Idx) :
    ∃ t : Fin cfg2.N, (cfg2.win 17).flush t = true ∧ i ∈ ((cfg2.win 17).blk t).view.set := by
  have hi0 : (i 0).val < 100000 := (i 0).isLt
  have hi1 : (i 1).val < 1 := (i 1).isLt
  have hN' := hN
  obtain ⟨t, ht⟩ : ∃ t : Fin cfg2.N, t.val = (i 0).val / 2000 := ⟨⟨(i 0).val / 2000, by omega⟩, rfl⟩
  obtain ⟨e0, e1⟩ := idx2_17 t
  refine ⟨t, flush2_17 t, ?_⟩
  show i ∈ ((View.whole main_v57_7).slice (win2_17.rect t)).set
  rw [View.set_slice_whole, Rect.mem_set_unit]
  intro a
  match a with
  | ⟨0, _⟩ => show win2_17.index t (0 : Fin 2) * 2000 ≤ (i 0).val ∧ (i 0).val < win2_17.index t (0 : Fin 2) * 2000 + 2000; rw [e0, ht]; omega
  | ⟨1, _⟩ => show win2_17.index t (1 : Fin 2) * 1 ≤ (i 1).val ∧ (i 1).val < win2_17.index t (1 : Fin 2) * 1 + 1; rw [e1]; omega

/-- A 2000 x 1 block Y is block t of the column G as soon as Y (p, 0) = G (2000 t + p, 0) for all p. -/
theorem out_block_18 (t : Fin cfg2.N) (Y : Vec Ideal S2000x1 .f32) (G : S100000x1.Idx → EReal)
    (h : ∀ (p : Fin 2000) (u : Fin 1) (r : Fin 100000), r.val = 2000 * t.val + p.val → Y (ix2 p u) = G (ix2 r u)) :
    (cfg2.win 18).cut (grid2.coords t) Y = ((cfg2.win 18).blk t).view.read (Elt Ideal) G := by
  obtain ⟨e0, e1⟩ := idx2_18 t
  have hN' := hN
  have ht : t.val < cfg2.N := t.isLt
  funext j
  have hj0 : (j 0).val < 2000 := (j 0).isLt
  have hj1 : (j 1).val < 1 := (j 1).isLt
  have hr : 2000 * t.val + (j 0).val < 100000 := by omega
  show Y ((cfg2.win 18).xinj (grid2.coords t) j) = G (((cfg2.win 18).blk t).view.emb j)
  have a1 : (cfg2.win 18).xinj (grid2.coords t) j = ix2 (⟨(j 0).val, hj0⟩ : Fin 2000) (⟨(j 1).val, hj1⟩ : Fin 1) :=
    funext fun a => Fin.ext (by match a with | ⟨0, _⟩ => rfl | ⟨1, _⟩ => rfl)
  have a2 : ((cfg2.win 18).blk t).view.emb j = ix2 (⟨2000 * t.val + (j 0).val, hr⟩ : Fin 100000) (⟨(j 1).val, hj1⟩ : Fin 1) := by
    funext a; apply Fin.ext
    match a with
    | ⟨0, _⟩ => show win2_18.index t (0 : Fin 2) * 2000 + 1 * (j 0).val = 2000 * t.val + (j 0).val; rw [e0]; omega
    | ⟨1, _⟩ => show win2_18.index t (1 : Fin 2) * 1 + 1 * (j 1).val = (j 1).val; rw [e1]; omega
  exact (congrArg Y a1).trans ((h _ _ _ rfl).trans (congrArg G a2).symm)

/-- Row r of the column is in the block of point r / 2000. -/
theorem cover_18 (i : S100000x1.Idx) :
    ∃ t : Fin cfg2.N, (cfg2.win 18).flush t = true ∧ i ∈ ((cfg2.win 18).blk t).view.set := by
  have hi0 : (i 0).val < 100000 := (i 0).isLt
  have hi1 : (i 1).val < 1 := (i 1).isLt
  have hN' := hN
  obtain ⟨t, ht⟩ : ∃ t : Fin cfg2.N, t.val = (i 0).val / 2000 := ⟨⟨(i 0).val / 2000, by omega⟩, rfl⟩
  obtain ⟨e0, e1⟩ := idx2_18 t
  refine ⟨t, flush2_18 t, ?_⟩
  show i ∈ ((View.whole main_v57_8).slice (win2_18.rect t)).set
  rw [View.set_slice_whole, Rect.mem_set_unit]
  intro a
  match a with
  | ⟨0, _⟩ => show win2_18.index t (0 : Fin 2) * 2000 ≤ (i 0).val ∧ (i 0).val < win2_18.index t (0 : Fin 2) * 2000 + 2000; rw [e0, ht]; omega
  | ⟨1, _⟩ => show win2_18.index t (1 : Fin 2) * 1 ≤ (i 1).val ∧ (i 1).val < win2_18.index t (1 : Fin 2) * 1 + 1; rw [e1]; omega

end Cert.Region2Blocks

end
-- ==== Proof.Region2.lean ====
/-
  The user side, region 2 of the blocked program: five of its nine outputs against the plain program.

  At grid point t the body reads rows 2000 t .. 2000 t + 1999 of xu, vu, sxi, sxj, svi, svj, A and of the two degree
  columns dui, duj, and the whole 64 x 64 matrix S. Row p of everything it stores depends only on row p of what it
  read, through the two row scores
      b_pos = (sum over k of xu(p,k) sxi(p,k)) / dui p,      b_neg = (sum over k of xu(p,k) sxj(p,k)) / duj p.
  The plain program forms the same quantities for all n rows at once, so the proof is a simulation row by row:
    * the kernel side reads each stored value at an entry (p, q) as extended reals (a row sum as a finite sum, the
      product with S as a sum over k started from zero);
    * the plain side reads each stage at an entry (r, q) the same way;
    * with r = 2000 t + p the two agree. Two places need an argument beyond unfolding: the body writes 0 - b_neg
      where the plain program negates, and the plain program's second denominator takes the sign before dividing,
      (-(row score)) / duj, which is -b_neg because duj is never zero; the plain program also recomputes b_pos for
      its first denominator, and the body's single b_pos serves both.
  The blocks of every output tile its array exactly (row r is in the block of point r / 2000), so the array after
  the region is the stage.
-/
import proofs.«138700_j66589172957770_1_alg».proof.Proof.Gen.KernelIdeal.Frame
import proofs.«138700_j66589172957770_1_alg».proof.Proof.Stages
import proofs.«138700_j66589172957770_1_alg».proof.Proof.Degrees
import proofs.«138700_j66589172957770_1_alg».proof.Proof.Region2Pay
import proofs.«138700_j66589172957770_1_alg».proof.Proof.Region2Blocks

set_option maxRecDepth 16384

noncomputable section

namespace Cert.Region2Out

open Idealize.ShloMosaic Idealize.ShloMosaic.ValueIdx Cert.KernelIdeal Cert.KernelIdeal.Gen Cert.LibRowLayout Cert.Region2Pay

/-- The user rows' numerator: (A/dui - svi (b_neg - 1)/dui) + ((xs - A)/duj - svj (b_pos + 1)/duj). -/
def zU (A svi svj xs bpos bneg dui duj : EReal) : EReal :=
  (Ideal.div A dui - Ideal.div (svi * (bneg - one)) dui) + (Ideal.div (xs - A) duj - Ideal.div (svj * (bpos + one)) duj)

/-- Entry (p, q) of the product of a 2000 x 64 block with the 64 x 64 matrix, started from zero. -/
theorem xS_apply (X : FVec Ideal S2000x64 .f32) (M : FVec Ideal S64x64 .f32) (p : Fin 2000) (q : Fin 64) :
    matmul (F := Ideal) dot_S2000x64_S64x64_S2000x64_1_0_0_1_n_n none X M (constant S2000x64 .f32 0x00000000#32) (ix2 p q)
      = ∑ k : Fin 64, X (ix2 p k) * M (ix2 k q) :=
  PlainDot.matmul_zero_apply dot_S2000x64_S64x64_S2000x64_1_0_0_1_n_n rfl rfl rfl rfl rfl rfl rfl rfl none X M p q

/-- The stored user row at (p, q): the numerator over max(du1, c) + max(du2' + 1, c). -/
theorem pay17_apply (X S4 S5 A6 : FVec Ideal S2000x64 .f32) (D7 D8 : FVec Ideal S2000x1 .f32) (M : FVec Ideal S64x64 .f32)
    (P N U1 U2 : FVec Ideal S2000x1 .f32) (c1 : EReal) (p : Fin 2000) (q : Fin 64) :
    k2_pay17 (F := Ideal) X S4 S5 A6 D7 D8 M P N U1 U2 c1 (ix2 p q)
      = Ideal.div (zU (A6 (ix2 p q)) (S4 (ix2 p q)) (S5 (ix2 p q)) (∑ k : Fin 64, X (ix2 p k) * M (ix2 k q))
            (P (ix2 p (0 : Fin 1))) (N (ix2 p (0 : Fin 1))) (D7 (ix2 p (0 : Fin 1))) (D8 (ix2 p (0 : Fin 1))))
          (max (U1 (ix2 p (0 : Fin 1))) clamp + max (U2 (ix2 p (0 : Fin 1)) + c1) clamp) := by
  unfold k2_pay17 zU
  simp only [divf_apply, subf_apply, addf_apply, mulf_apply, maximumf_apply, broadcastTo_a1_ab_apply, xS_apply]
  rfl

/-- The body casts each loaded block to its own shape: the identity. -/
theorem pay5_eq (X : Vec Ideal S2000x64 .f32) : k2_pay5 (F := Ideal) X = X := by unfold k2_pay5; exact shapeCast_self _ _
theorem pay6_eq (X : Vec Ideal S2000x64 .f32) : k2_pay6 (F := Ideal) X = X := by unfold k2_pay6; exact shapeCast_self _ _
theorem pay7_eq (X : Vec Ideal S2000x64 .f32) : k2_pay7 (F := Ideal) X = X := by unfold k2_pay7; exact shapeCast_self _ _
theorem pay8_eq (X : Vec Ideal S2000x64 .f32) : k2_pay8 (F := Ideal) X = X := by unfold k2_pay8; exact shapeCast_self _ _
theorem pay9_eq (X : Vec Ideal S2000x64 .f32) : k2_pay9 (F := Ideal) X = X := by unfold k2_pay9; exact shapeCast_self _ _
theorem pay10_eq (X : Vec Ideal S2000x1 .f32) : k2_pay10 (F := Ideal) X = X := by unfold k2_pay10; exact shapeCast_self _ _
theorem pay11_eq (X : Vec Ideal S2000x1 .f32) : k2_pay11 (F := Ideal) X = X := by unfold k2_pay11; exact shapeCast_self _ _
theorem pay12_eq (X : Vec Ideal S64x64 .f32) : k2_pay12 (F := Ideal) X = X := by unfold k2_pay12; exact shapeCast_self _ _

end Cert.Region2Out

namespace Cert.Region2Ref

open Idealize.ShloMosaic Idealize.ShloMosaic.ValueIdx
open Cert.ReferenceIdeal Cert.ReferenceIdeal.Read Cert.Stages Cert.Region2Pay Cert.Region2Out

/-- Two index functions on a rank-two shape agree as soon as their two coordinates do. -/
macro "idx2eq" : tactic => `(tactic| exact funext fun a => Fin.ext (by match a with | ⟨0, _⟩ => rfl | ⟨1, _⟩ => rfl))

/-- b_pos of the plain program at row r: the row's score against sxi over the row's degree. -/
theorem ref62 (x : XArr) (u i : IArr) (r : Fin 100000) (u0 : Fin 1) :
    val_main_v62 (F := Ideal) x u i (ix2 r u0)
      = rq (fun k => val_main_v17 (F := Ideal) x (ix2 r k)) (fun k => val_main_v47 (F := Ideal) x u i (ix2 r k)) (val_main_v8 (F := Ideal) u (ix2 r u0)) := by
  rw [val_main_v62_apply, val_main_v61_apply, val_main_v60_apply, val_main_cst_15_apply, Ideal.hostDivf_def, Ideal.ofBits_def, Ideal.ofBits_zero_f32, zero_add]
  unfold rq
  refine congrArg (fun s => Ideal.div s (val_main_v8 (F := Ideal) u (ix2 r u0))) (Finset.sum_congr rfl fun k _ => ?_)
  have e : idx_main_v60 (idx_main_v61 (ix2 r u0)) k = ix2 r k := by idx2eq
  rw [e, val_main_v59_apply]
  rfl

/-- b_neg of the plain program at row r: the row's score against sxj over the row's complementary degree. -/
theorem ref66 (x : XArr) (u i : IArr) (r : Fin 100000) (u0 : Fin 1) :
    val_main_v66 (F := Ideal) x u i (ix2 r u0)
      = rq (fun k => val_main_v17 (F := Ideal) x (ix2 r k)) (fun k => val_main_v51 (F := Ideal) x u i (ix2 r k)) (val_main_v11 (F := Ideal) u (ix2 r u0)) := by
  rw [val_main_v66_apply, val_main_v65_apply, val_main_v64_apply, val_main_cst_16_apply, Ideal.hostDivf_def, Ideal.ofBits_def, Ideal.ofBits_zero_f32, zero_add]
  unfold rq
  refine congrArg (fun s => Ideal.div s (val_main_v11 (F := Ideal) u (ix2 r u0))) (Finset.sum_congr rfl fun k _ => ?_)
  have e : idx_main_v64 (idx_main_v65 (ix2 r u0)) k = ix2 r k := by idx2eq
  rw [e, val_main_v63_apply]
  rfl

/-- b_pos as the plain program computes it a second time. -/
theorem ref70 (x : XArr) (u i : IArr) (r : Fin 100000) (u0 : Fin 1) :
    val_main_v70 (F := Ideal) x u i (ix2 r u0)
      = rq (fun k => val_main_v17 (F := Ideal) x (ix2 r k)) (fun k => val_main_v47 (F := Ideal) x u i (ix2 r k)) (val_main_v8 (F := Ideal) u (ix2 r u0)) := by
  rw [val_main_v70_apply, val_main_v69_apply, val_main_v68_apply, val_main_cst_17_apply, Ideal.hostDivf_def, Ideal.ofBits_def, Ideal.ofBits_zero_f32, zero_add]
  unfold rq
  refine congrArg (fun s => Ideal.div s (val_main_v8 (F := Ideal) u (ix2 r u0))) (Finset.sum_congr rfl fun k _ => ?_)
  have e : idx_main_v68 (idx_main_v69 (ix2 r u0)) k = ix2 r k := by idx2eq
  rw [e, val_main_v67_apply]
  rfl

/-- s1 of the plain program: (-b_neg + 1) / dui. -/
theorem ref100 (x : XArr) (u i : IArr) (j : S100000x1.Idx) :
    val_main_v100 (F := Ideal) x u i j = Ideal.div (-(val_main_v66 (F := Ideal) x u i j) + one) (val_main_v8 (F := Ideal) u j) := by
  rw [val_main_v100_apply, val_main_v99_apply, val_main_v97_apply, val_main_v98_apply, val_main_cst_25_apply]
  rfl

/-- s2 of the plain program: (b_pos + 1) / duj. -/
theorem ref132 (x : XArr) (u i : IArr) (j : S100000x1.Idx) :
    val_main_v132 (F := Ideal) x u i j = Ideal.div (val_main_v62 (F := Ideal) x u i j + one) (val_main_v11 (F := Ideal) u j) := by
  rw [val_main_v132_apply, val_main_v131_apply, val_main_v130_apply, val_main_cst_33_apply]
  rfl

/-- q1 of the plain program at (r, q): vu (b_neg - 1) / dui. -/
theorem ref207 (x : XArr) (u i : IArr) (r : Fin 100000) (q : Fin 64) :
    val_main_v207 (F := Ideal) x u i (ix2 r q)
      = Ideal.div (val_main_v19 (F := Ideal) x (ix2 r q) * (val_main_v66 (F := Ideal) x u i (ix2 r (0 : Fin 1)) - one)) (val_main_v8 (F := Ideal) u (ix2 r (0 : Fin 1))) := by
  rw [val_main_v207_apply, val_main_v205_apply, val_main_v204_apply, val_main_v203_apply, val_main_v202_apply, val_main_cst_48_apply, val_main_v206_apply]
  have e1 : idx_main_v204 (ix2 r q) = ix2 r (0 : Fin 1) := by idx2eq
  have e2 : idx_main_v206 (ix2 r q) = ix2 r (0 : Fin 1) := by idx2eq
  rw [e1, e2]
  rfl

/-- q2 of the plain program at (r, q): vu (b_pos + 1) / duj. -/
theorem ref227 (x : XArr) (u i : IArr) (r : Fin 100000) (q : Fin 64) :
    val_main_v227 (F := Ideal) x u i (ix2 r q)
      = Ideal.div (val_main_v19 (F := Ideal) x (ix2 r q) * (val_main_v62 (F := Ideal) x u i (ix2 r (0 : Fin 1)) + one)) (val_main_v11 (F := Ideal) u (ix2 r (0 : Fin 1))) := by
  rw [val_main_v227_apply, val_main_v225_apply, val_main_v224_apply, val_main_v223_apply, val_main_v222_apply, val_main_cst_52_apply, val_main_v226_apply]
  have e1 : idx_main_v224 (ix2 r q) = ix2 r (0 : Fin 1) := by idx2eq
  have e2 : idx_main_v226 (ix2 r q) = ix2 r (0 : Fin 1) := by idx2eq
  rw [e1, e2]
  rfl

/-- du1 of the plain program: (b_pos - b_neg) + 1, with its own copy of b_pos. -/
theorem ref73 (x : XArr) (u i : IArr) (j : S100000x1.Idx) :
    val_main_v73 (F := Ideal) x u i j = (val_main_v70 (F := Ideal) x u i j - val_main_v66 (F := Ideal) x u i j) + one := by
  rw [val_main_v73_apply, val_main_v71_apply, val_main_v72_apply, val_main_cst_18_apply]
  rfl

/-- du2 of the plain program: the sign is taken before the division, (-(row score)) / duj + b_pos + 1; the degree is
    not zero, so this is -b_neg + b_pos + 1. -/
theorem ref81 (x : XArr) (u i : IArr) (r : Fin 100000) (u0 : Fin 1) :
    val_main_v81 (F := Ideal) x u i (ix2 r u0)
      = (-(rq (fun k => val_main_v17 (F := Ideal) x (ix2 r k)) (fun k => val_main_v51 (F := Ideal) x u i (ix2 r k)) (val_main_v11 (F := Ideal) u (ix2 r u0)))
          + val_main_v62 (F := Ideal) x u i (ix2 r u0)) + one := by
  rw [val_main_v81_apply, val_main_v79_apply, val_main_v78_apply, val_main_v77_apply, val_main_v76_apply, val_main_v75_apply, val_main_cst_19_apply,
    val_main_v80_apply, val_main_cst_20_apply, Ideal.hostDivf_def, Ideal.hostNegf_def, Ideal.negf_def, Ideal.ofBits_def, Ideal.ofBits_zero_f32, zero_add,
    Cert.Degrees.div_neg_left _ _ (Cert.Degrees.duj_ne_zero u (ix2 r u0))]
  unfold rq
  have e : ∀ k : Fin 64, val_main_v74 (F := Ideal) x u i (idx_main_v75 (idx_main_v76 (ix2 r u0)) k)
      = val_main_v17 (F := Ideal) x (ix2 r k) * val_main_v51 (F := Ideal) x u i (ix2 r k) := fun k => by
    have e' : idx_main_v75 (idx_main_v76 (ix2 r u0)) k = ix2 r k := by idx2eq
    rw [e', val_main_v74_apply]
    rfl
  simp only [e]
  rfl

/-- zu1 + zu2 of the plain program at (r, q), the 64 x 64 product read as a sum over k. -/
theorem ref265 (x : XArr) (u i : IArr) (r : Fin 100000) (q : Fin 64) :
    val_main_v265 (F := Ideal) x u i (ix2 r q)
      = zU (val_main_v159 (F := Ideal) x u i (ix2 r q)) (val_main_v54 (F := Ideal) x u i (ix2 r q)) (val_main_v58 (F := Ideal) x u i (ix2 r q))
          (∑ k : Fin 64, val_main_v17 (F := Ideal) x (ix2 r k) * val_main_v160 (F := Ideal) x (ix2 k q))
          (val_main_v62 (F := Ideal) x u i (ix2 r (0 : Fin 1))) (val_main_v66 (F := Ideal) x u i (ix2 r (0 : Fin 1)))
          (val_main_v8 (F := Ideal) u (ix2 r (0 : Fin 1))) (val_main_v11 (F := Ideal) u (ix2 r (0 : Fin 1))) := by
  rw [val_main_v265_apply, val_main_v169_apply, val_main_v162_apply, val_main_v161_apply, val_main_v168_apply, val_main_v166_apply,
    val_main_v165_apply, val_main_v164_apply, val_main_v163_apply, val_main_cst_41_apply, val_main_v167_apply,
    val_main_v180_apply, val_main_v173_apply, val_main_v171_apply, val_main_v170_apply, val_main_v172_apply,
    val_main_v179_apply, val_main_v177_apply, val_main_v176_apply, val_main_v175_apply, val_main_v174_apply, val_main_cst_42_apply, val_main_v178_apply]
  have e161 : idx_main_v161 (ix2 r q) = ix2 r (0 : Fin 1) := by idx2eq
  have e165 : idx_main_v165 (ix2 r q) = ix2 r (0 : Fin 1) := by idx2eq
  have e167 : idx_main_v167 (ix2 r q) = ix2 r (0 : Fin 1) := by idx2eq
  have e172 : idx_main_v172 (ix2 r q) = ix2 r (0 : Fin 1) := by idx2eq
  have e176 : idx_main_v176 (ix2 r q) = ix2 r (0 : Fin 1) := by idx2eq
  have e178 : idx_main_v178 (ix2 r q) = ix2 r (0 : Fin 1) := by idx2eq
  have el : ∀ k : Fin 64, lidx_main_v170 (ix2 r q) k = ix2 r k := fun k => by idx2eq
  have er : ∀ k : Fin 64, ridx_main_v170 (ix2 r q) k = ix2 k q := fun k => by idx2eq
  simp only [e161, e165, e167, e172, e176, e178, el, er]
  rfl

/-- The user rows of the result at (r, q): the numerator over max(du1, c) + max(du2, c), both read at row r. -/
theorem refOutU (x : XArr) (u i : IArr) (r : Fin 100000) (q : Fin 64) :
    Cert.Stages.outU x u i (ix2 r q)
      = Ideal.div (val_main_v265 (F := Ideal) x u i (ix2 r q))
          (max (val_main_v73 (F := Ideal) x u i (ix2 r (0 : Fin 1))) clamp + max (val_main_v81 (F := Ideal) x u i (ix2 r (0 : Fin 1))) clamp) := by
  have e : Cert.Stages.colU (ix2 r q) = ix2 r (0 : Fin 1) := by idx2eq
  unfold Cert.Stages.outU Cert.Stages.clampC
  rw [e]
  rfl

end Cert.Region2Ref

namespace Cert.Region2Entry

open Idealize.ShloMosaic Idealize.ShloMosaic.ValueIdx
open Cert.KernelIdeal.Gen Cert.ReferenceIdeal.Read Cert.Stages Cert.Region2Pay Cert.Region2Out Cert.Region2Ref

/-! ## One stored entry against one entry of the plain program

  Each lemma takes the blocks the body reads as arbitrary arrays whose row p is row r of the plain program's stages,
  and identifies what the body stores at (p, q) with the plain program's stage at (r, q). -/

theorem zer_eq : zer = (0 : EReal) := Ideal.ofBits_zero_f32

/-- s1: ((0 - b_neg) + 1) / dui is (-b_neg + 1) / dui. -/
theorem s1_entry (x : XArr) (u i : IArr) (X0 X3 : Vec Ideal Cert.KernelIdeal.S2000x64 .f32) (X7 X8 : Vec Ideal Cert.KernelIdeal.S2000x1 .f32)
    (p : Fin 2000) (u0 : Fin 1) (r : Fin 100000)
    (e0 : ∀ k : Fin 64, X0 (ix2 p k) = val_main_v17 (F := Ideal) x (ix2 r k))
    (e3 : ∀ k : Fin 64, X3 (ix2 p k) = val_main_v51 (F := Ideal) x u i (ix2 r k))
    (e7 : X7 (ix2 p u0) = val_main_v8 (F := Ideal) u (ix2 r u0))
    (e8 : X8 (ix2 p u0) = val_main_v11 (F := Ideal) u (ix2 r u0)) :
    k2_pay3 (F := Ideal) (k2_pay10 X7) (k2_pay14 X0 X3 X8) (ix2 p u0) = val_main_v100 (F := Ideal) x u i (ix2 r u0) := by
  rw [pay3_apply, pay14_apply, pay10_eq, ref100, ref66]
  simp only [e0, e3, e7, e8]
  rw [zer_eq, zero_sub]

/-- s2: (b_pos + 1) / duj. -/
theorem s2_entry (x : XArr) (u i : IArr) (X0 X2 : Vec Ideal Cert.KernelIdeal.S2000x64 .f32) (X7 X8 : Vec Ideal Cert.KernelIdeal.S2000x1 .f32)
    (p : Fin 2000) (u0 : Fin 1) (r : Fin 100000)
    (e0 : ∀ k : Fin 64, X0 (ix2 p k) = val_main_v17 (F := Ideal) x (ix2 r k))
    (e2 : ∀ k : Fin 64, X2 (ix2 p k) = val_main_v47 (F := Ideal) x u i (ix2 r k))
    (e7 : X7 (ix2 p u0) = val_main_v8 (F := Ideal) u (ix2 r u0))
    (e8 : X8 (ix2 p u0) = val_main_v11 (F := Ideal) u (ix2 r u0)) :
    k2_pay4 (F := Ideal) (k2_pay11 X8) (k2_pay13 X0 X2 X7) (ix2 p u0) = val_main_v132 (F := Ideal) x u i (ix2 r u0) := by
  rw [pay4_apply, pay13_apply, pay11_eq, ref132, ref62]
  simp only [e0, e2, e7, e8]

/-- q1: vu (b_neg - 1) / dui. -/
theorem q1_entry (x : XArr) (u i : IArr) (X0 X1 X3 : Vec Ideal Cert.KernelIdeal.S2000x64 .f32) (X7 X8 : Vec Ideal Cert.KernelIdeal.S2000x1 .f32)
    (p : Fin 2000) (q : Fin 64) (r : Fin 100000)
    (e0 : ∀ k : Fin 64, X0 (ix2 p k) = val_main_v17 (F := Ideal) x (ix2 r k))
    (e3 : ∀ k : Fin 64, X3 (ix2 p k) = val_main_v51 (F := Ideal) x u i (ix2 r k))
    (e1 : X1 (ix2 p q) = val_main_v19 (F := Ideal) x (ix2 r q))
    (e7 : X7 (ix2 p (0 : Fin 1)) = val_main_v8 (F := Ideal) u (ix2 r (0 : Fin 1)))
    (e8 : X8 (ix2 p (0 : Fin 1)) = val_main_v11 (F := Ideal) u (ix2 r (0 : Fin 1))) :
    k2_pay1 (F := Ideal) (k2_pay6 X1) (k2_pay10 X7) (k2_pay14 X0 X3 X8) (ix2 p q) = val_main_v207 (F := Ideal) x u i (ix2 r q) := by
  rw [pay1_apply, pay14_apply, pay6_eq, pay10_eq, ref207, ref66]
  simp only [e0, e3, e1, e7, e8]

/-- q2: vu (b_pos + 1) / duj. -/
theorem q2_entry (x : XArr) (u i : IArr) (X0 X1 X2 : Vec Ideal Cert.KernelIdeal.S2000x64 .f32) (X7 X8 : Vec Ideal Cert.KernelIdeal.S2000x1 .f32)
    (p : Fin 2000) (q : Fin 64) (r : Fin 100000)
    (e0 : ∀ k : Fin 64, X0 (ix2 p k) = val_main_v17 (F := Ideal) x (ix2 r k))
    (e2 : ∀ k : Fin 64, X2 (ix2 p k) = val_main_v47 (F := Ideal) x u i (ix2 r k))
    (e1 : X1 (ix2 p q) = val_main_v19 (F := Ideal) x (ix2 r q))
    (e7 : X7 (ix2 p (0 : Fin 1)) = val_main_v8 (F := Ideal) u (ix2 r (0 : Fin 1)))
    (e8 : X8 (ix2 p (0 : Fin 1)) = val_main_v11 (F := Ideal) u (ix2 r (0 : Fin 1))) :
    k2_pay2 (F := Ideal) (k2_pay6 X1) (k2_pay11 X8) (k2_pay13 X0 X2 X7) (ix2 p q) = val_main_v227 (F := Ideal) x u i (ix2 r q) := by
  rw [pay2_apply, pay13_apply, pay6_eq, pay11_eq, ref227, ref62]
  simp only [e0, e2, e1, e7, e8]

/-- The user rows: the body's -b_neg + b_pos + 1 is the plain program's (-(row score)) / duj + b_pos + 1, and its
    one b_pos serves where the plain program computes b_pos twice. -/
theorem outU_entry (x : XArr) (u i : IArr) (X0 X2 X3 X4 X5 X6 : Vec Ideal Cert.KernelIdeal.S2000x64 .f32) (X7 X8 : Vec Ideal Cert.KernelIdeal.S2000x1 .f32)
    (X9 : Vec Ideal Cert.KernelIdeal.S64x64 .f32) (p : Fin 2000) (q : Fin 64) (r : Fin 100000)
    (e0 : ∀ k : Fin 64, X0 (ix2 p k) = val_main_v17 (F := Ideal) x (ix2 r k))
    (e2 : ∀ k : Fin 64, X2 (ix2 p k) = val_main_v47 (F := Ideal) x u i (ix2 r k))
    (e3 : ∀ k : Fin 64, X3 (ix2 p k) = val_main_v51 (F := Ideal) x u i (ix2 r k))
    (e4 : X4 (ix2 p q) = val_main_v54 (F := Ideal) x u i (ix2 r q))
    (e5 : X5 (ix2 p q) = val_main_v58 (F := Ideal) x u i (ix2 r q))
    (e6 : X6 (ix2 p q) = val_main_v159 (F := Ideal) x u i (ix2 r q))
    (e7 : X7 (ix2 p (0 : Fin 1)) = val_main_v8 (F := Ideal) u (ix2 r (0 : Fin 1)))
    (e8 : X8 (ix2 p (0 : Fin 1)) = val_main_v11 (F := Ideal) u (ix2 r (0 : Fin 1)))
    (e9 : ∀ a b : Fin 64, X9 (ix2 a b) = val_main_v160 (F := Ideal) x (ix2 a b)) :
    k2_pay17 (F := Ideal) (k2_pay5 X0) (k2_pay7 X4) (k2_pay8 X5) (k2_pay9 X6) (k2_pay10 X7) (k2_pay11 X8) (k2_pay12 X9)
        (k2_pay13 X0 X2 X7) (k2_pay14 X0 X3 X8) (k2_pay15 X0 X2 X3 X7 X8) (k2_pay16 X0 X2 X3 X7 X8)
        (Scalar.ofBits .f32 0x3F800000#32) (ix2 p q)
      = Cert.Stages.outU x u i (ix2 r q) := by
  rw [pay17_apply, pay13_apply, pay14_apply, pay15_apply, pay16_apply, pay5_eq, pay7_eq, pay8_eq, pay9_eq, pay10_eq, pay11_eq, pay12_eq,
    refOutU, ref265, ref73, ref81, ref70, ref62, ref66]
  simp only [e0, e2, e3, e4, e5, e6, e7, e8, e9]
  rw [zer_eq, zero_sub]
  rfl

end Cert.Region2Entry

namespace Cert.Regions

open Idealize.ShloMosaic Idealize.ShloMosaic.TcCoe Idealize.SL.Sem
open Cert.KernelIdeal Cert.KernelIdeal.Gen Cert.Stages

variable (V : (c : Dev nD) → (b : Ref sig .tc) → Buf (Elt Ideal) ((c : Thread nD τ).loc b))

/-- The user rows of the result: at every point the body stores, in row p of its block, the plain program's user row 2000 t + p. -/
theorem region2_outU (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 10 cfg2.N = Cert.Stages.outU x u i := by
  refine (dat2 (F := Ideal) V c).arrAt_eq_of_cover 10 (Cert.Stages.outU x u i) (fun t _ => ?_) Cert.Region2Blocks.cover_10
  show (cfg2.win 10).cut (grid2.coords t) ((dat2 V c).after 10 t) = _
  rw [after2_10]
  unfold out2_10
  rw [View.canon_unit_zero Cert.Region2Blocks.hz]
  simp only [View.ld_unit_zero (S := S2000x64) Cert.Region2Blocks.hz, View.ld_unit_zero (S := S2000x1) Cert.Region2Blocks.hz, View.ld_unit_zero (S := S64x64) Cert.Region2Blocks.hz]
  refine Cert.Region2Blocks.out_block_10 t _ _ fun p q r hr => ?_
  exact Cert.Region2Entry.outU_entry x u i (iblk2 V c 0 t) (iblk2 V c 2 t) (iblk2 V c 3 t) (iblk2 V c 4 t) (iblk2 V c 5 t) (iblk2 V c 6 t)
    (iblk2 V c 7 t) (iblk2 V c 8 t) (iblk2 V c 9 t) p q r
    (fun k => (Cert.Region2Blocks.iblk2_0_apply V c t p k r hr).trans (congrFun h0 _))
    (fun k => (Cert.Region2Blocks.iblk2_2_apply V c t p k r hr).trans (congrFun h2 _))
    (fun k => (Cert.Region2Blocks.iblk2_3_apply V c t p k r hr).trans (congrFun h3 _))
    ((Cert.Region2Blocks.iblk2_4_apply V c t p q r hr).trans (congrFun h4 _))
    ((Cert.Region2Blocks.iblk2_5_apply V c t p q r hr).trans (congrFun h5 _))
    ((Cert.Region2Blocks.iblk2_6_apply V c t p q r hr).trans (congrFun h6 _))
    ((Cert.Region2Blocks.iblk2_7_apply V c t p (0 : Fin 1) r hr).trans (congrFun h7 _))
    ((Cert.Region2Blocks.iblk2_8_apply V c t p (0 : Fin 1) r hr).trans (congrFun h8 _))
    (fun a b => (Cert.Region2Blocks.iblk2_9_apply V c t a b).trans (congrFun h9 _))

/-- q1 = vu (b_neg - 1) / dui: row p of the block at point t is row 2000 t + p of the plain program's array. -/
theorem region2_q1 (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 15 cfg2.N = Cert.ReferenceIdeal.Read.val_main_v207 (F := Ideal) x u i := by
  refine (dat2 (F := Ideal) V c).arrAt_eq_of_cover 15 (Cert.ReferenceIdeal.Read.val_main_v207 (F := Ideal) x u i) (fun t _ => ?_) Cert.Region2Blocks.cover_15
  show (cfg2.win 15).cut (grid2.coords t) ((dat2 V c).after 15 t) = _
  rw [after2_15]
  unfold out2_15
  rw [View.canon_unit_zero Cert.Region2Blocks.hz]
  simp only [View.ld_unit_zero (S := S2000x64) Cert.Region2Blocks.hz, View.ld_unit_zero (S := S2000x1) Cert.Region2Blocks.hz]
  refine Cert.Region2Blocks.out_block_15 t _ _ fun p q r hr => ?_
  exact Cert.Region2Entry.q1_entry x u i (iblk2 V c 0 t) (iblk2 V c 1 t) (iblk2 V c 3 t) (iblk2 V c 7 t) (iblk2 V c 8 t) p q r
    (fun k => (Cert.Region2Blocks.iblk2_0_apply V c t p k r hr).trans (congrFun h0 _))
    (fun k => (Cert.Region2Blocks.iblk2_3_apply V c t p k r hr).trans (congrFun h3 _))
    ((Cert.Region2Blocks.iblk2_1_apply V c t p q r hr).trans (congrFun h1 _))
    ((Cert.Region2Blocks.iblk2_7_apply V c t p (0 : Fin 1) r hr).trans (congrFun h7 _))
    ((Cert.Region2Blocks.iblk2_8_apply V c t p (0 : Fin 1) r hr).trans (congrFun h8 _))

/-- q2 = vu (b_pos + 1) / duj, in the same way. -/
theorem region2_q2 (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 16 cfg2.N = Cert.ReferenceIdeal.Read.val_main_v227 (F := Ideal) x u i := by
  refine (dat2 (F := Ideal) V c).arrAt_eq_of_cover 16 (Cert.ReferenceIdeal.Read.val_main_v227 (F := Ideal) x u i) (fun t _ => ?_) Cert.Region2Blocks.cover_16
  show (cfg2.win 16).cut (grid2.coords t) ((dat2 V c).after 16 t) = _
  rw [after2_16]
  unfold out2_16
  rw [View.canon_unit_zero Cert.Region2Blocks.hz]
  simp only [View.ld_unit_zero (S := S2000x64) Cert.Region2Blocks.hz, View.ld_unit_zero (S := S2000x1) Cert.Region2Blocks.hz]
  refine Cert.Region2Blocks.out_block_16 t _ _ fun p q r hr => ?_
  exact Cert.Region2Entry.q2_entry x u i (iblk2 V c 0 t) (iblk2 V c 1 t) (iblk2 V c 2 t) (iblk2 V c 7 t) (iblk2 V c 8 t) p q r
    (fun k => (Cert.Region2Blocks.iblk2_0_apply V c t p k r hr).trans (congrFun h0 _))
    (fun k => (Cert.Region2Blocks.iblk2_2_apply V c t p k r hr).trans (congrFun h2 _))
    ((Cert.Region2Blocks.iblk2_1_apply V c t p q r hr).trans (congrFun h1 _))
    ((Cert.Region2Blocks.iblk2_7_apply V c t p (0 : Fin 1) r hr).trans (congrFun h7 _))
    ((Cert.Region2Blocks.iblk2_8_apply V c t p (0 : Fin 1) r hr).trans (congrFun h8 _))

/-- s1 = (-b_neg + 1) / dui, one number per row. -/
theorem region2_s1 (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 17 cfg2.N = Cert.ReferenceIdeal.Read.val_main_v100 (F := Ideal) x u i := by
  refine (dat2 (F := Ideal) V c).arrAt_eq_of_cover 17 (Cert.ReferenceIdeal.Read.val_main_v100 (F := Ideal) x u i) (fun t _ => ?_) Cert.Region2Blocks.cover_17
  show (cfg2.win 17).cut (grid2.coords t) ((dat2 V c).after 17 t) = _
  rw [after2_17]
  unfold out2_17
  rw [View.canon_unit_zero Cert.Region2Blocks.hz]
  simp only [View.ld_unit_zero (S := S2000x64) Cert.Region2Blocks.hz, View.ld_unit_zero (S := S2000x1) Cert.Region2Blocks.hz]
  refine Cert.Region2Blocks.out_block_17 t _ _ fun p u0 r hr => ?_
  exact Cert.Region2Entry.s1_entry x u i (iblk2 V c 0 t) (iblk2 V c 3 t) (iblk2 V c 7 t) (iblk2 V c 8 t) p u0 r
    (fun k => (Cert.Region2Blocks.iblk2_0_apply V c t p k r hr).trans (congrFun h0 _))
    (fun k => (Cert.Region2Blocks.iblk2_3_apply V c t p k r hr).trans (congrFun h3 _))
    ((Cert.Region2Blocks.iblk2_7_apply V c t p u0 r hr).trans (congrFun h7 _))
    ((Cert.Region2Blocks.iblk2_8_apply V c t p u0 r hr).trans (congrFun h8 _))

/-- s2 = (b_pos + 1) / duj, one number per row. -/
theorem region2_s2 (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 18 cfg2.N = Cert.ReferenceIdeal.Read.val_main_v132 (F := Ideal) x u i := by
  refine (dat2 (F := Ideal) V c).arrAt_eq_of_cover 18 (Cert.ReferenceIdeal.Read.val_main_v132 (F := Ideal) x u i) (fun t _ => ?_) Cert.Region2Blocks.cover_18
  show (cfg2.win 18).cut (grid2.coords t) ((dat2 V c).after 18 t) = _
  rw [after2_18]
  unfold out2_18
  rw [View.canon_unit_zero Cert.Region2Blocks.hz]
  simp only [View.ld_unit_zero (S := S2000x64) Cert.Region2Blocks.hz, View.ld_unit_zero (S := S2000x1) Cert.Region2Blocks.hz]
  refine Cert.Region2Blocks.out_block_18 t _ _ fun p u0 r hr => ?_
  exact Cert.Region2Entry.s2_entry x u i (iblk2 V c 0 t) (iblk2 V c 2 t) (iblk2 V c 7 t) (iblk2 V c 8 t) p u0 r
    (fun k => (Cert.Region2Blocks.iblk2_0_apply V c t p k r hr).trans (congrFun h0 _))
    (fun k => (Cert.Region2Blocks.iblk2_2_apply V c t p k r hr).trans (congrFun h2 _))
    ((Cert.Region2Blocks.iblk2_7_apply V c t p u0 r hr).trans (congrFun h7 _))
    ((Cert.Region2Blocks.iblk2_8_apply V c t p u0 r hr).trans (congrFun h8 _))

end Cert.Regions

end
-- ==== Proof.Region2P.lean ====
/-
  Region 2, the four plain quotients: vu / dui, xu / dui, xu / duj, vu / duj. Grid point t of the user side
  reads rows 2000 t .. 2000 t + 1999 of each per-user array and writes the same rows of each output; row r,
  column q of such an output is the numerator at (r, q) over the degree column at (r, 0). The plain program
  forms three of the four as stages of its own (a column spread along the rows, then an elementwise
  quotient); the fourth, vu / dui, is the array named p0.
-/
import proofs.«138700_j66589172957770_1_alg».proof.Proof.Gen.KernelIdeal.Frame
import proofs.«138700_j66589172957770_1_alg».proof.Proof.Stages
import proofs.«138700_j66589172957770_1_alg».proof.Proof.LibRowLayout

set_option maxRecDepth 16384

noncomputable section

namespace Cert.Regions.Quot

open Idealize.ShloMosaic Idealize.ShloMosaic.TcCoe Idealize.SL.Sem
open Cert.KernelIdeal Cert.KernelIdeal.Gen Cert.Stages
open Idealize.ShloMosaic.ValueIdx Cert.ReferenceIdeal.Read

variable (V : (c : Dev nD) → (b : Ref sig .tc) → Buf (Elt Ideal) ((c : Thread nD τ).loc b))

theorem hz : (![0, 0] : Fin 2 → Nat) = fun _ => 0 := funext fun a => by fin_cases a <;> rfl

/-- The printed index maps of the windows used here, decided over the 50 points: block t of each starts at
    row 2000 t, column 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_11.index t (0 : Fin 2) = t.val ∧ win2_11.index t (1 : Fin 2) = 0
    ∧ win2_12.index t (0 : Fin 2) = t.val ∧ win2_12.index t (1 : Fin 2) = 0
    ∧ win2_13.index t (0 : Fin 2) = t.val ∧ win2_13.index t (1 : Fin 2) = 0
    ∧ win2_14.index t (0 : Fin 2) = t.val ∧ win2_14.index t (1 : Fin 2) = 0 :=
  (by decide +kernel : ∀ t : Fin grid2.N, _)

/-- Row p, column k of input window 0's block at point t is row 2000 t + p of its array. -/
theorem iblk_0 (c : Dev nD) (A : (⟨S100000x64, .f32⟩ : BufTy).Contents (Elt Ideal)) (hA : V c main_v13 = A)
    (t : Fin cfg2.N) (p : Fin 2000) (k : Fin 64) (r : Fin 100000) (hr : r.val = t.val * 2000 + p.val) :
    (iblk2 V c 0 t : Vec Ideal S2000x64 .f32) (ix2 p k) = A (ix2 r k) := by
  obtain ⟨e0, e1, -, -, -, -, -, -, -, -, -, -, -, -, -, -⟩ := idx_facts t
  unfold iblk2
  rw [View.read_apply]
  show V c main_v13 _ = A _
  rw [hA]
  refine congrArg A (funext fun a => Fin.ext ?_)
  match a with
  | ⟨0, _⟩ => show win2_0.index t (0 : Fin 2) * 2000 + 1 * p.val = r.val; rw [e0, hr]; omega
  | ⟨1, _⟩ => show win2_0.index t (1 : Fin 2) * 64 + 1 * k.val = k.val; rw [e1]; omega

/-- Row p, column k of input window 1's block at point t is row 2000 t + p of its array. -/
theorem iblk_1 (c : Dev nD) (A : (⟨S100000x64, .f32⟩ : BufTy).Contents (Elt Ideal)) (hA : V c main_v15 = A)
    (t : Fin cfg2.N) (p : Fin 2000) (k : Fin 64) (r : Fin 100000) (hr : r.val = t.val * 2000 + p.val) :
    (iblk2 V c 1 t : Vec Ideal S2000x64 .f32) (ix2 p k) = A (ix2 r k) := by
  obtain ⟨-, -, e0, e1, -, -, -, -, -, -, -, -, -, -, -, -⟩ := idx_facts t
  unfold iblk2
  rw [View.read_apply]
  show V c main_v15 _ = A _
  rw [hA]
  refine congrArg A (funext fun a => Fin.ext ?_)
  match a with
  | ⟨0, _⟩ => show win2_1.index t (0 : Fin 2) * 2000 + 1 * p.val = r.val; rw [e0, hr]; omega
  | ⟨1, _⟩ => show win2_1.index t (1 : Fin 2) * 64 + 1 * k.val = k.val; rw [e1]; omega

/-- Row p, column k of input window 7's block at point t is row 2000 t + p of its array. -/
theorem iblk_7 (c : Dev nD) (A : (⟨S100000x1, .f32⟩ : BufTy).Contents (Elt Ideal)) (hA : V c main_v8 = A)
    (t : Fin cfg2.N) (p : Fin 2000) (k : Fin 1) (r : Fin 100000) (hr : r.val = t.val * 2000 + p.val) :
    (iblk2 V c 7 t : Vec Ideal S2000x1 .f32) (ix2 p k) = A (ix2 r k) := by
  obtain ⟨-, -, -, -, e0, e1, -, -, -, -, -, -, -, -, -, -⟩ := idx_facts t
  unfold iblk2
  rw [View.read_apply]
  show V c main_v8 _ = A _
  rw [hA]
  refine congrArg A (funext fun a => Fin.ext ?_)
  match a with
  | ⟨0, _⟩ => show win2_7.index t (0 : Fin 2) * 2000 + 1 * p.val = r.val; rw [e0, hr]; omega
  | ⟨1, _⟩ => show win2_7.index t (1 : Fin 2) * 1 + 1 * k.val = k.val; rw [e1]; omega

/-- Row p, column k of input window 8's block at point t is row 2000 t + p of its array. -/
theorem iblk_8 (c : Dev nD) (A : (⟨S100000x1, .f32⟩ : BufTy).Contents (Elt Ideal)) (hA : V c main_v11 = A)
    (t : Fin cfg2.N) (p : Fin 2000) (k : Fin 1) (r : Fin 100000) (hr : r.val = t.val * 2000 + p.val) :
    (iblk2 V c 8 t : Vec Ideal S2000x1 .f32) (ix2 p k) = A (ix2 r k) := by
  obtain ⟨-, -, -, -, -, -, e0, e1, -, -, -, -, -, -, -, -⟩ := idx_facts t
  unfold iblk2
  rw [View.read_apply]
  show V c main_v11 _ = A _
  rw [hA]
  refine congrArg A (funext fun a => Fin.ext ?_)
  match a with
  | ⟨0, _⟩ => show win2_8.index t (0 : Fin 2) * 2000 + 1 * p.val = r.val; rw [e0, hr]; omega
  | ⟨1, _⟩ => show win2_8.index t (1 : Fin 2) * 1 + 1 * k.val = k.val; rw [e1]; omega

/-- The body's quotient payload for output window 11 at row p, column q of its block. -/
theorem pay_11 (a : Vec Ideal S2000x64 .f32) (d : Vec Ideal S2000x1 .f32) (p : Fin 2000) (q : Fin 64) :
    k2_pay18 (F := Ideal) (k2_pay6 a) (k2_pay10 d) (ix2 p q) = Ideal.div (a (ix2 p q)) (d (ix2 p (0 : Fin 1))) := by
  unfold k2_pay18 k2_pay6 k2_pay10
  show Ideal.div (shapeCast S2000x64 a _ (ix2 p q)) (broadcastTo S2000x64 (shapeCast S2000x1 d _) _ (ix2 p q)) = _
  rw [Cert.LibRowLayout.broadcastTo_a1_ab_apply _ _ p q, shapeCast_self, shapeCast_self]

/-- What point t writes back through output window 11 is block t of any array G that is, entry by entry,
    the numerator over the degree column. -/
theorem flushed_11 (c : Dev nD) (A : (⟨S100000x64, .f32⟩ : BufTy).Contents (Elt Ideal)) (D : (⟨S100000x1, .f32⟩ : BufTy).Contents (Elt Ideal))
    (hA : V c main_v15 = A) (hD : V c main_v8 = D)
    (G : (⟨S100000x64, .f32⟩ : BufTy).Contents (Elt Ideal))
    (hG : ∀ (r : Fin 100000) (q : Fin 64), G (ix2 r q) = Ideal.div (A (ix2 r q)) (D (ix2 r (0 : Fin 1)))) (t : Fin cfg2.N) :
    (dat2 (F := Ideal) V c).flushed 11 t = ((cfg2.win 11).blk t).view.read (Elt Ideal) G := by
  show (cfg2.win 11).cut (grid2.coords t) ((dat2 V c).after 11 t) = _
  rw [after2_11]
  unfold out2_11
  rw [View.canon_unit_zero hz]
  simp only [View.ld_unit_zero (S := S2000x64) hz, View.ld_unit_zero (S := S2000x1) hz]
  obtain ⟨-, -, -, -, -, -, -, -, e2, e3, -, -, -, -, -, -⟩ := idx_facts t
  have ht : t.val < 50 := lt_of_lt_of_eq t.isLt (show cfg2.N = 50 from N_2)
  funext j
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  show k2_pay18 (F := Ideal) (k2_pay6 (iblk2 V c 1 t)) (k2_pay10 (iblk2 V c 7 t)) (ix2 p q)
    = G (((cfg2.win 11).blk t).view.emb (ix2 p q))
  have hemb : ((cfg2.win 11).blk t).view.emb (ix2 p q) = ix2 (⟨t.val * 2000 + p.val, hr⟩ : Fin 100000) q := by
    funext a; apply Fin.ext
    match a with
    | ⟨0, _⟩ => show win2_11.index t (0 : Fin 2) * 2000 + 1 * p.val = t.val * 2000 + p.val; rw [e2]; omega
    | ⟨1, _⟩ => show win2_11.index t (1 : Fin 2) * 64 + 1 * q.val = q.val; rw [e3]; omega
  rw [hemb, hG, pay_11, iblk_1 V c A hA t p q ⟨t.val * 2000 + p.val, hr⟩ rfl,
    iblk_7 V c D hD t p (0 : Fin 1) ⟨t.val * 2000 + p.val, hr⟩ rfl]

/-- An index of the array is in point t's block iff each coordinate is in the block's range on its axis. -/
theorem mem_blk_11 (t : Fin cfg2.N) (i : S100000x64.Idx) :
    i ∈ ((cfg2.win 11).blk t).view.set ↔ ∀ a : Fin 2, win2_11.index t a * S2000x64.size a ≤ (i a).val
      ∧ (i a).val < win2_11.index t a * S2000x64.size a + S2000x64.size a := by
  show i ∈ ((View.whole main_v57_1).slice (win2_11.rect t)).set ↔ _
  rw [View.set_slice_whole, Rect.mem_set_unit]
  exact Iff.rfl

/-- Every row r is in the block of point r / 2000. -/
theorem cover_11 (i : S100000x64.Idx) :
    ∃ t : Fin cfg2.N, (cfg2.win 11).flush t = true ∧ i ∈ ((cfg2.win 11).blk t).view.set := by
  have hi0 : (i 0).val < 100000 := (i 0).isLt
  have hi1 : (i 1).val < 64 := (i 1).isLt
  have hlt : (i 0).val / 2000 < cfg2.N := by rw [show cfg2.N = 50 from N_2]; omega
  obtain ⟨-, -, -, -, -, -, -, -, e2, e3, -, -, -, -, -, -⟩ := idx_facts ⟨(i 0).val / 2000, hlt⟩
  refine ⟨⟨(i 0).val / 2000, hlt⟩, flush2_11 _, ?_⟩
  rw [mem_blk_11]
  intro a
  match a with
  | ⟨0, _⟩ =>
    show win2_11.index ⟨(i 0).val / 2000, hlt⟩ (0 : Fin 2) * 2000 ≤ (i 0).val
      ∧ (i 0).val < win2_11.index ⟨(i 0).val / 2000, hlt⟩ (0 : Fin 2) * 2000 + 2000
    rw [e2]; show (i 0).val / 2000 * 2000 ≤ (i 0).val ∧ (i 0).val < (i 0).val / 2000 * 2000 + 2000; omega
  | ⟨1, _⟩ =>
    show win2_11.index ⟨(i 0).val / 2000, hlt⟩ (1 : Fin 2) * 64 ≤ (i 1).val
      ∧ (i 1).val < win2_11.index ⟨(i 0).val / 2000, hlt⟩ (1 : Fin 2) * 64 + 64
    rw [e3]; omega

/-- The body's quotient payload for output window 12 at row p, column q of its block. -/
theorem pay_12 (a : Vec Ideal S2000x64 .f32) (d : Vec Ideal S2000x1 .f32) (p : Fin 2000) (q : Fin 64) :
    k2_pay19 (F := Ideal) (k2_pay5 a) (k2_pay10 d) (ix2 p q) = Ideal.div (a (ix2 p q)) (d (ix2 p (0 : Fin 1))) := by
  unfold k2_pay19 k2_pay5 k2_pay10
  show Ideal.div (shapeCast S2000x64 a _ (ix2 p q)) (broadcastTo S2000x64 (shapeCast S2000x1 d _) _ (ix2 p q)) = _
  rw [Cert.LibRowLayout.broadcastTo_a1_ab_apply _ _ p q, shapeCast_self, shapeCast_self]

/-- What point t writes back through output window 12 is block t of any array G that is, entry by entry,
    the numerator over the degree column. -/
theorem flushed_12 (c : Dev nD) (A : (⟨S100000x64, .f32⟩ : BufTy).Contents (Elt Ideal)) (D : (⟨S100000x1, .f32⟩ : BufTy).Contents (Elt Ideal))
    (hA : V c main_v13 = A) (hD : V c main_v8 = D)
    (G : (⟨S100000x64, .f32⟩ : BufTy).Contents (Elt Ideal))
    (hG : ∀ (r : Fin 100000) (q : Fin 64), G (ix2 r q) = Ideal.div (A (ix2 r q)) (D (ix2 r (0 : Fin 1)))) (t : Fin cfg2.N) :
    (dat2 (F := Ideal) V c).flushed 12 t = ((cfg2.win 12).blk t).view.read (Elt Ideal) G := by
  show (cfg2.win 12).cut (grid2.coords t) ((dat2 V c).after 12 t) = _
  rw [after2_12]
  unfold out2_12
  rw [View.canon_unit_zero hz]
  simp only [View.ld_unit_zero (S := S2000x64) hz, View.ld_unit_zero (S := S2000x1) hz]
  obtain ⟨-, -, -, -, -, -, -, -, -, -, e2, e3, -, -, -, -⟩ := idx_facts t
  have ht : t.val < 50 := lt_of_lt_of_eq t.isLt (show cfg2.N = 50 from N_2)
  funext j
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  show k2_pay19 (F := Ideal) (k2_pay5 (iblk2 V c 0 t)) (k2_pay10 (iblk2 V c 7 t)) (ix2 p q)
    = G (((cfg2.win 12).blk t).view.emb (ix2 p q))
  have hemb : ((cfg2.win 12).blk t).view.emb (ix2 p q) = ix2 (⟨t.val * 2000 + p.val, hr⟩ : Fin 100000) q := by
    funext a; apply Fin.ext
    match a with
    | ⟨0, _⟩ => show win2_12.index t (0 : Fin 2) * 2000 + 1 * p.val = t.val * 2000 + p.val; rw [e2]; omega
    | ⟨1, _⟩ => show win2_12.index t (1 : Fin 2) * 64 + 1 * q.val = q.val; rw [e3]; omega
  rw [hemb, hG, pay_12, iblk_0 V c A hA t p q ⟨t.val * 2000 + p.val, hr⟩ rfl,
    iblk_7 V c D hD t p (0 : Fin 1) ⟨t.val * 2000 + p.val, hr⟩ rfl]

/-- An index of the array is in point t's block iff each coordinate is in the block's range on its axis. -/
theorem mem_blk_12 (t : Fin cfg2.N) (i : S100000x64.Idx) :
    i ∈ ((cfg2.win 12).blk t).view.set ↔ ∀ a : Fin 2, win2_12.index t a * S2000x64.size a ≤ (i a).val
      ∧ (i a).val < win2_12.index t a * S2000x64.size a + S2000x64.size a := by
  show i ∈ ((View.whole main_v57_2).slice (win2_12.rect t)).set ↔ _
  rw [View.set_slice_whole, Rect.mem_set_unit]
  exact Iff.rfl

/-- Every row r is in the block of point r / 2000. -/
theorem cover_12 (i : S100000x64.Idx) :
    ∃ t : Fin cfg2.N, (cfg2.win 12).flush t = true ∧ i ∈ ((cfg2.win 12).blk t).view.set := by
  have hi0 : (i 0).val < 100000 := (i 0).isLt
  have hi1 : (i 1).val < 64 := (i 1).isLt
  have hlt : (i 0).val / 2000 < cfg2.N := by rw [show cfg2.N = 50 from N_2]; omega
  obtain ⟨-, -, -, -, -, -, -, -, -, -, e2, e3, -, -, -, -⟩ := idx_facts ⟨(i 0).val / 2000, hlt⟩
  refine ⟨⟨(i 0).val / 2000, hlt⟩, flush2_12 _, ?_⟩
  rw [mem_blk_12]
  intro a
  match a with
  | ⟨0, _⟩ =>
    show win2_12.index ⟨(i 0).val / 2000, hlt⟩ (0 : Fin 2) * 2000 ≤ (i 0).val
      ∧ (i 0).val < win2_12.index ⟨(i 0).val / 2000, hlt⟩ (0 : Fin 2) * 2000 + 2000
    rw [e2]; show (i 0).val / 2000 * 2000 ≤ (i 0).val ∧ (i 0).val < (i 0).val / 2000 * 2000 + 2000; omega
  | ⟨1, _⟩ =>
    show win2_12.index ⟨(i 0).val / 2000, hlt⟩ (1 : Fin 2) * 64 ≤ (i 1).val
      ∧ (i 1).val < win2_12.index ⟨(i 0).val / 2000, hlt⟩ (1 : Fin 2) * 64 + 64
    rw [e3]; omega

/-- The body's quotient payload for output window 13 at row p, column q of its block. -/
theorem pay_13 (a : Vec Ideal S2000x64 .f32) (d : Vec Ideal S2000x1 .f32) (p : Fin 2000) (q : Fin 64) :
    k2_pay20 (F := Ideal) (k2_pay5 a) (k2_pay11 d) (ix2 p q) = Ideal.div (a (ix2 p q)) (d (ix2 p (0 : Fin 1))) := by
  unfold k2_pay20 k2_pay5 k2_pay11
  show Ideal.div (shapeCast S2000x64 a _ (ix2 p q)) (broadcastTo S2000x64 (shapeCast S2000x1 d _) _ (ix2 p q)) = _
  rw [Cert.LibRowLayout.broadcastTo_a1_ab_apply _ _ p q, shapeCast_self, shapeCast_self]

/-- What point t writes back through output window 13 is block t of any array G that is, entry by entry,
    the numerator over the degree column. -/
theorem flushed_13 (c : Dev nD) (A : (⟨S100000x64, .f32⟩ : BufTy).Contents (Elt Ideal)) (D : (⟨S100000x1, .f32⟩ : BufTy).Contents (Elt Ideal))
    (hA : V c main_v13 = A) (hD : V c main_v11 = D)
    (G : (⟨S100000x64, .f32⟩ : BufTy).Contents (Elt Ideal))
    (hG : ∀ (r : Fin 100000) (q : Fin 64), G (ix2 r q) = Ideal.div (A (ix2 r q)) (D (ix2 r (0 : Fin 1)))) (t : Fin cfg2.N) :
    (dat2 (F := Ideal) V c).flushed 13 t = ((cfg2.win 13).blk t).view.read (Elt Ideal) G := by
  show (cfg2.win 13).cut (grid2.coords t) ((dat2 V c).after 13 t) = _
  rw [after2_13]
  unfold out2_13
  rw [View.canon_unit_zero hz]
  simp only [View.ld_unit_zero (S := S2000x64) hz, View.ld_unit_zero (S := S2000x1) hz]
  obtain ⟨-, -, -, -, -, -, -, -, -, -, -, -, e2, e3, -, -⟩ := idx_facts t
  have ht : t.val < 50 := lt_of_lt_of_eq t.isLt (show cfg2.N = 50 from N_2)
  funext j
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  show k2_pay20 (F := Ideal) (k2_pay5 (iblk2 V c 0 t)) (k2_pay11 (iblk2 V c 8 t)) (ix2 p q)
    = G (((cfg2.win 13).blk t).view.emb (ix2 p q))
  have hemb : ((cfg2.win 13).blk t).view.emb (ix2 p q) = ix2 (⟨t.val * 2000 + p.val, hr⟩ : Fin 100000) q := by
    funext a; apply Fin.ext
    match a with
    | ⟨0, _⟩ => show win2_13.index t (0 : Fin 2) * 2000 + 1 * p.val = t.val * 2000 + p.val; rw [e2]; omega
    | ⟨1, _⟩ => show win2_13.index t (1 : Fin 2) * 64 + 1 * q.val = q.val; rw [e3]; omega
  rw [hemb, hG, pay_13, iblk_0 V c A hA t p q ⟨t.val * 2000 + p.val, hr⟩ rfl,
    iblk_8 V c D hD t p (0 : Fin 1) ⟨t.val * 2000 + p.val, hr⟩ rfl]

/-- An index of the array is in point t's block iff each coordinate is in the block's range on its axis. -/
theorem mem_blk_13 (t : Fin cfg2.N) (i : S100000x64.Idx) :
    i ∈ ((cfg2.win 13).blk t).view.set ↔ ∀ a : Fin 2, win2_13.index t a * S2000x64.size a ≤ (i a).val
      ∧ (i a).val < win2_13.index t a * S2000x64.size a + S2000x64.size a := by
  show i ∈ ((View.whole main_v57_3).slice (win2_13.rect t)).set ↔ _
  rw [View.set_slice_whole, Rect.mem_set_unit]
  exact Iff.rfl

/-- Every row r is in the block of point r / 2000. -/
theorem cover_13 (i : S100000x64.Idx) :
    ∃ t : Fin cfg2.N, (cfg2.win 13).flush t = true ∧ i ∈ ((cfg2.win 13).blk t).view.set := by
  have hi0 : (i 0).val < 100000 := (i 0).isLt
  have hi1 : (i 1).val < 64 := (i 1).isLt
  have hlt : (i 0).val / 2000 < cfg2.N := by rw [show cfg2.N = 50 from N_2]; omega
  obtain ⟨-, -, -, -, -, -, -, -, -, -, -, -, e2, e3, -, -⟩ := idx_facts ⟨(i 0).val / 2000, hlt⟩
  refine ⟨⟨(i 0).val / 2000, hlt⟩, flush2_13 _, ?_⟩
  rw [mem_blk_13]
  intro a
  match a with
  | ⟨0, _⟩ =>
    show win2_13.index ⟨(i 0).val / 2000, hlt⟩ (0 : Fin 2) * 2000 ≤ (i 0).val
      ∧ (i 0).val < win2_13.index ⟨(i 0).val / 2000, hlt⟩ (0 : Fin 2) * 2000 + 2000
    rw [e2]; show (i 0).val / 2000 * 2000 ≤ (i 0).val ∧ (i 0).val < (i 0).val / 2000 * 2000 + 2000; omega
  | ⟨1, _⟩ =>
    show win2_13.index ⟨(i 0).val / 2000, hlt⟩ (1 : Fin 2) * 64 ≤ (i 1).val
      ∧ (i 1).val < win2_13.index ⟨(i 0).val / 2000, hlt⟩ (1 : Fin 2) * 64 + 64
    rw [e3]; omega

/-- The body's quotient payload for output window 14 at row p, column q of its block. -/
theorem pay_14 (a : Vec Ideal S2000x64 .f32) (d : Vec Ideal S2000x1 .f32) (p : Fin 2000) (q : Fin 64) :
    k2_pay21 (F := Ideal) (k2_pay6 a) (k2_pay11 d) (ix2 p q) = Ideal.div (a (ix2 p q)) (d (ix2 p (0 : Fin 1))) := by
  unfold k2_pay21 k2_pay6 k2_pay11
  show Ideal.div (shapeCast S2000x64 a _ (ix2 p q)) (broadcastTo S2000x64 (shapeCast S2000x1 d _) _ (ix2 p q)) = _
  rw [Cert.LibRowLayout.broadcastTo_a1_ab_apply _ _ p q, shapeCast_self, shapeCast_self]

/-- What point t writes back through output window 14 is block t of any array G that is, entry by entry,
    the numerator over the degree column. -/
theorem flushed_14 (c : Dev nD) (A : (⟨S100000x64, .f32⟩ : BufTy).Contents (Elt Ideal)) (D : (⟨S100000x1, .f32⟩ : BufTy).Contents (Elt Ideal))
    (hA : V c main_v15 = A) (hD : V c main_v11 = D)
    (G : (⟨S100000x64, .f32⟩ : BufTy).Contents (Elt Ideal))
    (hG : ∀ (r : Fin 100000) (q : Fin 64), G (ix2 r q) = Ideal.div (A (ix2 r q)) (D (ix2 r (0 : Fin 1)))) (t : Fin cfg2.N) :
    (dat2 (F := Ideal) V c).flushed 14 t = ((cfg2.win 14).blk t).view.read (Elt Ideal) G := by
  show (cfg2.win 14).cut (grid2.coords t) ((dat2 V c).after 14 t) = _
  rw [after2_14]
  unfold out2_14
  rw [View.canon_unit_zero hz]
  simp only [View.ld_unit_zero (S := S2000x64) hz, View.ld_unit_zero (S := S2000x1) hz]
  obtain ⟨-, -, -, -, -, -, -, -, -, -, -, -, -, -, e2, e3⟩ := idx_facts t
  have ht : t.val < 50 := lt_of_lt_of_eq t.isLt (show cfg2.N = 50 from N_2)
  funext j
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  show k2_pay21 (F := Ideal) (k2_pay6 (iblk2 V c 1 t)) (k2_pay11 (iblk2 V c 8 t)) (ix2 p q)
    = G (((cfg2.win 14).blk t).view.emb (ix2 p q))
  have hemb : ((cfg2.win 14).blk t).view.emb (ix2 p q) = ix2 (⟨t.val * 2000 + p.val, hr⟩ : Fin 100000) q := by
    funext a; apply Fin.ext
    match a with
    | ⟨0, _⟩ => show win2_14.index t (0 : Fin 2) * 2000 + 1 * p.val = t.val * 2000 + p.val; rw [e2]; omega
    | ⟨1, _⟩ => show win2_14.index t (1 : Fin 2) * 64 + 1 * q.val = q.val; rw [e3]; omega
  rw [hemb, hG, pay_14, iblk_1 V c A hA t p q ⟨t.val * 2000 + p.val, hr⟩ rfl,
    iblk_8 V c D hD t p (0 : Fin 1) ⟨t.val * 2000 + p.val, hr⟩ rfl]

/-- An index of the array is in point t's block iff each coordinate is in the block's range on its axis. -/
theorem mem_blk_14 (t : Fin cfg2.N) (i : S100000x64.Idx) :
    i ∈ ((cfg2.win 14).blk t).view.set ↔ ∀ a : Fin 2, win2_14.index t a * S2000x64.size a ≤ (i a).val
      ∧ (i a).val < win2_14.index t a * S2000x64.size a + S2000x64.size a := by
  show i ∈ ((View.whole main_v57_4).slice (win2_14.rect t)).set ↔ _
  rw [View.set_slice_whole, Rect.mem_set_unit]
  exact Iff.rfl

/-- Every row r is in the block of point r / 2000. -/
theorem cover_14 (i : S100000x64.Idx) :
    ∃ t : Fin cfg2.N, (cfg2.win 14).flush t = true ∧ i ∈ ((cfg2.win 14).blk t).view.set := by
  have hi0 : (i 0).val < 100000 := (i 0).isLt
  have hi1 : (i 1).val < 64 := (i 1).isLt
  have hlt : (i 0).val / 2000 < cfg2.N := by rw [show cfg2.N = 50 from N_2]; omega
  obtain ⟨-, -, -, -, -, -, -, -, -, -, -, -, -, -, e2, e3⟩ := idx_facts ⟨(i 0).val / 2000, hlt⟩
  refine ⟨⟨(i 0).val / 2000, hlt⟩, flush2_14 _, ?_⟩
  rw [mem_blk_14]
  intro a
  match a with
  | ⟨0, _⟩ =>
    show win2_14.index ⟨(i 0).val / 2000, hlt⟩ (0 : Fin 2) * 2000 ≤ (i 0).val
      ∧ (i 0).val < win2_14.index ⟨(i 0).val / 2000, hlt⟩ (0 : Fin 2) * 2000 + 2000
    rw [e2]; show (i 0).val / 2000 * 2000 ≤ (i 0).val ∧ (i 0).val < (i 0).val / 2000 * 2000 + 2000; omega
  | ⟨1, _⟩ =>
    show win2_14.index ⟨(i 0).val / 2000, hlt⟩ (1 : Fin 2) * 64 ≤ (i 1).val
      ∧ (i 1).val < win2_14.index ⟨(i 0).val / 2000, hlt⟩ (1 : Fin 2) * 64 + 64
    rw [e3]; omega

/-- The column entry a row sees, as the plain program's broadcasts and the array p0 spell it. -/
theorem col_eq (r : Fin 100000) (q : Fin 64) : colU (ix2 r q) = ix2 r (0 : Fin 1) :=
  funext fun a => Fin.ext (by match a with | ⟨0, _⟩ => rfl | ⟨1, _⟩ => rfl)
theorem idx82_eq (r : Fin 100000) (q : Fin 64) : idx_main_v82 (ix2 r q) = ix2 r (0 : Fin 1) :=
  funext fun a => Fin.ext (by match a with | ⟨0, _⟩ => rfl | ⟨1, _⟩ => rfl)
theorem idx112_eq (r : Fin 100000) (q : Fin 64) : idx_main_v112 (ix2 r q) = ix2 r (0 : Fin 1) :=
  funext fun a => Fin.ext (by match a with | ⟨0, _⟩ => rfl | ⟨1, _⟩ => rfl)
theorem idx249_eq (r : Fin 100000) (q : Fin 64) : idx_main_v249 (ix2 r q) = ix2 r (0 : Fin 1) :=
  funext fun a => Fin.ext (by match a with | ⟨0, _⟩ => rfl | ⟨1, _⟩ => rfl)

end Cert.Regions.Quot

namespace Cert.Regions

open Idealize.ShloMosaic Idealize.ShloMosaic.TcCoe Idealize.SL.Sem
open Cert.KernelIdeal Cert.KernelIdeal.Gen Cert.Stages
open Idealize.ShloMosaic.ValueIdx Cert.ReferenceIdeal.Read

variable (V : (c : Dev nD) → (b : Ref sig .tc) → Buf (Elt Ideal) ((c : Thread nD τ).loc b))

theorem region2_p0 (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 11 cfg2.N = Cert.Stages.p0 x u :=
  (dat2 (F := Ideal) V c).arrAt_eq_of_cover 11 _
    (fun t _ => Quot.flushed_11 V c (val_main_v19 (F := Ideal) x) (val_main_v8 (F := Ideal) u) h1 h7 _
      (fun r q => by unfold Cert.Stages.p0; rw [Quot.col_eq]; rfl) t)
    Quot.cover_11

theorem region2_p1 (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 12 cfg2.N = Cert.ReferenceIdeal.Read.val_main_v83 (F := Ideal) x u :=
  (dat2 (F := Ideal) V c).arrAt_eq_of_cover 12 _
    (fun t _ => Quot.flushed_12 V c (val_main_v17 (F := Ideal) x) (val_main_v8 (F := Ideal) u) h0 h7 _
      (fun r q => by rw [val_main_v83_apply, val_main_v82_apply, Quot.idx82_eq]; rfl) t)
    Quot.cover_12

theorem region2_p2 (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 13 cfg2.N = Cert.ReferenceIdeal.Read.val_main_v113 (F := Ideal) x u :=
  (dat2 (F := Ideal) V c).arrAt_eq_of_cover 13 _
    (fun t _ => Quot.flushed_13 V c (val_main_v17 (F := Ideal) x) (val_main_v11 (F := Ideal) u) h0 h8 _
      (fun r q => by rw [val_main_v113_apply, val_main_v112_apply, Quot.idx112_eq]; rfl) t)
    Quot.cover_13

theorem region2_p3 (c : Dev nD) (x : XArr) (u i : IArr)
    (h0 : V c main_v13 = Cert.ReferenceIdeal.Read.val_main_v17 (F := Ideal) x)
    (h1 : V c main_v15 = Cert.ReferenceIdeal.Read.val_main_v19 (F := Ideal) x)
    (h2 : V c main_v41 = Cert.ReferenceIdeal.Read.val_main_v47 (F := Ideal) x u i)
    (h3 : V c main_v45 = Cert.ReferenceIdeal.Read.val_main_v51 (F := Ideal) x u i)
    (h4 : V c main_v48 = Cert.ReferenceIdeal.Read.val_main_v54 (F := Ideal) x u i)
    (h5 : V c main_v52 = Cert.ReferenceIdeal.Read.val_main_v58 (F := Ideal) x u i)
    (h6 : V c main_v55 = Cert.ReferenceIdeal.Read.val_main_v159 (F := Ideal) x u i)
    (h7 : V c main_v8 = Cert.ReferenceIdeal.Read.val_main_v8 (F := Ideal) u)
    (h8 : V c main_v11 = Cert.ReferenceIdeal.Read.val_main_v11 (F := Ideal) u)
    (h9 : V c main_v56 = Cert.ReferenceIdeal.Read.val_main_v160 (F := Ideal) x) :
    (dat2 (F := Ideal) V c).arrAt 14 cfg2.N = Cert.ReferenceIdeal.Read.val_main_v250 (F := Ideal) x u :=
  (dat2 (F := Ideal) V c).arrAt_eq_of_cover 14 _
    (fun t _ => Quot.flushed_14 V c (val_main_v19 (F := Ideal) x) (val_main_v11 (F := Ideal) u) h1 h8 _
      (fun r q => by rw [val_main_v250_apply, val_main_v249_apply, Quot.idx249_eq]; rfl) t)
    Quot.cover_14

end Cert.Regions

end
-- ==== Proof.Fold3.lean ====
/-
  Boundaries 5 and 6. The third stretch sums, per user, the gathered item rows (normalised and raw) and the
  scored raw rows over that user's edges, takes the complements against the whole column sums, and forms
  the 64 x 64 product of raw and normalised item rows. The third region, the user side, writes the user rows
  of the result and the eight per-user arrays the item side needs.
-/
import proofs.«138700_j66589172957770_1_alg».proof.Proof.Fold2
import proofs.«138700_j66589172957770_1_alg».proof.Proof.Region2
import proofs.«138700_j66589172957770_1_alg».proof.Proof.Region2P
import Idealize.ShloMosaic.Lib.StableHlo.Run

set_option maxRecDepth 16384

noncomputable section

namespace Cert.Fold

open Idealize.ShloMosaic Idealize.ShloMosaic.TcCoe Idealize.SL.Sem Idealize.ShloMosaic.StableHlo
open Cert.KernelIdeal Cert.KernelIdeal.Gen Cert.Stages

variable (m : (ℓ : Loc nD τ sig) → Buf (Elt Ideal) ℓ) (ρ : Dev nD → PrngReg)

/-! ## Boundary 5 -/

theorem w5_v41 (c : Dev nD) : W5 (F := Ideal) m ρ c (Proc.devRef .tc main_v41) = Cert.ReferenceIdeal.Read.val_main_v47 (F := Ideal) (xa m c) (ua m c) (ia m c) := by
  dsimp only [W5, hostOps2]
  after_results_simp
  simp only [w4_v23 m ρ c, w4_v30 m ρ c, w4_v13 m ρ c, w4_v14 m ρ c, w4_v15 m ρ c, w4_v16 m ρ c, w4_arg1 m ρ c, w4_arg2 m ρ c, w4_v8 m ρ c, w4_v11 m ρ c, w4_v38_0 m ρ c, w4_v38_1 m ρ c]
  rfl

theorem w5_v45 (c : Dev nD) : W5 (F := Ideal) m ρ c (Proc.devRef .tc main_v45) = Cert.ReferenceIdeal.Read.val_main_v51 (F := Ideal) (xa m c) (ua m c) (ia m c) := by
  dsimp only [W5, hostOps2]
  after_results_simp
  simp only [w4_v23 m ρ c, w4_v30 m ρ c, w4_v13 m ρ c, w4_v14 m ρ c, w4_v15 m ρ c, w4_v16 m ρ c, w4_arg1 m ρ c, w4_arg2 m ρ c, w4_v8 m ρ c, w4_v11 m ρ c, w4_v38_0 m ρ c, w4_v38_1 m ρ c]
  rfl

theorem w5_v48 (c : Dev nD) : W5 (F := Ideal) m ρ c (Proc.devRef .tc main_v48) = Cert.ReferenceIdeal.Read.val_main_v54 (F := Ideal) (xa m c) (ua m c) (ia m c) := by
  dsimp only [W5, hostOps2]
  after_results_simp
  simp only [w4_v23 m ρ c, w4_v30 m ρ c, w4_v13 m ρ c, w4_v14 m ρ c, w4_v15 m ρ c, w4_v16 m ρ c, w4_arg1 m ρ c, w4_arg2 m ρ c, w4_v8 m ρ c, w4_v11 m ρ c, w4_v38_0 m ρ c, w4_v38_1 m ρ c]
  rfl

theorem w5_v52 (c : Dev nD) : W5 (F := Ideal) m ρ c (Proc.devRef .tc main_v52) = Cert.ReferenceIdeal.Read.val_main_v58 (F := Ideal) (xa m c) (ua m c) (ia m c) := by
  dsimp only [W5, hostOps2]
  after_results_simp
  simp only [w4_v23 m ρ c, w4_v30 m ρ c, w4_v13 m ρ c, w4_v14 m ρ c, w4_v15 m ρ c, w4_v16 m ρ c, w4_arg1 m ρ c, w4_arg2 m ρ c, w4_v8 m ρ c, w4_v11 m ρ c, w4_v38_0 m ρ c, w4_v38_1 m ρ c]
  rfl

theorem w5_v55 (c : Dev nD) : W5 (F := Ideal) m ρ c (Proc.devRef .tc main_v55) = Cert.ReferenceIdeal.Read.val_main_v159 (F := Ideal) (xa m c) (ua m c) (ia m c) := by
  dsimp only [W5, hostOps2]
  after_results_simp
  simp only [w4_v23 m ρ c, w4_v30 m ρ c, w4_v13 m ρ c, w4_v14 m ρ c, w4_v15 m ρ c, w4_v16 m ρ c, w4_arg1 m ρ c, w4_arg2 m ρ c, w4_v8 m ρ c, w4_v11 m ρ c, w4_v38_0 m ρ c, w4_v38_1 m ρ c]
  rfl

theorem w5_v56 (c : Dev nD) : W5 (F := Ideal) m ρ c (Proc.devRef .tc main_v56) = Cert.ReferenceIdeal.Read.val_main_v160 (F := Ideal) (xa m c) := by
  dsimp only [W5, hostOps2]
  after_results_simp
  simp only [w4_v23 m ρ c, w4_v30 m ρ c, w4_v13 m ρ c, w4_v14 m ρ c, w4_v15 m ρ c, w4_v16 m ρ c, w4_arg1 m ρ c, w4_arg2 m ρ c, w4_v8 m ρ c, w4_v11 m ρ c, w4_v38_0 m ρ c, w4_v38_1 m ρ c]
  rfl

theorem w5_v13 (c : Dev nD) : W5 (F := Ideal) m ρ c (Proc.devRef .tc main_v13) = Cert.ReferenceIdeal.Read.val_main_v17 (F := Ideal) (xa m c) := by
  dsimp only [W5, hostOps2]
  after_results_simp
  exact w4_v13 m ρ c

theorem w5_v15 (c : Dev nD) : W5 (F := Ideal) m ρ c (Proc.devRef .tc main_v15) = Cert.ReferenceIdeal.Read.val_main_v19 (F := Ideal) (xa m c) := by
  dsimp only [W5, hostOps2]
  after_results_simp
  exact w4_v15 m ρ c

theorem w5_v8 (c : Dev nD) : W5 (F := Ideal) m ρ c (Proc.devRef .tc main_v8) = Cert.ReferenceIdeal.Read.val_main_v8 (F := Ideal) (ua m c) := by
  dsimp only [W5, hostOps2]
  after_results_simp
  exact w4_v8 m ρ c

theorem w5_v11 (c : Dev nD) : W5 (F := Ideal) m ρ c (Proc.devRef .tc main_v11) = Cert.ReferenceIdeal.Read.val_main_v11 (F := Ideal) (ua m c) := by
  dsimp only [W5, hostOps2]
  after_results_simp
  exact w4_v11 m ρ c

theorem w5_v14 (c : Dev nD) : W5 (F := Ideal) m ρ c (Proc.devRef .tc main_v14) = Cert.ReferenceIdeal.Read.val_main_v18 (F := Ideal) (xa m c) := by
  dsimp only [W5, hostOps2]
  after_results_simp
  exact w4_v14 m ρ c

theorem w5_v38_0 (c : Dev nD) : W5 (F := Ideal) m ρ c (Proc.devRef .tc main_v38_0) = Cert.ReferenceIdeal.Read.val_main_v44 (F := Ideal) (xa m c) (ua m c) (ia m c) := by
  dsimp only [W5, hostOps2]
  after_results_simp
  exact w4_v38_0 m ρ c

theorem w5_arg1 (c : Dev nD) : W5 (F := Ideal) m ρ c (Proc.devRef .tc main_arg1) = (ua m c) := by
  dsimp only [W5, hostOps2]
  after_results_simp
  exact w4_arg1 m ρ c

theorem w5_arg2 (c : Dev nD) : W5 (F := Ideal) m ρ c (Proc.devRef .tc main_arg2) = (ia m c) := by
  dsimp only [W5, hostOps2]
  after_results_simp
  exact w4_arg2 m ρ c

/-! ## Boundary 6 -/

theorem w6_v13 (c : Dev nD) : W6 (F := Ideal) m ρ c (Proc.devRef .tc main_v13) = Cert.ReferenceIdeal.Read.val_main_v17 (F := Ideal) (xa m c) :=
  ((W6_arr m ρ c 0).trans (((dat2 (V5 (F := Ideal) m ρ) c).arrAt_in 0 rfl _).trans (A_eq2 (V5 (F := Ideal) m ρ) c 0))).trans (w5_v13 m ρ c)

theorem w6_v15 (c : Dev nD) : W6 (F := Ideal) m ρ c (Proc.devRef .tc main_v15) = Cert.ReferenceIdeal.Read.val_main_v19 (F := Ideal) (xa m c) :=
  ((W6_arr m ρ c 1).trans (((dat2 (V5 (F := Ideal) m ρ) c).arrAt_in 1 rfl _).trans (A_eq2 (V5 (F := Ideal) m ρ) c 1))).trans (w5_v15 m ρ c)

theorem w6_v11 (c : Dev nD) : W6 (F := Ideal) m ρ c (Proc.devRef .tc main_v11) = Cert.ReferenceIdeal.Read.val_main_v11 (F := Ideal) (ua m c) :=
  ((W6_arr m ρ c 8).trans (((dat2 (V5 (F := Ideal) m ρ) c).arrAt_in 8 rfl _).trans (A_eq2 (V5 (F := Ideal) m ρ) c 8))).trans (w5_v11 m ρ c)

theorem w6_v14 (c : Dev nD) : W6 (F := Ideal) m ρ c (Proc.devRef .tc main_v14) = Cert.ReferenceIdeal.Read.val_main_v18 (F := Ideal) (xa m c) :=
  (W6_of_ne m ρ c main_v14 (by decide)).trans (w5_v14 m ρ c)

theorem w6_v38_0 (c : Dev nD) : W6 (F := Ideal) m ρ c (Proc.devRef .tc main_v38_0) = Cert.ReferenceIdeal.Read.val_main_v44 (F := Ideal) (xa m c) (ua m c) (ia m c) :=
  (W6_of_ne m ρ c main_v38_0 (by decide)).trans (w5_v38_0 m ρ c)

theorem w6_arg1 (c : Dev nD) : W6 (F := Ideal) m ρ c (Proc.devRef .tc main_arg1) = (ua m c) :=
  (W6_of_ne m ρ c main_arg1 (by decide)).trans (w5_arg1 m ρ c)

theorem w6_arg2 (c : Dev nD) : W6 (F := Ideal) m ρ c (Proc.devRef .tc main_arg2) = (ia m c) :=
  (W6_of_ne m ρ c main_arg2 (by decide)).trans (w5_arg2 m ρ c)

theorem w6_v57_0 (c : Dev nD) : W6 (F := Ideal) m ρ c (Proc.devRef .tc main_v57_0) = Cert.Stages.outU (xa m c) (ua m c) (ia m c) :=
  (W6_arr m ρ c 10).trans (Cert.Regions.region2_outU (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

theorem w6_v57_1 (c : Dev nD) : W6 (F := Ideal) m ρ c (Proc.devRef .tc main_v57_1) = Cert.Stages.p0 (xa m c) (ua m c) :=
  (W6_arr m ρ c 11).trans (Cert.Regions.region2_p0 (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

theorem w6_v57_2 (c : Dev nD) : W6 (F := Ideal) m ρ c (Proc.devRef .tc main_v57_2) = Cert.ReferenceIdeal.Read.val_main_v83 (F := Ideal) (xa m c) (ua m c) :=
  (W6_arr m ρ c 12).trans (Cert.Regions.region2_p1 (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

theorem w6_v57_3 (c : Dev nD) : W6 (F := Ideal) m ρ c (Proc.devRef .tc main_v57_3) = Cert.ReferenceIdeal.Read.val_main_v113 (F := Ideal) (xa m c) (ua m c) :=
  (W6_arr m ρ c 13).trans (Cert.Regions.region2_p2 (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

theorem w6_v57_4 (c : Dev nD) : W6 (F := Ideal) m ρ c (Proc.devRef .tc main_v57_4) = Cert.ReferenceIdeal.Read.val_main_v250 (F := Ideal) (xa m c) (ua m c) :=
  (W6_arr m ρ c 14).trans (Cert.Regions.region2_p3 (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

theorem w6_v57_5 (c : Dev nD) : W6 (F := Ideal) m ρ c (Proc.devRef .tc main_v57_5) = Cert.ReferenceIdeal.Read.val_main_v207 (F := Ideal) (xa m c) (ua m c) (ia m c) :=
  (W6_arr m ρ c 15).trans (Cert.Regions.region2_q1 (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

theorem w6_v57_6 (c : Dev nD) : W6 (F := Ideal) m ρ c (Proc.devRef .tc main_v57_6) = Cert.ReferenceIdeal.Read.val_main_v227 (F := Ideal) (xa m c) (ua m c) (ia m c) :=
  (W6_arr m ρ c 16).trans (Cert.Regions.region2_q2 (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

theorem w6_v57_7 (c : Dev nD) : W6 (F := Ideal) m ρ c (Proc.devRef .tc main_v57_7) = Cert.ReferenceIdeal.Read.val_main_v100 (F := Ideal) (xa m c) (ua m c) (ia m c) :=
  (W6_arr m ρ c 17).trans (Cert.Regions.region2_s1 (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

theorem w6_v57_8 (c : Dev nD) : W6 (F := Ideal) m ρ c (Proc.devRef .tc main_v57_8) = Cert.ReferenceIdeal.Read.val_main_v132 (F := Ideal) (xa m c) (ua m c) (ia m c) :=
  (W6_arr m ρ c 18).trans (Cert.Regions.region2_s2 (V5 (F := Ideal) m ρ) c (xa m c) (ua m c) (ia m c) (w5_v13 m ρ c) (w5_v15 m ρ c) (w5_v41 m ρ c) (w5_v45 m ρ c) (w5_v48 m ρ c) (w5_v52 m ρ c) (w5_v55 m ρ c) (w5_v8 m ρ c) (w5_v11 m ρ c) (w5_v56 m ρ c))

end Cert.Fold

end
-- ==== Proof.LibGatherScatterRead.lean ====
import Idealize.ShloMosaic.PureOps.Ideal
import Idealize.ShloMosaic.Lib.ValueIdx

/-!
# Row gathers and row scatter-adds read at an index

A gather of rows of a table `[N, C]` (or of entries of a vector `[N]`) by a column `[M, 1]` of
integer start indices reads, at result row `e`, the table's row whose number is the start index
read as a signed integer and clamped into `[0, N - 1]`.  A scatter-add of update rows `[M, C]`
(or update entries `[M]`) into `[N, C]` (or `[N]`) by such a column adds update row `e` to the
row whose number is the index read as a signed integer, and drops it when that number is outside
`[0, N)`; on the extended reals element `(n, j)` of the result is the operand's element plus the
sum of the updates' elements `(e, j)` over the `e` that land in row `n`.

The statements are generic in the extents and in the dimension-number record, which they take
with its fields given by equations, so that they apply to any record with those fields.
-/

noncomputable section

open scoped BigOperators

namespace LibGatherScatterRead

open Idealize.ShloMosaic Idealize.ShloMosaic.ValueIdx

/-! ## The two row functions of an index word -/

/-- The row a gather reads for the start index word `v`: `v` as a signed integer, clamped into
`[0, N - 1]`. -/
def gatherRowOf (N : Nat) (hN : 0 < N) {w : Nat} (v : BitVec w) : Fin N :=
  ⟨min v.toInt.toNat (N - 1), by omega⟩

/-- The row a scatter lands in for the index word `v`: `v` as a signed integer when it is in
`[0, N)`, and no row otherwise (the update is dropped). -/
def scatterRowOf? (N : Nat) {w : Nat} (v : BitVec w) : Option (Fin N) :=
  if h : 0 ≤ v.toInt ∧ v.toInt < (N : Int) then some ⟨v.toInt.toNat, by omega⟩ else none

/-- The value of `gatherRowOf`. -/
theorem gatherRowOf_val (N : Nat) (hN : 0 < N) {w : Nat} (v : BitVec w) :
    (gatherRowOf N hN v).val = min v.toInt.toNat (N - 1) := rfl

/-- `scatterRowOf? N v = some n` says exactly that `v`, read signed, is the number `n`. -/
theorem scatterRowOf?_eq_some_iff {N w : Nat} (v : BitVec w) (n : Fin N) :
    scatterRowOf? N v = some n ↔ v.toInt = (n.val : Int) := by
  unfold scatterRowOf?
  constructor
  · intro h
    split at h
    · rename_i hv
      have := congrArg Fin.val (Option.some.inj h)
      simp only at this
      omega
    · exact absurd h (by simp)
  · intro h
    have hn := n.isLt
    rw [dif_pos (by omega)]
    congr 1
    exact Fin.ext (by simp only; omega)

/-- **A row that a scatter keeps is the row the gather reads.**  If the index word `v` lands in
row `n` of a scatter (so `0 ≤ v < N` as a signed integer) then the gather row of `v` is `n`. -/
theorem gatherRowOf_of_scatterRowOf? {N w : Nat} (hN : 0 < N) (v : BitVec w) (n : Fin N)
    (h : scatterRowOf? N v = some n) : gatherRowOf N hN v = n := by
  have hv := (scatterRowOf?_eq_some_iff v n).mp h
  have hn := n.isLt
  exact Fin.ext (by rw [gatherRowOf_val]; omega)

/-- The negative-index normalisation `select (v <ₛ 0) (v + c) v` leaves a word that is
non-negative as a signed integer unchanged. -/
theorem normalise_of_nonneg {w : Nat} (v c : BitVec w) (hv : 0 ≤ v.toInt) :
    Scalar.select (IntOp.cmpi .slt v 0#w) (IntOp.addi v c) v = v := by
  have hs : v.slt 0#w = false := by
    rw [BitVec.slt_eq_decide, BitVec.toInt_zero]
    exact decide_eq_false (by omega)
  have hc : IntOp.cmpi .slt v 0#w = 0#1 := by
    show BitVec.ofBool (v.slt 0#w) = 0#1
    rw [hs]; rfl
  rw [hc]
  exact select_zero _ _

/-- **The one arithmetic fact of the layer law.**  If the scatter lands the index word `v` in row
`n`, then the gather row of the normalised word `select (v <ₛ 0) (v + c) v` is `n`. -/
theorem gatherRowOf_normalise_of_scatterRowOf? {N w : Nat} (hN : 0 < N) (v c : BitVec w) (n : Fin N)
    (h : scatterRowOf? N v = some n) :
    gatherRowOf N hN (Scalar.select (IntOp.cmpi .slt v 0#w) (IntOp.addi v c) v) = n := by
  have hv := (scatterRowOf?_eq_some_iff v n).mp h
  rw [normalise_of_nonneg v c (by omega)]
  exact gatherRowOf_of_scatterRowOf? hN v n h

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers read at an index -/

section Gather
variable {α : Type}

/-- The dimension numbers of a row gather of a table `[N, C]` by a column `[M, 1]` of start
indices: offset axis `1`, collapsed axis `0`, start index map `[0]`, index vector axis `1`, slice
sizes `[1, C]`. -/
abbrev rowsGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector `[N]` by a column `[M, 1]` of start
indices: no offset axis, collapsed axis `0`, start index map `[0]`, index vector axis `1`, slice
size `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_rowsDims_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowsGatherDims N M C wf) x idx (ix2 e j)
      = x (ix2 (gatherRowOf N hN (idx (ix2 e (0 : Fin 1)))) j) := by
  unfold Host.gather
  congr 1
  funext a
  refine Fin.ext ?_
  have h10 : (1 : Fin 2) ∉ ([0] : List (Fin 2)) := by decide
  match a with
  | ⟨0, _⟩ =>
    show GatherDims.start (rowsGatherDims N M C wf) (ix2 e j) idx 0
      + GatherDims.batchCoord (rowsGatherDims N M C wf) (ix2 e j) 0
      + GatherDims.offCoord (rowsGatherDims N M C wf) (ix2 e j) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (rowsGatherDims N M C wf) (ix2 e j)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start (rowsGatherDims N M C wf) (ix2 e j) idx 1
      + GatherDims.batchCoord (rowsGatherDims N M C wf) (ix2 e j) 1
      + GatherDims.offCoord (rowsGatherDims N M C wf) (ix2 e j) 1 = j.val
    have hst : GatherDims.start (rowsGatherDims N M C wf) (ix2 e j) idx 1 = 0 := by
      unfold GatherDims.start
      exact dif_neg h10
    have hoff : GatherDims.offCoord (rowsGatherDims N M C wf) (ix2 e j) 1 = j.val := by
      unfold GatherDims.offCoord
      rw [dif_pos ((GatherDims.mem_sKept _ _).mpr ⟨h10, List.not_mem_nil⟩)]
      rfl
    rw [GatherDims.batchCoord_eq_zero _ _ _ List.not_mem_nil, hst, hoff]
    omega

/-- **A row gather of a table, read at `(e, j)`**: with offset axis `1`, collapsed axis `0`, start
index map `[0]`, index vector axis `1` and slice sizes `[1, C]`, element `(e, j)` of the result is
the table's element `(g, j)`, `g` the gather row of the start index `idx[e, 0]`. -/
theorem gather_rows_apply {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRowOf N hN (idx (ix2 e (0 : Fin 1)))) j) := by
  obtain ⟨od, cs, ob, sb, sm, iv, ss, wf⟩ := d
  dsimp only at hod hcs hob hsb hsm hiv hss
  subst hod hcs hob hsb hsm hiv hss
  exact gather_rowsDims_apply hN wf x idx e j

theorem gather_flatDims_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (gatherRowOf N hN (idx (ix2 e (0 : Fin 1))))) := by
  unfold Host.gather
  congr 1
  funext a
  obtain rfl : a = 0 := Subsingleton.elim _ _
  refine Fin.ext ?_
  show GatherDims.start (flatGatherDims N M wf) (ix1 e) idx 0
    + GatherDims.batchCoord (flatGatherDims N M wf) (ix1 e) 0
    + GatherDims.offCoord (flatGatherDims N M wf) (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (List.mem_singleton.mpr rfl)]
  have hsi : GatherDims.siIdx (flatGatherDims N M wf) (ix1 e)
      ⟨List.idxOf (0 : Fin 1) [0], List.idxOf_lt_length_iff.2 (List.mem_singleton.mpr rfl)⟩
        = ix2 e (0 : Fin 1) := by
    funext b; refine Fin.ext ?_
    match b with
    | ⟨0, _⟩ => rfl
    | ⟨1, _⟩ => rfl
  rw [hsi]
  rfl

/-- **A gather of entries of a vector, read at `e`**: with no offset axis, collapsed axis `0`,
start index map `[0]`, index vector axis `1` and slice size `[1]`, element `e` of the result is the
vector's entry `g`, `g` the gather row of the start index `idx[e, 0]`. -/
theorem gather_flat_apply {N M w : Nat} (hN : 0 < N)
    (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (gatherRowOf N hN (idx (ix2 e (0 : Fin 1))))) := by
  obtain ⟨od, cs, ob, sb, sm, iv, ss, wf⟩ := d
  dsimp only at hod hcs hob hsb hsm hiv hss
  subst hod hcs hob hsb hsm hiv hss
  exact gather_flatDims_apply hN wf x idx e

end Gather

/-! ## Scatter-adds read at an index -/

section Scatter

/-- The dimension numbers of a scatter of update rows `[M, C]` into a table `[N, C]` by a column
`[M, 1]` of indices: update window axis `1`, inserted window axis `0`, scatter axis to operand
axis `[0]`, index vector axis `1`. -/
abbrev rowsScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of update entries `[M]` into a vector `[N]` by a column
`[M, 1]` of indices: no update window axis, inserted window axis `0`, scatter axis to operand
axis `[0]`, index vector axis `1`. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `(e, c)` of a row scatter lands: in row `scatterRowOf? (idx[e, 0])`, column `c`. -/
theorem resultIdx?_rowsDims {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) :
    (rowsScatterDims N M C wf).resultIdx? (ix2 e c) idx
      = (scatterRowOf? N (idx (ix2 e (0 : Fin 1)))).map (fun r => ix2 r c) := by
  have h10 : (1 : Fin 2) ∉ ([0] : List (Fin 2)) := by decide
  have hs0 : (rowsScatterDims N M C wf).start (ix2 e c) idx 0 = (idx (ix2 e (0 : Fin 1))).toInt := by
    unfold ScatterDims.start
    rw [dif_pos (List.mem_singleton.mpr rfl)]
    have hsi : ScatterDims.siIdx (rowsScatterDims N M C wf) (ix2 e c)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hs1 : (rowsScatterDims N M C wf).start (ix2 e c) idx 1 = 0 := by
    unfold ScatterDims.start
    exact dif_neg h10
  have hk0 : (0 : Fin 2) ∉ (rowsScatterDims N M C wf).sKept := fun h => by
    have := (List.mem_filter.mp h).2
    simp at this
  have hk1 : (1 : Fin 2) ∈ (rowsScatterDims N M C wf).sKept :=
    List.mem_filter.mpr ⟨List.mem_finRange _, by simp⟩
  have hw0 : (rowsScatterDims N M C wf).window (ix2 e c) 0 = 0 := by
    unfold ScatterDims.window
    exact dif_neg hk0
  have hw1 : (rowsScatterDims N M C wf).window (ix2 e c) 1 = c.val := by
    unfold ScatterDims.window
    rw [dif_pos hk1]
    rfl
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨2, ![N, C]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a; refine Fin.ext ?_
    match a with
    | ⟨0, _⟩ =>
      show ((rowsScatterDims N M C wf).start (ix2 e c) idx 0
        + ((rowsScatterDims N M C wf).window (ix2 e c) 0 : Int)).toNat = (idx (ix2 e (0 : Fin 1))).toInt.toNat
      rw [hs0, hw0]; simp
    | ⟨1, _⟩ =>
      show ((rowsScatterDims N M C wf).start (ix2 e c) idx 1
        + ((rowsScatterDims N M C wf).window (ix2 e c) 1 : Int)).toNat = c.val
      rw [hs1, hw1]; simp
  · rename_i h
    have hv : ¬ (0 ≤ (idx (ix2 e (0 : Fin 1))).toInt ∧ (idx (ix2 e (0 : Fin 1))).toInt < (N : Int)) := by
      intro hv
      apply h
      intro a
      match a with
      | ⟨0, _⟩ =>
        show 0 ≤ (rowsScatterDims N M C wf).start (ix2 e c) idx 0
            + ((rowsScatterDims N M C wf).window (ix2 e c) 0 : Int)
          ∧ (rowsScatterDims N M C wf).start (ix2 e c) idx 0
            + ((rowsScatterDims N M C wf).window (ix2 e c) 0 : Int) < (N : Int)
        rw [hs0, hw0]; simpa using hv
      | ⟨1, _⟩ =>
        show 0 ≤ (rowsScatterDims N M C wf).start (ix2 e c) idx 1
            + ((rowsScatterDims N M C wf).window (ix2 e c) 1 : Int)
          ∧ (rowsScatterDims N M C wf).start (ix2 e c) idx 1
            + ((rowsScatterDims N M C wf).window (ix2 e c) 1 : Int) < (C : Int)
        rw [hs1, hw1]; have := c.isLt; omega
    have hrow : scatterRowOf? N (idx (ix2 e (0 : Fin 1))) = none := by
      unfold scatterRowOf?; rw [dif_neg hv]
    rw [hrow]; rfl

/-- Update `(e, c)` of a row scatter lands at `(n, j)` exactly when `e`'s row is `n` and `c = j`. -/
theorem resultIdx?_rowsDims_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (j : Fin C) :
    (rowsScatterDims N M C wf).resultIdx? (ix2 e c) idx = some (ix2 n j)
      ↔ scatterRowOf? N (idx (ix2 e (0 : Fin 1))) = some n ∧ c = j := by
  rw [resultIdx?_rowsDims]
  cases hr : scatterRowOf? N (idx (ix2 e (0 : Fin 1))) with
  | none => simp
  | some r =>
    rw [Option.map_some]
    constructor
    · intro h
      have h' := Option.some.inj h
      have e0 : r = n := congrFun h' 0
      have e1 : c = j := congrFun h' 1
      exact ⟨by rw [e0], e1⟩
    · rintro ⟨h1, h2⟩
      rw [Option.some.inj h1, h2]

/-- The extended-real scatter-add of update rows, for the literal record, read at `(n, j)`. -/
theorem hostScatterAdd_rowsDims_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowsScatterDims N M C wf) x idx upd (ix2 n j)
      = x (ix2 n j) + ∑ e ∈ Finset.univ.filter
          (fun e : Fin M => scatterRowOf? N (idx (ix2 e (0 : Fin 1))) = some n), upd (ix2 e j) := by
  unfold Ideal.hostScatterAdd
  congr 1
  rw [Finset.sum_filter, sum_idx2, Finset.sum_filter]
  refine Finset.sum_congr rfl (fun e _ => ?_)
  by_cases hr : scatterRowOf? N (idx (ix2 e (0 : Fin 1))) = some n
  · rw [if_pos hr, Finset.sum_eq_single j]
    · rw [if_pos ((resultIdx?_rowsDims_eq_some_iff wf idx e j n j).mpr ⟨hr, rfl⟩)]
    · intro b _ hb
      rw [if_neg (fun h => hb ((resultIdx?_rowsDims_eq_some_iff wf idx e b n j).mp h).2)]
    · intro h; exact absurd (Finset.mem_univ j) h
  · rw [if_neg hr]
    exact Finset.sum_eq_zero (fun b _ =>
      if_neg (fun h => hr ((resultIdx?_rowsDims_eq_some_iff wf idx e b n j).mp h).1))

/-- **A scatter-add of update rows into a table, on the extended reals, read at `(n, j)`**: with
update window axis `1`, inserted window axis `0`, scatter axis to operand axis `[0]` and index vector
axis `1`, element `(n, j)` of the result is the operand's element `(n, j)` plus the sum of the
updates' elements `(e, j)` over the rows `e` whose index `idx[e, 0]`, read signed, is `n`. -/
theorem scatterAdd_rows_apply {N M C w : Nat} {φ : FTy}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![M, 1]⟩ w) (upd : FVec Ideal ⟨2, ![M, C]⟩ φ)
    (n : Fin N) (j : Fin C) :
    Host.scatterAdd (F := Ideal) d x idx upd (ix2 n j)
      = x (ix2 n j) + ∑ e ∈ Finset.univ.filter
          (fun e : Fin M => scatterRowOf? N (idx (ix2 e (0 : Fin 1))) = some n), upd (ix2 e j) := by
  obtain ⟨uw, iw, sd, iv, wf⟩ := d
  dsimp only at huw hiw hsd hiv
  subst huw hiw hsd hiv
  exact hostScatterAdd_rowsDims_apply wf x idx upd n j

/-- Where update `e` of an entry scatter lands: at entry `scatterRowOf? (idx[e, 0])`. -/
theorem resultIdx?_flatDims {N M w : Nat}
    (wf : ScatterDims.WF ⟨1, ![N]⟩ ⟨2, ![M, 1]⟩ ⟨1, ![M]⟩ [] [0] [0] 1)
    (idx : IVec ⟨2, ![M, 1]⟩ w) (e : Fin M) :
    (flatScatterDims N M wf).resultIdx? (ix1 e) idx
      = (scatterRowOf? N (idx (ix2 e (0 : Fin 1)))).map (fun r => ix1 r) := by
  have hs0 : (flatScatterDims N M wf).start (ix1 e) idx 0 = (idx (ix2 e (0 : Fin 1))).toInt := by
    unfold ScatterDims.start
    rw [dif_pos (List.mem_singleton.mpr rfl)]
    have hsi : ScatterDims.siIdx (flatScatterDims N M wf) (ix1 e)
        ⟨List.idxOf (0 : Fin 1) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hk0 : (0 : Fin 1) ∉ (flatScatterDims N M wf).sKept := fun h => by
    have := (List.mem_filter.mp h).2
    simp at this
  have hw0 : (flatScatterDims N M wf).window (ix1 e) 0 = 0 := by
    unfold ScatterDims.window
    exact dif_neg hk0
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨1, ![N]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a
    obtain rfl : a = 0 := Subsingleton.elim _ _
    refine Fin.ext ?_
    show ((flatScatterDims N M wf).start (ix1 e) idx 0
      + ((flatScatterDims N M wf).window (ix1 e) 0 : Int)).toNat = (idx (ix2 e (0 : Fin 1))).toInt.toNat
    rw [hs0, hw0]; simp
  · rename_i h
    have hv : ¬ (0 ≤ (idx (ix2 e (0 : Fin 1))).toInt ∧ (idx (ix2 e (0 : Fin 1))).toInt < (N : Int)) := by
      intro hv
      apply h
      intro a
      obtain rfl : a = 0 := Subsingleton.elim _ _
      show 0 ≤ (flatScatterDims N M wf).start (ix1 e) idx 0
          + ((flatScatterDims N M wf).window (ix1 e) 0 : Int)
        ∧ (flatScatterDims N M wf).start (ix1 e) idx 0
          + ((flatScatterDims N M wf).window (ix1 e) 0 : Int) < (N : Int)
      rw [hs0, hw0]; simpa using hv
    have hrow : scatterRowOf? N (idx (ix2 e (0 : Fin 1))) = none := by
      unfold scatterRowOf?; rw [dif_neg hv]
    rw [hrow]; rfl

/-- Update `e` of an entry scatter lands at `n` exactly when `e`'s row is `n`. -/
theorem resultIdx?_flatDims_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (flatScatterDims N M wf).resultIdx? (ix1 e) idx = some (ix1 n)
      ↔ scatterRowOf? N (idx (ix2 e (0 : Fin 1))) = some n := by
  rw [resultIdx?_flatDims]
  cases hr : scatterRowOf? N (idx (ix2 e (0 : Fin 1))) with
  | none => simp
  | some r =>
    rw [Option.map_some]
    constructor
    · intro h
      have e0 : r = n := congrFun (Option.some.inj h) 0
      rw [e0]
    · intro h
      rw [Option.some.inj h]

/-- The extended-real scatter-add of update entries, for the literal record, read at `n`. -/
theorem hostScatterAdd_flatDims_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter
          (fun e : Fin M => scatterRowOf? N (idx (ix2 e (0 : Fin 1))) = some n), upd (ix1 e) := by
  unfold Ideal.hostScatterAdd
  congr 1
  rw [Finset.sum_filter, sum_idx1, Finset.sum_filter]
  refine Finset.sum_congr rfl (fun e _ => ?_)
  by_cases hr : scatterRowOf? N (idx (ix2 e (0 : Fin 1))) = some n
  · rw [if_pos hr, if_pos ((resultIdx?_flatDims_eq_some_iff wf idx e n).mpr hr)]
  · rw [if_neg hr, if_neg (fun h => hr ((resultIdx?_flatDims_eq_some_iff wf idx e n).mp h))]

/-- **A scatter-add of update entries into a vector, on the extended reals, read at `n`**: with
no update window axis, inserted window axis `0`, scatter axis to operand axis `[0]` and index
vector axis `1`, entry `n` of the result is the operand's entry `n` plus the sum of the updates'
entries `e` over the `e` whose index `idx[e, 0]`, read signed, is `n`. -/
theorem scatterAdd_flat_apply {N M w : Nat} {φ : FTy}
    (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ)
    (n : Fin N) :
    Host.scatterAdd (F := Ideal) d x idx upd (ix1 n)
      = x (ix1 n) + ∑ e ∈ Finset.univ.filter
          (fun e : Fin M => scatterRowOf? N (idx (ix2 e (0 : Fin 1))) = some n), upd (ix1 e) := by
  obtain ⟨uw, iw, sd, iv, wf⟩ := d
  dsimp only at huw hiw hsd hiv
  subst huw hiw hsd hiv
  exact hostScatterAdd_flatDims_apply wf x idx upd n

end Scatter

end LibGatherScatterRead

end
-- ==== Proof.Region3Pay.lean ====
/-
  Region 3, one point: per edge e and column q the two results are xui e * P0_e e q and xui e * P3_e e q, the score
  column spread along the rows times a gathered array. For the second the plain program's stage 259 is the same
  product. For the first the gathered array is the gather of p0 = vu / dui, whose row at edge e is row g of p0, g
  the start index of e read signed and clamped into [0, 99999]; the plain program gathers vu and dui separately,
  by the same index array, so it reads the same row g of each, and forms (xui e * vu g q) / dui g. The two agree
  because a factor moves across a division by a nonzero number, and no entry of dui is zero.
-/
import proofs.«138700_j66589172957770_1_alg».proof.Proof.Gen.KernelIdeal.Skeleton
import proofs.«138700_j66589172957770_1_alg».proof.Proof.Stages
import proofs.«138700_j66589172957770_1_alg».proof.Proof.Degrees
import proofs.«138700_j66589172957770_1_alg».proof.Proof.LibRowLayout
import proofs.«138700_j66589172957770_1_alg».proof.Proof.LibGatherScatterRead

set_option maxRecDepth 16384

noncomputable section

namespace Cert.Regions

open Idealize.ShloMosaic Idealize.ShloMosaic.TcCoe Idealize.SL.Sem
open Cert.KernelIdeal Cert.KernelIdeal.Gen Cert.Stages
open Idealize.ShloMosaic.ValueIdx Cert.ReferenceIdeal.Read

/-! ## The gathers -/

/-- The user row edge e reads: its start index, read signed and clamped into [0, 99999]. -/
def edgeUserRow (u : IArr) (e : Fin 1000000) : Fin 100000 :=
  LibGatherScatterRead.gatherRowOf 100000 (by decide) (val_main_v186 (F := Ideal) u (ix2 e (0 : Fin 1)))

/-- A gather of rows of a 100000 x 64 table by stage 186 reads, at edge e, row (edgeUserRow e) of the table. -/
theorem gather64_apply (T : (⟨S100000x64, .f32⟩ : BufTy).Contents (Elt Ideal)) (u : IArr) (e : Fin 1000000)
    (q : Fin 64) :
    Host.gather Cert.ReferenceIdeal.gather_S100000x64_S1000000x1_S1000000x64_1_0_n_n_0_1_164 T (val_main_v186 (F := Ideal) u) (ix2 e q) = T (ix2 (edgeUserRow u e) q) :=
  LibGatherScatterRead.gather_rows_apply (w := 32) (by decide) Cert.ReferenceIdeal.gather_S100000x64_S1000000x1_S1000000x64_1_0_n_n_0_1_164 rfl rfl rfl rfl rfl rfl rfl T
    (val_main_v186 (F := Ideal) u) e q

/-- A gather of entries of a 100000 x 1 column by stage 186 reads, at edge e, entry (edgeUserRow e). -/
theorem gather1_apply (T : (⟨S100000x1, .f32⟩ : BufTy).Contents (Elt Ideal)) (u : IArr) (e : Fin 1000000)
    (z : Fin 1) :
    Host.gather Cert.ReferenceIdeal.gather_S100000x1_S1000000x1_S1000000x1_1_0_n_n_0_1_11 T (val_main_v186 (F := Ideal) u) (ix2 e z) = T (ix2 (edgeUserRow u e) z) :=
  LibGatherScatterRead.gather_rows_apply (w := 32) (by decide) Cert.ReferenceIdeal.gather_S100000x1_S1000000x1_S1000000x1_1_0_n_n_0_1_11 rfl rfl rfl rfl rfl rfl rfl T
    (val_main_v186 (F := Ideal) u) e z

/-- The plain program normalises the start indices twice, by the same operations: stage 195 is stage 186. -/
theorem stage195_eq (u : IArr) : val_main_v195 (F := Ideal) u = val_main_v186 (F := Ideal) u := rfl

/-- p0 at row g, column q: vu g q over dui g. -/
theorem p0_apply (x : XArr) (u : IArr) (g : Fin 100000) (q : Fin 64) :
    p0 x u (ix2 g q)
      = Ideal.div (val_main_v19 (F := Ideal) x (ix2 g q)) (val_main_v8 (F := Ideal) u (ix2 g (0 : Fin 1))) := by
  have hc : colU (ix2 g q) = ix2 g (0 : Fin 1) :=
    funext fun a => Fin.ext (by match a with | ⟨0, _⟩ => rfl | ⟨1, _⟩ => rfl)
  unfold p0
  rw [hc]
  rfl

/-! ## The plain program's two stages, entry by entry -/

/-- Stage 259 at edge e, column q: the score of e times row e of stage 257. -/
theorem stage259_apply (x : XArr) (u i : IArr) (e : Fin 1000000) (q : Fin 64) :
    val_main_v259 (F := Ideal) x u i (ix2 e q)
      = val_main_v44 (F := Ideal) x u i (ix2 e (0 : Fin 1)) * val_main_v257 (F := Ideal) x u (ix2 e q) := by
  rw [val_main_v259_apply, val_main_v258_apply]
  have h1 : idx_main_v258 (ix2 e q) = ix2 e (0 : Fin 1) :=
    funext fun a => Fin.ext (by match a with | ⟨0, _⟩ => rfl | ⟨1, _⟩ => rfl)
  rw [h1]
  rfl

/-- Stage 198 at edge e, column q: (the score of e times vu g q) over dui g, g the user row of e. -/
theorem stage198_apply (x : XArr) (u i : IArr) (e : Fin 1000000) (q : Fin 64) :
    val_main_v198 (F := Ideal) x u i (ix2 e q)
      = Ideal.div (val_main_v44 (F := Ideal) x u i (ix2 e (0 : Fin 1))
            * val_main_v19 (F := Ideal) x (ix2 (edgeUserRow u e) q))
          (val_main_v8 (F := Ideal) u (ix2 (edgeUserRow u e) (0 : Fin 1))) := by
  rw [val_main_v198_apply, val_main_v189_apply, val_main_v188_apply, val_main_v197_apply]
  have h1 : idx_main_v188 (ix2 e q) = ix2 e (0 : Fin 1) :=
    funext fun a => Fin.ext (by match a with | ⟨0, _⟩ => rfl | ⟨1, _⟩ => rfl)
  have h2 : idx_main_v197 (ix2 e q) = ix2 e (0 : Fin 1) :=
    funext fun a => Fin.ext (by match a with | ⟨0, _⟩ => rfl | ⟨1, _⟩ => rfl)
  have g1 : val_main_v187 (F := Ideal) x u (ix2 e q)
      = val_main_v19 (F := Ideal) x (ix2 (edgeUserRow u e) q) :=
    gather64_apply (val_main_v19 (F := Ideal) x) u e q
  have g2 : val_main_v196 (F := Ideal) u (ix2 e (0 : Fin 1))
      = val_main_v8 (F := Ideal) u (ix2 (edgeUserRow u e) (0 : Fin 1)) := by
    unfold val_main_v196
    rw [stage195_eq]
    exact gather1_apply (val_main_v8 (F := Ideal) u) u e (0 : Fin 1)
  rw [h1, h2, g1, g2]
  rfl

/-! ## The body's two payloads, entry by entry -/

/-- The first payload at row p, column q: the score column's entry p times the second block's entry. -/
theorem pay3_P0_apply (s : Vec Ideal S5000x1 .f32) (d : Vec Ideal S5000x64 .f32) (p : Fin 5000) (q : Fin 64) :
    k3_pay2 (F := Ideal) s d (ix2 p q) = s (ix2 p (0 : Fin 1)) * d (ix2 p q) := by
  unfold k3_pay2 k3_pay1
  have eb := Cert.LibRowLayout.broadcastTo_a1_ab_apply
    (shapeCast S5000x1 s shapeCasts_S5000x1_S5000x1) broadcasts_S5000x1_S5000x64 p q
  have es := congrFun (shapeCast_self s shapeCasts_S5000x1_S5000x1) (ix2 p (0 : Fin 1))
  have ed := congrFun (shapeCast_self d shapeCasts_S5000x64_S5000x64) (ix2 p q)
  show broadcastTo S5000x64 (shapeCast S5000x1 s shapeCasts_S5000x1_S5000x1) broadcasts_S5000x1_S5000x64 (ix2 p q)
    * shapeCast S5000x64 d shapeCasts_S5000x64_S5000x64 (ix2 p q) = _
  rw [eb, es, ed]

/-- The second payload is the same product with the third block. -/
theorem pay3_P3_apply (s : Vec Ideal S5000x1 .f32) (d : Vec Ideal S5000x64 .f32) (p : Fin 5000) (q : Fin 64) :
    k3_pay3 (F := Ideal) s d (ix2 p q) = s (ix2 p (0 : Fin 1)) * d (ix2 p q) := by
  unfold k3_pay3 k3_pay1
  have eb := Cert.LibRowLayout.broadcastTo_a1_ab_apply
    (shapeCast S5000x1 s shapeCasts_S5000x1_S5000x1) broadcasts_S5000x1_S5000x64 p q
  have es := congrFun (shapeCast_self s shapeCasts_S5000x1_S5000x1) (ix2 p (0 : Fin 1))
  have ed := congrFun (shapeCast_self d shapeCasts_S5000x64_S5000x64) (ix2 p q)
  show broadcastTo S5000x64 (shapeCast S5000x1 s shapeCasts_S5000x1_S5000x1) broadcasts_S5000x1_S5000x64 (ix2 p q)
    * shapeCast S5000x64 d shapeCasts_S5000x64_S5000x64 (ix2 p q) = _
  rw [eb, es, ed]

/-! ## One point over variables -/

/-- If entry p of the loaded score block is stage 44's entry e and entry (p, q) of the third block is stage 257's
    entry (e, q), the second payload's entry (p, q) is stage 259's entry (e, q). -/
theorem point3_P3 (x : XArr) (u i : IArr) (s : Vec Ideal S5000x1 .f32) (d : Vec Ideal S5000x64 .f32)
    (p : Fin 5000) (q : Fin 64) (e : Fin 1000000)
    (hs : s (ix2 p (0 : Fin 1)) = val_main_v44 (F := Ideal) x u i (ix2 e (0 : Fin 1)))
    (hd : d (ix2 p q) = val_main_v257 (F := Ideal) x u (ix2 e q)) :
    k3_pay3 (F := Ideal) s d (ix2 p q) = val_main_v259 (F := Ideal) x u i (ix2 e q) := by
  rw [pay3_P3_apply, stage259_apply, hs, hd]

/-- If entry p of the loaded score block is stage 44's entry e and entry (p, q) of the second block is entry (e, q)
    of the gather of p0, the first payload's entry (p, q) is stage 198's entry (e, q): with g the user row of e,
    xui e * (vu g q / dui g) = (xui e * vu g q) / dui g since dui g is not zero. -/
theorem point3_P0 (x : XArr) (u i : IArr) (s : Vec Ideal S5000x1 .f32) (d : Vec Ideal S5000x64 .f32)
    (p : Fin 5000) (q : Fin 64) (e : Fin 1000000)
    (hs : s (ix2 p (0 : Fin 1)) = val_main_v44 (F := Ideal) x u i (ix2 e (0 : Fin 1)))
    (hd : d (ix2 p q) = Host.gather Cert.ReferenceIdeal.gather_S100000x64_S1000000x1_S1000000x64_1_0_n_n_0_1_164 (p0 x u) (val_main_v186 (F := Ideal) u) (ix2 e q)) :
    k3_pay2 (F := Ideal) s d (ix2 p q) = val_main_v198 (F := Ideal) x u i (ix2 e q) := by
  rw [pay3_P0_apply, hs, hd, gather64_apply, p0_apply, stage198_apply]
  exact Cert.Degrees.mul_div_assoc' _ _ _ (Cert.Degrees.dui_ne_zero u _)

end Cert.Regions

end
-- ==== Proof.Region3Blocks.lean ====
/-
  Region 3, the blocks: each of its 200 grid points reads and writes rows 5000 t .. 5000 t + 4999 of every array
  (1000000 rows; the score column has one entry per row, the others 64). This module reads an input block's entry
  as an entry of its array, says that a block agreeing row by row with those rows of an array is what a result
  window writes back, says when an index of a result lies in a point's block, and shows that every index lies in
  the block of point (row / 5000).
-/
import proofs.«138700_j66589172957770_1_alg».proof.Proof.Gen.KernelIdeal.Frame
import Idealize.ShloMosaic.PureOps.Ideal
import Idealize.ShloMosaic.Lib.ValueIdx

set_option maxRecDepth 16384

noncomputable section

namespace Cert.Regions

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl

/-- The printed index maps of region 3, decided over its 200 points: block t of every window starts at row
    5000 t, column 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem lt_200_3 (t : Fin cfg3.N) : t.val < 200 := lt_of_lt_of_eq t.isLt (show cfg3.N = 200 from N_3)

/-- Entry p of the score block at point t is entry 5000 t + p of the score column. -/
theorem iblk3_0_apply (c : Dev nD) (A : (⟨S1000000x1, .f32⟩ : BufTy).Contents (Elt Ideal)) (h : V c main_v38_0 = A)
    (t : Fin cfg3.N) (p : Fin 5000) (z : Fin 1) (e : Fin 1000000) (he : e.val = t.val * 5000 + p.val) :
    (iblk3 V c 0 t : Vec Ideal S5000x1 .f32) (ix2 p z) = A (ix2 e z) := by
  obtain ⟨ea, eb, -⟩ := idx_facts3 t
  unfold iblk3
  rw [View.read_apply]
  show V c main_v38_0 _ = A _
  rw [h]
  refine congrArg A (funext fun a => Fin.ext ?_)
  match a with
  | ⟨0, _⟩ => show win3_0.index t (0 : Fin 2) * 5000 + 1 * p.val = e.val; rw [ea, he]; omega
  | ⟨1, _⟩ => show win3_0.index t (1 : Fin 2) * 1 + 1 * z.val = z.val; rw [eb]; omega

/-- Row p, column k of the second input block at point t is row 5000 t + p of its array. -/
theorem iblk3_1_apply (c : Dev nD) (A : (⟨S1000000x64, .f32⟩ : BufTy).Contents (Elt Ideal)) (h : V c main_v64 = A)
    (t : Fin cfg3.N) (p : Fin 5000) (k : Fin 64) (e : Fin 1000000) (he : e.val = t.val * 5000 + p.val) :
    (iblk3 V c 1 t : Vec Ideal S5000x64 .f32) (ix2 p k) = A (ix2 e k) := by
  obtain ⟨-, -, ea, eb, -⟩ := idx_facts3 t
  unfold iblk3
  rw [View.read_apply]
  show V c main_v64 _ = A _
  rw [h]
  refine congrArg A (funext fun a => Fin.ext ?_)
  match a with
  | ⟨0, _⟩ => show win3_1.index t (0 : Fin 2) * 5000 + 1 * p.val = e.val; rw [ea, he]; omega
  | ⟨1, _⟩ => show win3_1.index t (1 : Fin 2) * 64 + 1 * k.val = k.val; rw [eb]; omega

/-- Row p, column k of the third input block at point t is row 5000 t + p of its array. -/
theorem iblk3_2_apply (c : Dev nD) (A : (⟨S1000000x64, .f32⟩ : BufTy).Contents (Elt Ideal)) (h : V c main_v85 = A)
    (t : Fin cfg3.N) (p : Fin 5000) (k : Fin 64) (e : Fin 1000000) (he : e.val = t.val * 5000 + p.val) :
    (iblk3 V c 2 t : Vec Ideal S5000x64 .f32) (ix2 p k) = A (ix2 e k) := by
  obtain ⟨-, -, -, -, ea, eb, -⟩ := idx_facts3 t
  unfold iblk3
  rw [View.read_apply]
  show V c main_v85 _ = A _
  rw [h]
  refine congrArg A (funext fun a => Fin.ext ?_)
  match a with
  | ⟨0, _⟩ => show win3_2.index t (0 : Fin 2) * 5000 + 1 * p.val = e.val; rw [ea, he]; omega
  | ⟨1, _⟩ => show win3_2.index t (1 : Fin 2) * 64 + 1 * k.val = k.val; rw [eb]; omega

/-- A 5000 x 64 block P that agrees, row by row, with rows 5000 t .. 5000 t + 4999 of an array G: the part of P that
    window 3's write-back at point t moves is block t of G. -/
theorem block3_3_eq (t : Fin cfg3.N) (G : (⟨S1000000x64, .f32⟩ : BufTy).Contents (Elt Ideal))
    (P : Vec Ideal S5000x64 .f32)
    (hP : ∀ (p : Fin 5000) (q : Fin 64) (e : Fin 1000000), e.val = t.val * 5000 + p.val →
      P (ix2 p q) = G (ix2 e q)) :
    (cfg3.win 3).cut (grid3.coords t) P = ((cfg3.win 3).blk t).view.read (Elt Ideal) G := by
  obtain ⟨-, -, -, -, -, -, ea, eb, -⟩ := idx_facts3 t
  have ht := lt_200_3 t
  funext j
  obtain ⟨p, q, rfl⟩ : ∃ (p : Fin 5000) (q : Fin 64), j = ix2 p q := ⟨j 0, j 1, eq_ix2 j⟩
  have hp : p.val < 5000 := p.isLt
  have hr : t.val * 5000 + p.val < 1000000 := by omega
  show P (ix2 p q) = G (((cfg3.win 3).blk t).view.emb (ix2 p q))
  have hemb : ((cfg3.win 3).blk t).view.emb (ix2 p q) = ix2 (⟨t.val * 5000 + p.val, hr⟩ : Fin 1000000) q := by
    funext a; apply Fin.ext
    match a with
    | ⟨0, _⟩ => show win3_3.index t (0 : Fin 2) * 5000 + 1 * p.val = t.val * 5000 + p.val; rw [ea]; omega
    | ⟨1, _⟩ => show win3_3.index t (1 : Fin 2) * 64 + 1 * q.val = q.val; rw [eb]; omega
  rw [hemb]
  exact hP p q ⟨t.val * 5000 + p.val, hr⟩ rfl

/-- A 5000 x 64 block P that agrees, row by row, with rows 5000 t .. 5000 t + 4999 of an array G: the part of P that
    window 4's write-back at point t moves is block t of G. -/
theorem block3_4_eq (t : Fin cfg3.N) (G : (⟨S1000000x64, .f32⟩ : BufTy).Contents (Elt Ideal))
    (P : Vec Ideal S5000x64 .f32)
    (hP : ∀ (p : Fin 5000) (q : Fin 64) (e : Fin 1000000), e.val = t.val * 5000 + p.val →
      P (ix2 p q) = G (ix2 e q)) :
    (cfg3.win 4).cut (grid3.coords t) P = ((cfg3.win 4).blk t).view.read (Elt Ideal) G := by
  obtain ⟨-, -, -, -, -, -, -, -, ea, eb⟩ := idx_facts3 t
  have ht := lt_200_3 t
  funext j
  obtain ⟨p, q, rfl⟩ : ∃ (p : Fin 5000) (q : Fin 64), j = ix2 p q := ⟨j 0, j 1, eq_ix2 j⟩
  have hp : p.val < 5000 := p.isLt
  have hr : t.val * 5000 + p.val < 1000000 := by omega
  show P (ix2 p q) = G (((cfg3.win 4).blk t).view.emb (ix2 p q))
  have hemb : ((cfg3.win 4).blk t).view.emb (ix2 p q) = ix2 (⟨t.val * 5000 + p.val, hr⟩ : Fin 1000000) q := by
    funext a; apply Fin.ext
    match a with
    | ⟨0, _⟩ => show win3_4.index t (0 : Fin 2) * 5000 + 1 * p.val = t.val * 5000 + p.val; rw [ea]; omega
    | ⟨1, _⟩ => show win3_4.index t (1 : Fin 2) * 64 + 1 * q.val = q.val; rw [eb]; omega
  rw [hemb]
  exact hP p q ⟨t.val * 5000 + p.val, hr⟩ rfl

/-- An index of result one is in point t's block iff each coordinate is in the block's range on its axis. -/
theorem mem_blk3_3 (t : Fin cfg3.N) (j : S1000000x64.Idx) :
    j ∈ ((cfg3.win 3).blk t).view.set ↔ ∀ a : Fin 2, win3_3.index t a * S5000x64.size a ≤ (j a).val
      ∧ (j a).val < win3_3.index t a * S5000x64.size a + S5000x64.size a := by
  show j ∈ ((View.whole main_v114_0).slice (win3_3.rect t)).set ↔ _
  rw [View.set_slice_whole, Rect.mem_set_unit]
  exact Iff.rfl

/-- An index of result two is in point t's block iff each coordinate is in the block's range on its axis. -/
theorem mem_blk3_4 (t : Fin cfg3.N) (j : S1000000x64.Idx) :
    j ∈ ((cfg3.win 4).blk t).view.set ↔ ∀ a : Fin 2, win3_4.index t a * S5000x64.size a ≤ (j a).val
      ∧ (j a).val < win3_4.index t a * S5000x64.size a + S5000x64.size a := by
  show j ∈ ((View.whole main_v114_1).slice (win3_4.rect t)).set ↔ _
  rw [View.set_slice_whole, Rect.mem_set_unit]
  exact Iff.rfl

/-- Every edge e is in the block of point e / 5000 (window 3). -/
theorem cover3_3' (j : S1000000x64.Idx) :
    ∃ t : Fin cfg3.N, (cfg3.win 3).flush t = true ∧ j ∈ ((cfg3.win 3).blk t).view.set := by
  have hj0 : (j 0).val < 1000000 := (j 0).isLt
  have hj1 : (j 1).val < 64 := (j 1).isLt
  have hlt : (j 0).val / 5000 < cfg3.N := by rw [show cfg3.N = 200 from N_3]; omega
  obtain ⟨-, -, -, -, -, -, ea, eb, -⟩ := idx_facts3 ⟨(j 0).val / 5000, hlt⟩
  refine ⟨⟨(j 0).val / 5000, hlt⟩, flush3_3 _, ?_⟩
  rw [mem_blk3_3]
  intro a
  match a with
  | ⟨0, _⟩ =>
    show win3_3.index ⟨(j 0).val / 5000, hlt⟩ (0 : Fin 2) * 5000 ≤ (j 0).val
      ∧ (j 0).val < win3_3.index ⟨(j 0).val / 5000, hlt⟩ (0 : Fin 2) * 5000 + 5000
    rw [ea]; show (j 0).val / 5000 * 5000 ≤ (j 0).val ∧ (j 0).val < (j 0).val / 5000 * 5000 + 5000; omega
  | ⟨1, _⟩ =>
    show win3_3.index ⟨(j 0).val / 5000, hlt⟩ (1 : Fin 2) * 64 ≤ (j 1).val
      ∧ (j 1).val < win3_3.index ⟨(j 0).val / 5000, hlt⟩ (1 : Fin 2) * 64 + 64
    rw [eb]; omega

/-- Every edge e is in the block of point e / 5000 (window 4). -/
theorem cover3_4' (j : S1000000x64.Idx) :
    ∃ t : Fin cfg3.N, (cfg3.win 4).flush t = true ∧ j ∈ ((cfg3.win 4).blk t).view.set := by
  have hj0 : (j 0).val < 1000000 := (j 0).isLt
  have hj1 : (j 1).val < 64 := (j 1).isLt
  have hlt : (j 0).val / 5000 < cfg3.N := by rw [show cfg3.N = 200 from N_3]; omega
  obtain ⟨-, -, -, -, -, -, -, -, ea, eb⟩ := idx_facts3 ⟨(j 0).val / 5000, hlt⟩
  refine ⟨⟨(j 0).val / 5000, hlt⟩, flush3_4 _, ?_⟩
  rw [mem_blk3_4]
  intro a
  match a with
  | ⟨0, _⟩ =>
    show win3_4.index ⟨(j 0).val / 5000, hlt⟩ (0 : Fin 2) * 5000 ≤ (j 0).val
      ∧ (j 0).val < win3_4.index ⟨(j 0).val / 5000, hlt⟩ (0 : Fin 2) * 5000 + 5000
    rw [ea]; show (j 0).val / 5000 * 5000 ≤ (j 0).val ∧ (j 0).val < (j 0).val / 5000 * 5000 + 5000; omega
  | ⟨1, _⟩ =>
    show win3_4.index ⟨(j 0).val / 5000, hlt⟩ (1 : Fin 2) * 64 ≤ (j 1).val
      ∧ (j 1).val < win3_4.index ⟨(j 0).val / 5000, hlt⟩ (1 : Fin 2) * 64 + 64
    rw [eb]; omega

end Cert.Regions

end
-- ==== Proof.Region3.lean ====
/-
  Region 3: per edge e and column q the two results are xui e * P0_e e q and xui e * P3_e e q. Each grid point t
  reads rows 5000 t .. 5000 t + 4999 of the score column and of the two gathered arrays and writes the same rows of
  the two results; what it writes is block t of the plain program's stage 198, respectively stage 259, and the
  blocks tile the arrays, so the two results are those stages.
-/
import proofs.«138700_j66589172957770_1_alg».proof.Proof.Region3Pay
import proofs.«138700_j66589172957770_1_alg».proof.Proof.Region3Blocks

set_option maxRecDepth 16384

noncomputable section

namespace Cert.Regions

open Idealize.ShloMosaic Idealize.ShloMosaic.TcCoe Idealize.SL.Sem
open Cert.KernelIdeal Cert.KernelIdeal.Gen Cert.Stages
open Idealize.ShloMosaic.ValueIdx Cert.ReferenceIdeal.Read

variable (V : (c : Dev nD) → (b : Ref sig .tc) → Buf (Elt Ideal) ((c : Thread nD τ).loc b))

/-- What point t writes back through window 3 is block t of stage 198. -/
theorem flushed3_3_eq (c : Dev nD) (x : XArr) (u i : IArr)
    (h0 : V c main_v38_0 = val_main_v44 (F := Ideal) x u i)
    (h1 : V c main_v64 = Host.gather Cert.ReferenceIdeal.gather_S100000x64_S1000000x1_S1000000x64_1_0_n_n_0_1_164 (p0 x u) (val_main_v186 (F := Ideal) u))
    (t : Fin cfg3.N) :
    (dat3 (F := Ideal) V c).flushed 3 t
      = ((cfg3.win 3).blk t).view.read (Elt Ideal) (val_main_v198 (F := Ideal) x u i) := by
  show (cfg3.win 3).cut (grid3.coords t) ((dat3 V c).after 3 t) = _
  rw [after3_3]
  unfold out3_3
  rw [View.canon_unit_zero hz3]
  simp only [View.ld_unit_zero (S := S5000x1) hz3, View.ld_unit_zero (S := S5000x64) hz3]
  exact block3_3_eq t (val_main_v198 (F := Ideal) x u i)
    (k3_pay2 (F := Ideal) (iblk3 V c 0 t) (iblk3 V c 1 t))
    (fun p q e he => point3_P0 x u i (iblk3 V c 0 t) (iblk3 V c 1 t) p q e
      (iblk3_0_apply V c (val_main_v44 (F := Ideal) x u i) h0 t p (0 : Fin 1) e he)
      (iblk3_1_apply V c (Host.gather Cert.ReferenceIdeal.gather_S100000x64_S1000000x1_S1000000x64_1_0_n_n_0_1_164 (p0 x u) (val_main_v186 (F := Ideal) u)) h1 t p q e he))

/-- What point t writes back through window 4 is block t of stage 259. -/
theorem flushed3_4_eq (c : Dev nD) (x : XArr) (u i : IArr)
    (h0 : V c main_v38_0 = val_main_v44 (F := Ideal) x u i)
    (h2 : V c main_v85 = val_main_v257 (F := Ideal) x u)
    (t : Fin cfg3.N) :
    (dat3 (F := Ideal) V c).flushed 4 t
      = ((cfg3.win 4).blk t).view.read (Elt Ideal) (val_main_v259 (F := Ideal) x u i) := by
  show (cfg3.win 4).cut (grid3.coords t) ((dat3 V c).after 4 t) = _
  rw [after3_4]
  unfold out3_4
  rw [View.canon_unit_zero hz3]
  simp only [View.ld_unit_zero (S := S5000x1) hz3, View.ld_unit_zero (S := S5000x64) hz3]
  exact block3_4_eq t (val_main_v259 (F := Ideal) x u i)
    (k3_pay3 (F := Ideal) (iblk3 V c 0 t) (iblk3 V c 2 t))
    (fun p q e he => point3_P3 x u i (iblk3 V c 0 t) (iblk3 V c 2 t) p q e
      (iblk3_0_apply V c (val_main_v44 (F := Ideal) x u i) h0 t p (0 : Fin 1) e he)
      (iblk3_2_apply V c (val_main_v257 (F := Ideal) x u) h2 t p q e he))

theorem region3_xuiP0 (c : Dev nD) (x : XArr) (u i : IArr)
    (h0 : V c main_v38_0 = Cert.ReferenceIdeal.Read.val_main_v44 (F := Ideal) x u i)
    (h1 : V c main_v64 = Host.gather Cert.ReferenceIdeal.gather_S100000x64_S1000000x1_S1000000x64_1_0_n_n_0_1_164 (Cert.Stages.p0 x u) (Cert.ReferenceIdeal.Read.val_main_v186 (F := Ideal) u))
    (h2 : V c main_v85 = Cert.ReferenceIdeal.Read.val_main_v257 (F := Ideal) x u) :
    (dat3 (F := Ideal) V c).arrAt 3 cfg3.N = Cert.ReferenceIdeal.Read.val_main_v198 (F := Ideal) x u i :=
  (dat3 (F := Ideal) V c).arrAt_eq_of_cover 3 (val_main_v198 (F := Ideal) x u i)
    (fun t _ => flushed3_3_eq V c x u i h0 h1 t) cover3_3'

theorem region3_xuiP3 (c : Dev nD) (x : XArr) (u i : IArr)
    (h0 : V c main_v38_0 = Cert.ReferenceIdeal.Read.val_main_v44 (F := Ideal) x u i)
    (h1 : V c main_v64 = Host.gather Cert.ReferenceIdeal.gather_S100000x64_S1000000x1_S1000000x64_1_0_n_n_0_1_164 (Cert.Stages.p0 x u) (Cert.ReferenceIdeal.Read.val_main_v186 (F := Ideal) u))
    (h2 : V c main_v85 = Cert.ReferenceIdeal.Read.val_main_v257 (F := Ideal) x u) :
    (dat3 (F := Ideal) V c).arrAt 4 cfg3.N = Cert.ReferenceIdeal.Read.val_main_v259 (F := Ideal) x u i :=
  (dat3 (F := Ideal) V c).arrAt_eq_of_cover 4 (val_main_v259 (F := Ideal) x u i)
    (fun t _ => flushed3_4_eq V c x u i h0 h2 t) cover3_4'

end Cert.Regions

end
-- ==== Proof.Fold4.lean ====
/-
  Boundaries 7 and 8. The fourth stretch gathers the per-user arrays at u, one row per edge. The fourth
  region scales two of the gathered arrays by the per-edge score. One of them, vu / dui gathered and then
  scaled, is where the plain program instead scales the gathered vu and divides by the gathered dui.
-/
import proofs.«138700_j66589172957770_1_alg».proof.Proof.Fold3
import proofs.«138700_j66589172957770_1_alg».proof.Proof.Region3
import Idealize.ShloMosaic.Lib.StableHlo.Run

set_option maxRecDepth 16384

noncomputable section

namespace Cert.Fold

open Idealize.ShloMosaic Idealize.ShloMosaic.TcCoe Idealize.SL.Sem Idealize.ShloMosaic.StableHlo
open Cert.KernelIdeal Cert.KernelIdeal.Gen Cert.Stages

variable (m : (ℓ : Loc nD τ sig) → Buf (Elt Ideal) ℓ) (ρ : Dev nD → PrngReg)

/-! ## Boundary 7 -/

theorem w7_v64 (c : Dev nD) : W7 (F := Ideal) m ρ c (Proc.devRef .tc main_v64) = Host.gather Cert.ReferenceIdeal.gather_S100000x64_S1000000x1_S1000000x64_1_0_n_n_0_1_164 (Cert.Stages.p0 (xa m c) (ua m c)) (Cert.ReferenceIdeal.Read.val_main_v186 (F := Ideal) (ua m c)) := by
  dsimp only [W7, hostOps3]
  after_results_simp
  simp only [w6_v13 m ρ c, w6_v15 m ρ c, w6_v11 m ρ c, w6_v14 m ρ c, w6_v38_0 m ρ c, w6_arg1 m ρ c, w6_arg2 m ρ c, w6_v57_0 m ρ c, w6_v57_1 m ρ c, w6_v57_2 m ρ c, w6_v57_3 m ρ c, w6_v57_4 m ρ c, w6_v57_5 m ρ c, w6_v57_6 m ρ c, w6_v57_7 m ρ c, w6_v57_8 m ρ c]
  rfl

theorem w7_v71 (c : Dev nD) : W7 (F := Ideal) m ρ c (Proc.devRef .tc main_v71) = Cert.ReferenceIdeal.Read.val_main_v90 (F := Ideal) (xa m c) (ua m c) := by
  dsimp only [W7, hostOps3]
  after_results_simp
  simp only [w6_v13 m ρ c, w6_v15 m ρ c, w6_v11 m ρ c, w6_v14 m ρ c, w6_v38_0 m ρ c, w6_arg1 m ρ c, w6_arg2 m ρ c, w6_v57_0 m ρ c, w6_v57_1 m ρ c, w6_v57_2 m ρ c, w6_v57_3 m ρ c, w6_v57_4 m ρ c, w6_v57_5 m ρ c, w6_v57_6 m ρ c, w6_v57_7 m ρ c, w6_v57_8 m ρ c]
  rfl

theorem w7_v78 (c : Dev nD) : W7 (F := Ideal) m ρ c (Proc.devRef .tc main_v78) = Cert.ReferenceIdeal.Read.val_main_v124 (F := Ideal) (xa m c) (ua m c) := by
  dsimp only [W7, hostOps3]
  after_results_simp
  simp only [w6_v13 m ρ c, w6_v15 m ρ c, w6_v11 m ρ c, w6_v14 m ρ c, w6_v38_0 m ρ c, w6_arg1 m ρ c, w6_arg2 m ρ c, w6_v57_0 m ρ c, w6_v57_1 m ρ c, w6_v57_2 m ρ c, w6_v57_3 m ρ c, w6_v57_4 m ρ c, w6_v57_5 m ρ c, w6_v57_6 m ρ c, w6_v57_7 m ρ c, w6_v57_8 m ρ c]
  rfl

theorem w7_v85 (c : Dev nD) : W7 (F := Ideal) m ρ c (Proc.devRef .tc main_v85) = Cert.ReferenceIdeal.Read.val_main_v257 (F := Ideal) (xa m c) (ua m c) := by
  dsimp only [W7, hostOps3]
  after_results_simp
  simp only [w6_v13 m ρ c, w6_v15 m ρ c, w6_v11 m ρ c, w6_v14 m ρ c, w6_v38_0 m ρ c, w6_arg1 m ρ c, w6_arg2 m ρ c, w6_v57_0 m ρ c, w6_v57_1 m ρ c, w6_v57_2 m ρ c, w6_v57_3 m ρ c, w6_v57_4 m ρ c, w6_v57_5 m ρ c, w6_v57_6 m ρ c, w6_v57_7 m ρ c, w6_v57_8 m ρ c]
  rfl

theorem w7_v92 (c : Dev nD) : W7 (F := Ideal) m ρ c (Proc.devRef .tc main_v92) = Cert.ReferenceIdeal.Read.val_main_v214 (F := Ideal) (xa m c) (ua m c) (ia m c) := by
  dsimp only [W7, hostOps3]
  after_results_simp
  simp only [w6_v13 m ρ c, w6_v15 m ρ c, w6_v11 m ρ c, w6_v14 m ρ c, w6_v38_0 m ρ c, w6_arg1 m ρ c, w6_arg2 m ρ c, w6_v57_0 m ρ c, w6_v57_1 m ρ c, w6_v57_2 m ρ c, w6_v57_3 m ρ c, w6_v57_4 m ρ c, w6_v57_5 m ρ c, w6_v57_6 m ρ c, w6_v57_7 m ρ c, w6_v57_8 m ρ c]
  rfl

theorem w7_v99 (c : Dev nD) : W7 (F := Ideal) m ρ c (Proc.devRef .tc main_v99) = Cert.ReferenceIdeal.Read.val_main_v242 (F := Ideal) (xa m c) (ua m c) (ia m c) := by
  dsimp only [W7, hostOps3]
  after_results_simp
  simp only [w6_v13 m ρ c, w6_v15 m ρ c, w6_v11 m ρ c, w6_v14 m ρ c, w6_v38_0 m ρ c, w6_arg1 m ρ c, w6_arg2 m ρ c, w6_v57_0 m ρ c, w6_v57_1 m ρ c, w6_v57_2 m ρ c, w6_v57_3 m ρ c, w6_v57_4 m ρ c, w6_v57_5 m ρ c, w6_v57_6 m ρ c, w6_v57_7 m ρ c, w6_v57_8 m ρ c]
  rfl

theorem w7_v106 (c : Dev nD) : W7 (F := Ideal) m ρ c (Proc.devRef .tc main_v106) = Cert.ReferenceIdeal.Read.val_main_v107 (F := Ideal) (xa m c) (ua m c) (ia m c) := by
  dsimp only [W7, hostOps3]
  after_results_simp
  simp only [w6_v13 m ρ c, w6_v15 m ρ c, w6_v11 m ρ c, w6_v14 m ρ c, w6_v38_0 m ρ c, w6_arg1 m ρ c, w6_arg2 m ρ c, w6_v57_0 m ρ c, w6_v57_1 m ρ c, w6_v57_2 m ρ c, w6_v57_3 m ρ c, w6_v57_4 m ρ c, w6_v57_5 m ρ c, w6_v57_6 m ρ c, w6_v57_7 m ρ c, w6_v57_8 m ρ c]
  rfl

theorem w7_v113 (c : Dev nD) : W7 (F := Ideal) m ρ c (Proc.devRef .tc main_v113) = Cert.ReferenceIdeal.Read.val_main_v144 (F := Ideal) (xa m c) (ua m c) (ia m c) := by
  dsimp only [W7, hostOps3]
  after_results_simp
  simp only [w6_v13 m ρ c, w6_v15 m ρ c, w6_v11 m ρ c, w6_v14 m ρ c, w6_v38_0 m ρ c, w6_arg1 m ρ c, w6_arg2 m ρ c, w6_v57_0 m ρ c, w6_v57_1 m ρ c, w6_v57_2 m ρ c, w6_v57_3 m ρ c, w6_v57_4 m ρ c, w6_v57_5 m ρ c, w6_v57_6 m ρ c, w6_v57_7 m ρ c, w6_v57_8 m ρ c]
  rfl

theorem w7_v38_0 (c : Dev nD) : W7 (F := Ideal) m ρ c (Proc.devRef .tc main_v38_0) = Cert.ReferenceIdeal.Read.val_main_v44 (F := Ideal) (xa m c) (ua m c) (ia m c) := by
  dsimp only [W7, hostOps3]
  after_results_simp
  exact w6_v38_0 m ρ c

theorem w7_v14 (c : Dev nD) : W7 (F := Ideal) m ρ c (Proc.devRef .tc main_v14) = Cert.ReferenceIdeal.Read.val_main_v18 (F := Ideal) (xa m c) := by
  dsimp only [W7, hostOps3]
  after_results_simp
  exact w6_v14 m ρ c

theorem w7_v13 (c : Dev nD) : W7 (F := Ideal) m ρ c (Proc.devRef .tc main_v13) = Cert.ReferenceIdeal.Read.val_main_v17 (F := Ideal) (xa m c) := by
  dsimp only [W7, hostOps3]
  after_results_simp
  exact w6_v13 m ρ c

theorem w7_v15 (c : Dev nD) : W7 (F := Ideal) m ρ c (Proc.devRef .tc main_v15) = Cert.ReferenceIdeal.Read.val_main_v19 (F := Ideal) (xa m c) := by
  dsimp only [W7, hostOps3]
  after_results_simp
  exact w6_v15 m ρ c

theorem w7_v11 (c : Dev nD) : W7 (F := Ideal) m ρ c (Proc.devRef .tc main_v11) = Cert.ReferenceIdeal.Read.val_main_v11 (F := Ideal) (ua m c) := by
  dsimp only [W7, hostOps3]
  after_results_simp
  exact w6_v11 m ρ c

theorem w7_v57_0 (c : Dev nD) : W7 (F := Ideal) m ρ c (Proc.devRef .tc main_v57_0) = Cert.Stages.outU (xa m c) (ua m c) (ia m c) := by
  dsimp only [W7, hostOps3]
  after_results_simp
  exact w6_v57_0 m ρ c

theorem w7_v57_3 (c : Dev nD) : W7 (F := Ideal) m ρ c (Proc.devRef .tc main_v57_3) = Cert.ReferenceIdeal.Read.val_main_v113 (F := Ideal) (xa m c) (ua m c) := by
  dsimp only [W7, hostOps3]
  after_results_simp
  exact w6_v57_3 m ρ c

theorem w7_v57_6 (c : Dev nD) : W7 (F := Ideal) m ρ c (Proc.devRef .tc main_v57_6) = Cert.ReferenceIdeal.Read.val_main_v227 (F := Ideal) (xa m c) (ua m c) (ia m c) := by
  dsimp only [W7, hostOps3]
  after_results_simp
  exact w6_v57_6 m ρ c

theorem w7_v57_8 (c : Dev nD) : W7 (F := Ideal) m ρ c (Proc.devRef .tc main_v57_8) = Cert.ReferenceIdeal.Read.val_main_v132 (F := Ideal) (xa m c) (ua m c) (ia m c) := by
  dsimp only [W7, hostOps3]
  after_results_simp
  exact w6_v57_8 m ρ c

theorem w7_arg2 (c : Dev nD) : W7 (F := Ideal) m ρ c (Proc.devRef .tc main_arg2) = (ia m c) := by
  dsimp only [W7, hostOps3]
  after_results_simp
  exact w6_arg2 m ρ c

/-! ## Boundary 8 -/

theorem w8_v71 (c : Dev nD) : W8 (F := Ideal) m ρ c (Proc.devRef .tc main_v71) = Cert.ReferenceIdeal.Read.val_main_v90 (F := Ideal) (xa m c) (ua m c) :=
  (W8_of_ne m ρ c main_v71 (by decide)).trans (w7_v71 m ρ c)

theorem w8_v78 (c : Dev nD) : W8 (F := Ideal) m ρ c (Proc.devRef .tc main_v78) = Cert.ReferenceIdeal.Read.val_main_v124 (F := Ideal) (xa m c) (ua m c) :=
  (W8_of_ne m ρ c main_v78 (by decide)).trans (w7_v78 m ρ c)

theorem w8_v92 (c : Dev nD) : W8 (F := Ideal) m ρ c (Proc.devRef .tc main_v92) = Cert.ReferenceIdeal.Read.val_main_v214 (F := Ideal) (xa m c) (ua m c) (ia m c) :=
  (W8_of_ne m ρ c main_v92 (by decide)).trans (w7_v92 m ρ c)

theorem w8_v99 (c : Dev nD) : W8 (F := Ideal) m ρ c (Proc.devRef .tc main_v99) = Cert.ReferenceIdeal.Read.val_main_v242 (F := Ideal) (xa m c) (ua m c) (ia m c) :=
  (W8_of_ne m ρ c main_v99 (by decide)).trans (w7_v99 m ρ c)

theorem w8_v106 (c : Dev nD) : W8 (F := Ideal) m ρ c (Proc.devRef .tc main_v106) = Cert.ReferenceIdeal.Read.val_main_v107 (F := Ideal) (xa m c) (ua m c) (ia m c) :=
  (W8_of_ne m ρ c main_v106 (by decide)).trans (w7_v106 m ρ c)

theorem w8_v113 (c : Dev nD) : W8 (F := Ideal) m ρ c (Proc.devRef .tc main_v113) = Cert.ReferenceIdeal.Read.val_main_v144 (F := Ideal) (xa m c) (ua m c) (ia m c) :=
  (W8_of_ne m ρ c main_v113 (by decide)).trans (w7_v113 m ρ c)

theorem w8_v14 (c : Dev nD) : W8 (F := Ideal) m ρ c (Proc.devRef .tc main_v14) = Cert.ReferenceIdeal.Read.val_main_v18 (F := Ideal) (xa m c) :=
  (W8_of_ne m ρ c main_v14 (by decide)).trans (w7_v14 m ρ c)

theorem w8_v13 (c : Dev nD) : W8 (F := Ideal) m ρ c (Proc.devRef .tc main_v13) = Cert.ReferenceIdeal.Read.val_main_v17 (F := Ideal) (xa m c) :=
  (W8_of_ne m ρ c main_v13 (by decide)).trans (w7_v13 m ρ c)

theorem w8_v15 (c : Dev nD) : W8 (F := Ideal) m ρ c (Proc.devRef .tc main_v15) = Cert.ReferenceIdeal.Read.val_main_v19 (F := Ideal) (xa m c) :=
  (W8_of_ne m ρ c main_v15 (by decide)).trans (w7_v15 m ρ c)

theorem w8_v11 (c : Dev nD) : W8 (F := Ideal) m ρ c (Proc.devRef .tc main_v11) = Cert.ReferenceIdeal.Read.val_main_v11 (F := Ideal) (ua m c) :=
  (W8_of_ne m ρ c main_v11 (by decide)).trans (w7_v11 m ρ c)

theorem w8_v57_0 (c : Dev nD) : W8 (F := Ideal) m ρ c (Proc.devRef .tc main_v57_0) = Cert.Stages.outU (xa m c) (ua m c) (ia m c) :=
  (W8_of_ne m ρ c main_v57_0 (by decide)).trans (w7_v57_0 m ρ c)

theorem w8_v57_3 (c : Dev nD) : W8 (F := Ideal) m ρ c (Proc.devRef .tc main_v57_3) = Cert.ReferenceIdeal.Read.val_main_v113 (F := Ideal) (xa m c) (ua m c) :=
  (W8_of_ne m ρ c main_v57_3 (by decide)).trans (w7_v57_3 m ρ c)

theorem w8_v57_6 (c : Dev nD) : W8 (F := Ideal) m ρ c (Proc.devRef .tc main_v57_6) = Cert.ReferenceIdeal.Read.val_main_v227 (F := Ideal) (xa m c) (ua m c) (ia m c) :=
  (W8_of_ne m ρ c main_v57_6 (by decide)).trans (w7_v57_6 m ρ c)

theorem w8_v57_8 (c : Dev nD) : W8 (F := Ideal) m ρ c (Proc.devRef .tc main_v57_8) = Cert.ReferenceIdeal.Read.val_main_v132 (F := Ideal) (xa m c) (ua m c) (ia m c) :=
  (W8_of_ne m ρ c main_v57_8 (by decide)).trans (w7_v57_8 m ρ c)

theorem w8_arg2 (c : Dev nD) : W8 (F := Ideal) m ρ c (Proc.devRef .tc main_arg2) = (ia m c) :=
  (W8_of_ne m ρ c main_arg2 (by decide)).trans (w7_arg2 m ρ c)

theorem w8_v114_0 (c : Dev nD) : W8 (F := Ideal) m ρ c (Proc.devRef .tc main_v114_0) = Cert.ReferenceIdeal.Read.val_main_v198 (F := Ideal) (xa m c) (ua m c) (ia m c) :=
  (W8_arr m ρ c 3).trans (Cert.Regions.region3_xuiP0 (V7 (F := Ideal) m ρ) c (xa m c) (ua m c) (ia m c) (w7_v38_0 m ρ c) (w7_v64 m ρ c) (w7_v85 m ρ c))

theorem w8_v114_1 (c : Dev nD) : W8 (F := Ideal) m ρ c (Proc.devRef .tc main_v114_1) = Cert.ReferenceIdeal.Read.val_main_v259 (F := Ideal) (xa m c) (ua m c) (ia m c) :=
  (W8_arr m ρ c 4).trans (Cert.Regions.region3_xuiP3 (V7 (F := Ideal) m ρ) c (xa m c) (ua m c) (ia m c) (w7_v38_0 m ρ c) (w7_v64 m ρ c) (w7_v85 m ρ c))

end Cert.Fold

end
-- ==== Proof.ItemEntry.lean ====
/-
  One entry of the item side of the result, as a function of the numbers it depends on.

  For an item row r and a column q the result is

      ( (a - b) + ((dot - e) - (g - d)) )  /  ( max(s1 + f, c) + max(-s2 + (n - o), c) )

  where a, b, e, d are per-entry numbers (sums over the row's edges), dot is the product of the item's
  normalised row with column q of a 64 x 64 matrix shared by all items, g is entry q of a row of 64 numbers
  shared by all items, s1 and s2 are two sums over the item's row, f and o per-row numbers, n one number
  shared by all items, and c the clamp 1e-6 (as a single-precision float). Both programs compute exactly
  this; stating it once lets each side be read to this one term.
-/
import Idealize.ShloMosaic.PureOps.Ideal

noncomputable section

namespace Cert.ItemSide

open Idealize.ShloMosaic

/-- The clamp under both halves of the denominator: the float nearest 1e-6. -/
def clamp : EReal := Ideal.ofBits .f32 0x358637BD#32

/-- One entry of the item result from the numbers it depends on. -/
def entry (a b e g d dot s1 f s2 n o : EReal) : EReal :=
  Ideal.div ((a - b) + ((dot - e) - (g - d))) (max (s1 + f) clamp + max (-s2 + (n - o)) clamp)

end Cert.ItemSide

end
-- ==== Proof.ItemBlock.lean ====
/-
  The blocked program's item-side arithmetic for one block of 2000 item rows, read at one entry.

  The body receives thirteen blocks: seven of 2000 x 64 numbers (the normalised item rows xi and six per-entry
  sums), two columns of 2000 numbers, one 64 x 64 matrix, two rows of 64 numbers and a single number; the last
  four are the same for every block, and the body spreads the rows and the number down the 2000 rows. At entry
  (p, q) of the block the stored value is the item entry of ItemEntry.lean with
    * dot = sum over k of xi (p, k) * T (k, q)        (the product with the shared matrix, started from zero),
    * s1  = sum over k of xi (p, k) * w (p, k)        (a sum along the row, started from zero),
    * s2  = sum over k of xi (p, k) * (h (0, k) - s (p, k)),
  and the kernel's 0 - s2 for the negation. Nothing here needs the numbers to be finite: a sum started from
  zero is the sum, and 0 - y = -y, on all extended reals.
-/
import proofs.«138700_j66589172957770_1_alg».proof.Proof.Gen.KernelIdeal.Skeleton
import proofs.«138700_j66589172957770_1_alg».proof.Proof.LibRowLayout
import proofs.«138700_j66589172957770_1_alg».proof.Proof.LibPlainDot
import proofs.«138700_j66589172957770_1_alg».proof.Proof.ItemEntry

noncomputable section

namespace Cert.ItemSide

open Idealize.ShloMosaic Idealize.ShloMosaic.ValueIdx Cert.KernelIdeal Cert.KernelIdeal.Gen Cert.LibRowLayout

/-- The first row sum plus its column: sum over k of xi (p, k) * w (p, k), plus f (p). -/
theorem pay11_apply (b0 b1 : Vec Ideal S2000x64 .f32) (b7 : Vec Ideal S2000x1 .f32) (p : Fin 2000) (z : Fin 1) :
    k4_pay11 b0 b1 b7 (ix2 p z) = (∑ k : Fin 64, b0 (ix2 p k) * b1 (ix2 p k)) + b7 (ix2 p z) := by
  unfold k4_pay11 k4_pay2
  simp only [shapeCast_self]
  show shapeCast S2000x1 (multiReduction (F := Ideal) .add [1] S2000 (mulf (F := Ideal) b0 b1) 0x00000000#32 reduces_S2000x64_S2000 (.inl rfl) rfl) shapeCasts_S2000_S2000x1 (ix2 p z) + b7 (ix2 p z) = _
  rw [shapeCast_a_a1_apply]
  refine congrArg (· + b7 (ix2 p z)) ?_
  exact multiReduction_row (mulf (F := Ideal) b0 b1) 0x00000000#32 reduces_S2000x64_S2000 (.inl rfl) rfl p

/-- A shared row spread down the block, minus a block: h (0, q) - s (p, q). -/
theorem pay12_apply (b6 : Vec Ideal S2000x64 .f32) (b10 : Vec Ideal S1x64 .f32) (p : Fin 2000) (q : Fin 64) :
    k4_pay12 b6 b10 (ix2 p q) = b10 (ix2 (0 : Fin 1) q) - b6 (ix2 p q) := by
  unfold k4_pay12
  simp only [shapeCast_self]
  show broadcastTo S2000x64 b10 broadcasts_S1x64_S2000x64 (ix2 p q) - b6 (ix2 p q) = _
  rw [broadcastTo_1b_ab_apply]

/-- The product of the block of item rows with the shared matrix, started from zero: sum over k of xi (p, k) * T (k, q). -/
theorem dot_apply (b0 : FVec Ideal S2000x64 .f32) (b9 : FVec Ideal S64x64 .f32) (p : Fin 2000) (q : Fin 64) :
    matmul (F := Ideal) dot_S2000x64_S64x64_S2000x64_1_0_0_1_n_n none b0 b9 (constant (F := Ideal) S2000x64 .f32 0x00000000#32) (ix2 p q)
      = ∑ k : Fin 64, b0 (ix2 p k) * b9 (ix2 k q) :=
  PlainDot.matmul_zero_apply dot_S2000x64_S64x64_S2000x64_1_0_0_1_n_n rfl rfl rfl rfl rfl rfl rfl rfl none b0 b9 p q

/-- A row sum of a block of products, kept as a column: sum over k of a (p, k) * b (p, k). -/
theorem rowsum_apply (a b : FVec Ideal S2000x64 .f32) (p : Fin 2000) (z : Fin 1) :
    shapeCast S2000x1 (multiReduction (F := Ideal) .add [1] S2000 (mulf (F := Ideal) a b) 0x00000000#32 reduces_S2000x64_S2000 (.inl rfl) rfl)
        shapeCasts_S2000_S2000x1 (ix2 p z) = ∑ k : Fin 64, a (ix2 p k) * b (ix2 p k) :=
  (shapeCast_a_a1_apply _ _ p z).trans
    (multiReduction_row (mulf (F := Ideal) a b) 0x00000000#32 reduces_S2000x64_S2000 (.inl rfl) rfl p)

/-- The stored value at entry (p, q) of the block is the item entry of the block entries. -/
theorem item_point
    (b0 b1 b2 b3 b4 b5 b6 : Vec Ideal S2000x64 .f32) (b7 b8 : Vec Ideal S2000x1 .f32) (b9 : Vec Ideal S64x64 .f32)
    (b10 : Vec Ideal S1x64 .f32) (b11 : Vec Ideal S1x1 .f32) (b12 : Vec Ideal S1x64 .f32) (p : Fin 2000) (q : Fin 64) :
    k4_pay1 (k4_pay2 b0) (k4_pay3 b2) (k4_pay4 b3) (k4_pay5 b4) (k4_pay6 b5) (k4_pay7 b8) (k4_pay8 b9) (k4_pay9 b11)
        (k4_pay10 b12) (k4_pay11 b0 b1 b7) (k4_pay12 b6 b10) (ix2 p q)
      = entry (b4 (ix2 p q)) (b2 (ix2 p q)) (b5 (ix2 p q)) (b12 (ix2 (0 : Fin 1) q)) (b3 (ix2 p q))
          (∑ k : Fin 64, b0 (ix2 p k) * b9 (ix2 k q))
          (∑ k : Fin 64, b0 (ix2 p k) * b1 (ix2 p k)) (b7 (ix2 p (0 : Fin 1)))
          (∑ k : Fin 64, b0 (ix2 p k) * (b10 (ix2 (0 : Fin 1) k) - b6 (ix2 p k)))
          (b11 (ix2 (0 : Fin 1) (0 : Fin 1))) (b8 (ix2 p (0 : Fin 1))) := by
  have e11 := pay11_apply b0 b1 b7 p (0 : Fin 1)
  have e12 : ∀ k : Fin 64, k4_pay12 b6 b10 (ix2 p k) = b10 (ix2 (0 : Fin 1) k) - b6 (ix2 p k) := fun k => pay12_apply b6 b10 p k
  generalize k4_pay11 b0 b1 b7 = v29 at e11 ⊢
  generalize k4_pay12 b6 b10 = v31 at e12 ⊢
  have hsum := rowsum_apply b0 v31 p (0 : Fin 1)
  have hdot := dot_apply b0 b9 p q
  unfold k4_pay1 k4_pay2 k4_pay3 k4_pay4 k4_pay5 k4_pay6 k4_pay7 k4_pay8 k4_pay9 k4_pay10
  simp only [shapeCast_self]
  simp only [divf_apply, addf_apply, subf_apply, maximumf_apply, broadcast_apply, broadcastTo_a1_ab_apply,
    broadcastTo_1b_ab_apply, hsum, hdot, e11, e12, mulf_apply]
  unfold entry clamp
  simp only [Ideal.ofBits_def, Ideal.ofBits_zero_f32, zero_sub]

/-- The same with every block entry named by the array entry it is: when block row p is array row r, the shared
    operands are read where they are, and each block entry the item entry uses is the matching array entry,
    the stored value at (p, q) is the item entry of the ARRAY entries at row r. -/
theorem item_point_arrays
    (b0 b1 b2 b3 b4 b5 b6 : Vec Ideal S2000x64 .f32) (b7 b8 : Vec Ideal S2000x1 .f32) (b9 : Vec Ideal S64x64 .f32)
    (b10 : Vec Ideal S1x64 .f32) (b11 : Vec Ideal S1x1 .f32) (b12 : Vec Ideal S1x64 .f32)
    (A0 A1 A2 A3 A4 A5 A6 : S50000x64.Idx → EReal) (A7 A8 : S50000x1.Idx → EReal) (A9 : S64x64.Idx → EReal)
    (A10 : S1x64.Idx → EReal) (A11 : S1x1.Idx → EReal) (A12 : S1x64.Idx → EReal)
    (p : Fin 2000) (q : Fin 64) (r : Fin 50000)
    (e0 : ∀ k : Fin 64, b0 (ix2 p k) = A0 (ix2 r k)) (e1 : ∀ k : Fin 64, b1 (ix2 p k) = A1 (ix2 r k))
    (e2 : b2 (ix2 p q) = A2 (ix2 r q)) (e3 : b3 (ix2 p q) = A3 (ix2 r q)) (e4 : b4 (ix2 p q) = A4 (ix2 r q))
    (e5 : b5 (ix2 p q) = A5 (ix2 r q)) (e6 : ∀ k : Fin 64, b6 (ix2 p k) = A6 (ix2 r k))
    (e7 : b7 (ix2 p (0 : Fin 1)) = A7 (ix2 r (0 : Fin 1))) (e8 : b8 (ix2 p (0 : Fin 1)) = A8 (ix2 r (0 : Fin 1)))
    (e9 : ∀ k : Fin 64, b9 (ix2 k q) = A9 (ix2 k q)) (e10 : ∀ k : Fin 64, b10 (ix2 (0 : Fin 1) k) = A10 (ix2 (0 : Fin 1) k))
    (e11 : b11 (ix2 (0 : Fin 1) (0 : Fin 1)) = A11 (ix2 (0 : Fin 1) (0 : Fin 1)))
    (e12 : b12 (ix2 (0 : Fin 1) q) = A12 (ix2 (0 : Fin 1) q)) :
    k4_pay1 (k4_pay2 b0) (k4_pay3 b2) (k4_pay4 b3) (k4_pay5 b4) (k4_pay6 b5) (k4_pay7 b8) (k4_pay8 b9) (k4_pay9 b11)
        (k4_pay10 b12) (k4_pay11 b0 b1 b7) (k4_pay12 b6 b10) (ix2 p q)
      = entry (A4 (ix2 r q)) (A2 (ix2 r q)) (A5 (ix2 r q)) (A12 (ix2 (0 : Fin 1) q)) (A3 (ix2 r q))
          (∑ k : Fin 64, A0 (ix2 r k) * A9 (ix2 k q))
          (∑ k : Fin 64, A0 (ix2 r k) * A1 (ix2 r k)) (A7 (ix2 r (0 : Fin 1)))
          (∑ k : Fin 64, A0 (ix2 r k) * (A10 (ix2 (0 : Fin 1) k) - A6 (ix2 r k)))
          (A11 (ix2 (0 : Fin 1) (0 : Fin 1))) (A8 (ix2 r (0 : Fin 1))) := by
  rw [item_point, e2, e3, e4, e5, e7, e8, e11, e12]
  simp only [e0, e1, e6, e9, e10]

end Cert.ItemSide

end
-- ==== Proof.ItemRef.lean ====
/-
  The plain program's item rows of the result, read at one entry.

  Entry (r, q) of the item rows is the item entry of ItemEntry.lean of the plain program's stages: the four
  per-entry sums over edges and the two per-row sums over edges read at (r, q) and (r, 0), the shared row, the
  shared number and the shared 64 x 64 matrix read at row 0, and the three sums along the row of xi written out
  over the 64 columns. The plain program starts each of its sums from the float zero and negates with a
  negation; 0 + y = y on all extended reals, so this is the same term the blocked program's body gives.
-/
import proofs.«138700_j66589172957770_1_alg».proof.Proof.Stages
import proofs.«138700_j66589172957770_1_alg».proof.Proof.ItemEntry

noncomputable section

namespace Cert.ItemSide

open Idealize.ShloMosaic Idealize.ShloMosaic.ValueIdx Cert.ReferenceIdeal Cert.ReferenceIdeal.Read Cert.Stages

/-- The first half of the denominator at row r: the sum along the row of xi * w, plus the row's edge sum. -/
theorem d1_apply (x : XArr) (u i : IArr) (r : Fin 50000) :
    val_main_v111 (F := Ideal) x u i (ix2 r (0 : Fin 1))
      = (∑ k : Fin 64, val_main_v18 (F := Ideal) x (ix2 r k) * val_main_v93 (F := Ideal) x u i (ix2 r k))
        + val_main_v110 (F := Ideal) x u i (ix2 r (0 : Fin 1)) := by
  have e95 : ∀ k : Fin 64, idx_main_v95 (idx_main_v96 (ix2 r (0 : Fin 1))) k = ix2 r k := fun k =>
    funext fun a => Fin.ext (by match a with | ⟨0, _⟩ => rfl | ⟨1, _⟩ => rfl)
  rw [val_main_v111_apply, val_main_v96_apply, val_main_v95_apply, val_main_cst_24_apply]
  show (Ideal.ofBits .f32 0x00000000#32 + _) + _ = _
  rw [Ideal.ofBits_zero_f32, zero_add]
  refine congrArg (· + val_main_v110 (F := Ideal) x u i (ix2 r (0 : Fin 1))) (Finset.sum_congr rfl fun k _ => ?_)
  rw [e95 k, val_main_v94_apply]
  rfl

/-- The second half at row r: minus the sum along the row of xi * (h - s), plus the shared number minus the
    row's edge sum. -/
theorem d2_apply (x : XArr) (u i : IArr) (r : Fin 50000) :
    val_main_v154 (F := Ideal) x u i (ix2 r (0 : Fin 1))
      = -(∑ k : Fin 64, val_main_v18 (F := Ideal) x (ix2 r k)
            * (val_main_v115 (F := Ideal) x u (ix2 (0 : Fin 1) k) - val_main_v127 (F := Ideal) x u i (ix2 r k)))
        + (val_main_v134 (F := Ideal) x u i (ix2 (0 : Fin 1) (0 : Fin 1)) - val_main_v147 (F := Ideal) x u i (ix2 r (0 : Fin 1))) := by
  have e151 : ∀ k : Fin 64, idx_main_v151 (idx_main_v152 (ix2 r (0 : Fin 1))) k = ix2 r k := fun k =>
    funext fun a => Fin.ext (by match a with | ⟨0, _⟩ => rfl | ⟨1, _⟩ => rfl)
  have e128 : ∀ k : Fin 64, idx_main_v128 (ix2 r k) = ix2 (0 : Fin 1) k := fun k =>
    funext fun a => Fin.ext (by match a with | ⟨0, _⟩ => rfl | ⟨1, _⟩ => rfl)
  have e148 : idx_main_v148 (ix2 r (0 : Fin 1)) = ix2 (0 : Fin 1) (0 : Fin 1) :=
    funext fun a => Fin.ext (by match a with | ⟨0, _⟩ => rfl | ⟨1, _⟩ => rfl)
  rw [val_main_v154_apply, val_main_v153_apply, val_main_v152_apply, val_main_v151_apply, val_main_cst_39_apply,
    val_main_v149_apply, val_main_v148_apply, e148]
  show -(Ideal.ofBits .f32 0x00000000#32 + _) + (_ - _) = _
  rw [Ideal.ofBits_zero_f32, zero_add]
  refine congrArg (fun s => -s + (val_main_v134 (F := Ideal) x u i (ix2 (0 : Fin 1) (0 : Fin 1)) - val_main_v147 (F := Ideal) x u i (ix2 r (0 : Fin 1))))
    (Finset.sum_congr rfl fun k _ => ?_)
  rw [e151 k, val_main_v150_apply, val_main_v129_apply, val_main_v128_apply, e128 k]
  rfl

/-- The numerator at (r, q): (a - b) + ((xi . T - e) - (g - d)), the product written over the 64 contracted columns. -/
theorem num_apply (x : XArr) (u i : IArr) (r : Fin 50000) (q : Fin 64) :
    val_main_v266 (F := Ideal) x u i (ix2 r q)
      = (val_main_v201 (F := Ideal) x u i (ix2 r q) - val_main_v217 (F := Ideal) x u i (ix2 r q))
        + (((∑ k : Fin 64, val_main_v18 (F := Ideal) x (ix2 r k) * val_main_v221 (F := Ideal) x u (ix2 k q))
              - val_main_v262 (F := Ideal) x u i (ix2 r q))
            - (val_main_v229 (F := Ideal) x u i (ix2 (0 : Fin 1) q) - val_main_v245 (F := Ideal) x u i (ix2 r q))) := by
  have e246 : idx_main_v246 (ix2 r q) = ix2 (0 : Fin 1) q :=
    funext fun a => Fin.ext (by match a with | ⟨0, _⟩ => rfl | ⟨1, _⟩ => rfl)
  have el : ∀ k : Fin 64, lidx_main_v248 (ix2 r q) k = ix2 r k := fun k =>
    funext fun a => Fin.ext (by match a with | ⟨0, _⟩ => rfl | ⟨1, _⟩ => rfl)
  have er : ∀ k : Fin 64, ridx_main_v248 (ix2 r q) k = ix2 k q := fun k =>
    funext fun a => Fin.ext (by match a with | ⟨0, _⟩ => rfl | ⟨1, _⟩ => rfl)
  rw [val_main_v266_apply, val_main_v218_apply, val_main_v264_apply, val_main_v263_apply, val_main_v248_apply,
    val_main_v247_apply, val_main_v246_apply, e246]
  have hs : (∑ k : Fin 64, val_main_v18 (F := Ideal) x (lidx_main_v248 (ix2 r q) k) * val_main_v221 (F := Ideal) x u (ridx_main_v248 (ix2 r q) k))
      = ∑ k : Fin 64, val_main_v18 (F := Ideal) x (ix2 r k) * val_main_v221 (F := Ideal) x u (ix2 k q) :=
    Finset.sum_congr rfl fun k _ => by rw [el k, er k]
  rw [hs]
  rfl

/-- Entry (r, q) of the item rows of the result, from the stages it is computed from. -/
theorem outI_apply (x : XArr) (u i : IArr) (r : Fin 50000) (q : Fin 64) :
    outI x u i (ix2 r q) = entry
      (val_main_v201 (F := Ideal) x u i (ix2 r q)) (val_main_v217 (F := Ideal) x u i (ix2 r q))
      (val_main_v262 (F := Ideal) x u i (ix2 r q)) (val_main_v229 (F := Ideal) x u i (ix2 (0 : Fin 1) q))
      (val_main_v245 (F := Ideal) x u i (ix2 r q))
      (∑ k : Fin 64, val_main_v18 (F := Ideal) x (ix2 r k) * val_main_v221 (F := Ideal) x u (ix2 k q))
      (∑ k : Fin 64, val_main_v18 (F := Ideal) x (ix2 r k) * val_main_v93 (F := Ideal) x u i (ix2 r k))
      (val_main_v110 (F := Ideal) x u i (ix2 r (0 : Fin 1)))
      (∑ k : Fin 64, val_main_v18 (F := Ideal) x (ix2 r k)
          * (val_main_v115 (F := Ideal) x u (ix2 (0 : Fin 1) k) - val_main_v127 (F := Ideal) x u i (ix2 r k)))
      (val_main_v134 (F := Ideal) x u i (ix2 (0 : Fin 1) (0 : Fin 1)))
      (val_main_v147 (F := Ideal) x u i (ix2 r (0 : Fin 1))) := by
  have eC : colI (ix2 r q) = ix2 r (0 : Fin 1) :=
    funext fun a => Fin.ext (by match a with | ⟨0, _⟩ => rfl | ⟨1, _⟩ => rfl)
  show FloatOps.hostDivf (F := Ideal) (val_main_v266 (F := Ideal) x u i (ix2 r q))
      (FloatOps.addf (F := Ideal) (FloatOps.maximumf (F := Ideal) (val_main_v111 (F := Ideal) x u i (colI (ix2 r q))) clampC)
        (FloatOps.maximumf (F := Ideal) (val_main_v154 (F := Ideal) x u i (colI (ix2 r q))) clampC)) = _
  rw [eC, num_apply, d1_apply, d2_apply]
  rfl

end Cert.ItemSide

end
-- ==== Proof.ItemWindows.lean ====
/-
  The item side, block by block.

  The item rows of the result (50000 rows of 64) are written in 25 blocks of 2000 rows. At grid point t the
  body receives rows 2000 t .. 2000 t + 1999 of nine arrays (seven of width 64, two columns) and, unchanged from
  point to point, a 64 x 64 matrix, two rows of 64 numbers and one number. This module reads each of the thirteen
  input blocks at an entry as the array entry under it, places the output block in the output array, and
  concludes that what point t writes back is block t of the item rows of the result (the blocked arithmetic at
  the block entries and the plain program's stages at the array entries are the same item entry); since the 25
  blocks tile the 50000 rows, every row is written.
-/
import proofs.«138700_j66589172957770_1_alg».proof.Proof.Gen.KernelIdeal.Frame
import proofs.«138700_j66589172957770_1_alg».proof.Proof.Stages
import proofs.«138700_j66589172957770_1_alg».proof.Proof.ItemBlock
import proofs.«138700_j66589172957770_1_alg».proof.Proof.ItemRef

set_option maxRecDepth 16384

noncomputable section

namespace Cert.ItemSide

open Idealize.ShloMosaic Idealize.ShloMosaic.TcCoe Idealize.SL.Sem Idealize.ShloMosaic.ValueIdx
open Cert.KernelIdeal Cert.KernelIdeal.Gen Cert.Stages

variable (V : (c : Dev nD) → (b : Ref sig .tc) → Buf (Elt Ideal) ((c : Thread nD τ).loc b))

theorem hz : (![0, 0] : Fin 2 → Nat) = fun _ => 0 := funext fun a => by fin_cases a <;> rfl

/-! ## Where the blocks sit

The grid has 25 points. At point t the nine row-blocked inputs and the output hold rows 2000 t .. 2000 t + 1999
of their arrays (block row t, the one column block); the four shared inputs hold their whole array at every point.
The printed index maps are evaluated once over the 25 points. -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = t.val ∧ win4_3.index t (1 : Fin 2) = 0 :=
  (by decide +kernel : ∀ t : Fin grid4.N, _)
theorem idx4_4 : ∀ t : Fin cfg4.N, win4_4.index t (0 : Fin 2) = t.val ∧ win4_4.index t (1 : Fin 2) = 0 :=
  (by decide +kernel : ∀ t : Fin grid4.N, _)
theorem idx4_5 : ∀ t : Fin cfg4.N, win4_5.index t (0 : Fin 2) = t.val ∧ win4_5.index t (1 : Fin 2) = 0 :=
  (by decide +kernel : ∀ t : Fin grid4.N, _)
theorem idx4_6 : ∀ t : Fin cfg4.N, win4_6.index t (0 : Fin 2) = t.val ∧ win4_6.index t (1 : Fin 2) = 0 :=
  (by decide +kernel : ∀ t : Fin grid4.N, _)
theorem idx4_7 : ∀ t : Fin cfg4.N, win4_7.index t (0 : Fin 2) = t.val ∧ win4_7.index t (1 : Fin 2) = 0 :=
  (by decide +kernel : ∀ t : Fin grid4.N, _)
theorem idx4_8 : ∀ t : Fin cfg4.N, win4_8.index t (0 : Fin 2) = t.val ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)
theorem idx4_10 : ∀ t : Fin cfg4.N, win4_10.index t (0 : Fin 2) = 0 ∧ win4_10.index t (1 : Fin 2) = 0 :=
  (by decide +kernel : ∀ t : Fin grid4.N, _)
theorem idx4_11 : ∀ t : Fin cfg4.N, win4_11.index t (0 : Fin 2) = 0 ∧ win4_11.index t (1 : Fin 2) = 0 :=
  (by decide +kernel : ∀ t : Fin grid4.N, _)
theorem idx4_12 : ∀ t : Fin cfg4.N, win4_12.index t (0 : Fin 2) = 0 ∧ win4_12.index t (1 : Fin 2) = 0 :=
  (by decide +kernel : ∀ t : Fin grid4.N, _)
theorem idx4_13 : ∀ t : Fin cfg4.N, win4_13.index t (0 : Fin 2) = t.val ∧ win4_13.index t (1 : Fin 2) = 0 :=
  (by decide +kernel : ∀ t : Fin grid4.N, _)

/-! ## Each input block read at an entry -/

/-- Input 0: entry (p, k) of the block at point t is entry (2000 t + p, k) of its array. -/
theorem blk4_0 (c : Dev nD) (A : (⟨S50000x64, .f32⟩ : BufTy).Contents (Elt Ideal)) (hA : V c main_v14 = A)
    (t : Fin cfg4.N) (p : Fin 2000) (k : Fin 64) (r : Fin 50000) (hr : r.val = t.val * 2000 + p.val) :
    (iblk4 (F := Ideal) V c 0 t : Vec Ideal S2000x64 .f32) (ix2 p k) = A (ix2 r k) := by
  subst hA
  unfold iblk4
  rw [View.read_apply]
  show (V c main_v14 : S50000x64.Idx → Elt Ideal .f32) _ = (V c main_v14 : S50000x64.Idx → Elt Ideal .f32) _
  refine congrArg _ (funext fun ax => Fin.ext ?_)
  obtain ⟨e0, e1⟩ := idx4_0 t
  match ax with
  | ⟨0, _⟩ => show win4_0.index t (0 : Fin 2) * 2000 + 1 * p.val = r.val; rw [e0, hr]; omega
  | ⟨1, _⟩ => show win4_0.index t (1 : Fin 2) * 64 + 1 * k.val = k.val; rw [e1]; omega

/-- Input 1: entry (p, k) of the block at point t is entry (2000 t + p, k) of its array. -/
theorem blk4_1 (c : Dev nD) (A : (⟨S50000x64, .f32⟩ : BufTy).Contents (Elt Ideal)) (hA : V c main_v117 = A)
    (t : Fin cfg4.N) (p : Fin 2000) (k : Fin 64) (r : Fin 50000) (hr : r.val = t.val * 2000 + p.val) :
    (iblk4 (F := Ideal) V c 1 t : Vec Ideal S2000x64 .f32) (ix2 p k) = A (ix2 r k) := by
  subst hA
  unfold iblk4
  rw [View.read_apply]
  show (V c main_v117 : S50000x64.Idx → Elt Ideal .f32) _ = (V c main_v117 : S50000x64.Idx → Elt Ideal .f32) _
  refine congrArg _ (funext fun ax => Fin.ext ?_)
  obtain ⟨e0, e1⟩ := idx4_1 t
  match ax with
  | ⟨0, _⟩ => show win4_1.index t (0 : Fin 2) * 2000 + 1 * p.val = r.val; rw [e0, hr]; omega
  | ⟨1, _⟩ => show win4_1.index t (1 : Fin 2) * 64 + 1 * k.val = k.val; rw [e1]; omega

/-- Input 2: entry (p, k) of the block at point t is entry (2000 t + p, k) of its array. -/
theorem blk4_2 (c : Dev nD) (A : (⟨S50000x64, .f32⟩ : BufTy).Contents (Elt Ideal)) (hA : V c main_v123 = A)
    (t : Fin cfg4.N) (p : Fin 2000) (k : Fin 64) (r : Fin 50000) (hr : r.val = t.val * 2000 + p.val) :
    (iblk4 (F := Ideal) V c 2 t : Vec Ideal S2000x64 .f32) (ix2 p k) = A (ix2 r k) := by
  subst hA
  unfold iblk4
  rw [View.read_apply]
  show (V c main_v123 : S50000x64.Idx → Elt Ideal .f32) _ = (V c main_v123 : S50000x64.Idx → Elt Ideal .f32) _
  refine congrArg _ (funext fun ax => Fin.ext ?_)
  obtain ⟨e0, e1⟩ := idx4_2 t
  match ax with
  | ⟨0, _⟩ => show win4_2.index t (0 : Fin 2) * 2000 + 1 * p.val = r.val; rw [e0, hr]; omega
  | ⟨1, _⟩ => show win4_2.index t (1 : Fin 2) * 64 + 1 * k.val = k.val; rw [e1]; omega

/-- Input 3: entry (p, k) of the block at point t is entry (2000 t + p, k) of its array. -/
theorem blk4_3 (c : Dev nD) (A : (⟨S50000x64, .f32⟩ : BufTy).Contents (Elt Ideal)) (hA : V c main_v126 = A)
    (t : Fin cfg4.N) (p : Fin 2000) (k : Fin 64) (r : Fin 50000) (hr : r.val = t.val * 2000 + p.val) :
    (iblk4 (F := Ideal) V c 3 t : Vec Ideal S2000x64 .f32) (ix2 p k) = A (ix2 r k) := by
  subst hA
  unfold iblk4
  rw [View.read_apply]
  show (V c main_v126 : S50000x64.Idx → Elt Ideal .f32) _ = (V c main_v126 : S50000x64.Idx → Elt Ideal .f32) _
  refine congrArg _ (funext fun ax => Fin.ext ?_)
  obtain ⟨e0, e1⟩ := idx4_3 t
  match ax with
  | ⟨0, _⟩ => show win4_3.index t (0 : Fin 2) * 2000 + 1 * p.val = r.val; rw [e0, hr]; omega
  | ⟨1, _⟩ => show win4_3.index t (1 : Fin 2) * 64 + 1 * k.val = k.val; rw [e1]; omega

/-- Input 4: entry (p, k) of the block at point t is entry (2000 t + p, k) of its array. -/
theorem blk4_4 (c : Dev nD) (A : (⟨S50000x64, .f32⟩ : BufTy).Contents (Elt Ideal)) (hA : V c main_v135 = A)
    (t : Fin cfg4.N) (p : Fin 2000) (k : Fin 64) (r : Fin 50000) (hr : r.val = t.val * 2000 + p.val) :
    (iblk4 (F := Ideal) V c 4 t : Vec Ideal S2000x64 .f32) (ix2 p k) = A (ix2 r k) := by
  subst hA
  unfold iblk4
  rw [View.read_apply]
  show (V c main_v135 : S50000x64.Idx → Elt Ideal .f32) _ = (V c main_v135 : S50000x64.Idx → Elt Ideal .f32) _
  refine congrArg _ (funext fun ax => Fin.ext ?_)
  obtain ⟨e0, e1⟩ := idx4_4 t
  match ax with
  | ⟨0, _⟩ => show win4_4.index t (0 : Fin 2) * 2000 + 1 * p.val = r.val; rw [e0, hr]; omega
  | ⟨1, _⟩ => show win4_4.index t (1 : Fin 2) * 64 + 1 * k.val = k.val; rw [e1]; omega

/-- Input 5: entry (p, k) of the block at point t is entry (2000 t + p, k) of its array. -/
theorem blk4_5 (c : Dev nD) (A : (⟨S50000x64, .f32⟩ : BufTy).Contents (Elt Ideal)) (hA : V c main_v138 = A)
    (t : Fin cfg4.N) (p : Fin 2000) (k : Fin 64) (r : Fin 50000) (hr : r.val = t.val * 2000 + p.val) :
    (iblk4 (F := Ideal) V c 5 t : Vec Ideal S2000x64 .f32) (ix2 p k) = A (ix2 r k) := by
  subst hA
  unfold iblk4
  rw [View.read_apply]
  show (V c main_v138 : S50000x64.Idx → Elt Ideal .f32) _ = (V c main_v138 : S50000x64.Idx → Elt Ideal .f32) _
  refine congrArg _ (funext fun ax => Fin.ext ?_)
  obtain ⟨e0, e1⟩ := idx4_5 t
  match ax with
  | ⟨0, _⟩ => show win4_5.index t (0 : Fin 2) * 2000 + 1 * p.val = r.val; rw [e0, hr]; omega
  | ⟨1, _⟩ => show win4_5.index t (1 : Fin 2) * 64 + 1 * k.val = k.val; rw [e1]; omega

/-- Input 6: entry (p, k) of the block at point t is entry (2000 t + p, k) of its array. -/
theorem blk4_6 (c : Dev nD) (A : (⟨S50000x64, .f32⟩ : BufTy).Contents (Elt Ideal)) (hA : V c main_v120 = A)
    (t : Fin cfg4.N) (p : Fin 2000) (k : Fin 64) (r : Fin 50000) (hr : r.val = t.val * 2000 + p.val) :
    (iblk4 (F := Ideal) V c 6 t : Vec Ideal S2000x64 .f32) (ix2 p k) = A (ix2 r k) := by
  subst hA
  unfold iblk4
  rw [View.read_apply]
  show (V c main_v120 : S50000x64.Idx → Elt Ideal .f32) _ = (V c main_v120 : S50000x64.Idx → Elt Ideal .f32) _
  refine congrArg _ (funext fun ax => Fin.ext ?_)
  obtain ⟨e0, e1⟩ := idx4_6 t
  match ax with
  | ⟨0, _⟩ => show win4_6.index t (0 : Fin 2) * 2000 + 1 * p.val = r.val; rw [e0, hr]; omega
  | ⟨1, _⟩ => show win4_6.index t (1 : Fin 2) * 64 + 1 * k.val = k.val; rw [e1]; omega

/-- Input 7: entry (p, k) of the block at point t is entry (2000 t + p, k) of its array. -/
theorem blk4_7 (c : Dev nD) (A : (⟨S50000x1, .f32⟩ : BufTy).Contents (Elt Ideal)) (hA : V c main_v129 = A)
    (t : Fin cfg4.N) (p : Fin 2000) (k : Fin 1) (r : Fin 50000) (hr : r.val = t.val * 2000 + p.val) :
    (iblk4 (F := Ideal) V c 7 t : Vec Ideal S2000x1 .f32) (ix2 p k) = A (ix2 r k) := by
  subst hA
  unfold iblk4
  rw [View.read_apply]
  show (V c main_v129 : S50000x1.Idx → Elt Ideal .f32) _ = (V c main_v129 : S50000x1.Idx → Elt Ideal .f32) _
  refine congrArg _ (funext fun ax => Fin.ext ?_)
  obtain ⟨e0, e1⟩ := idx4_7 t
  match ax with
  | ⟨0, _⟩ => show win4_7.index t (0 : Fin 2) * 2000 + 1 * p.val = r.val; rw [e0, hr]; omega
  | ⟨1, _⟩ => show win4_7.index t (1 : Fin 2) * 1 + 1 * k.val = k.val; rw [e1]; omega

/-- Input 8: entry (p, k) of the block at point t is entry (2000 t + p, k) of its array. -/
theorem blk4_8 (c : Dev nD) (A : (⟨S50000x1, .f32⟩ : BufTy).Contents (Elt Ideal)) (hA : V c main_v132 = A)
    (t : Fin cfg4.N) (p : Fin 2000) (k : Fin 1) (r : Fin 50000) (hr : r.val = t.val * 2000 + p.val) :
    (iblk4 (F := Ideal) V c 8 t : Vec Ideal S2000x1 .f32) (ix2 p k) = A (ix2 r k) := by
  subst hA
  unfold iblk4
  rw [View.read_apply]
  show (V c main_v132 : S50000x1.Idx → Elt Ideal .f32) _ = (V c main_v132 : S50000x1.Idx → Elt Ideal .f32) _
  refine congrArg _ (funext fun ax => Fin.ext ?_)
  obtain ⟨e0, e1⟩ := idx4_8 t
  match ax with
  | ⟨0, _⟩ => show win4_8.index t (0 : Fin 2) * 2000 + 1 * p.val = r.val; rw [e0, hr]; omega
  | ⟨1, _⟩ => show win4_8.index t (1 : Fin 2) * 1 + 1 * k.val = k.val; rw [e1]; omega

/-- Input 9, the same at every point: the block is the whole array. -/
theorem blk4_9 (c : Dev nD) (A : (⟨S64x64, .f32⟩ : BufTy).Contents (Elt Ideal)) (hA : V c main_v141 = A)
    (t : Fin cfg4.N) (a : Fin 64) (k : Fin 64) :
    (iblk4 (F := Ideal) V c 9 t : Vec Ideal S64x64 .f32) (ix2 a k) = A (ix2 a k) := by
  subst hA
  unfold iblk4
  rw [View.read_apply]
  show (V c main_v141 : S64x64.Idx → Elt Ideal .f32) _ = (V c main_v141 : S64x64.Idx → Elt Ideal .f32) _
  refine congrArg _ (funext fun ax => Fin.ext ?_)
  obtain ⟨e0, e1⟩ := idx4_9 t
  match ax with
  | ⟨0, _⟩ => show win4_9.index t (0 : Fin 2) * 64 + 1 * a.val = a.val; rw [e0]; omega
  | ⟨1, _⟩ => show win4_9.index t (1 : Fin 2) * 64 + 1 * k.val = k.val; rw [e1]; omega

/-- Input 10, the same at every point: the block is the whole array. -/
theorem blk4_10 (c : Dev nD) (A : (⟨S1x64, .f32⟩ : BufTy).Contents (Elt Ideal)) (hA : V c main_v143 = A)
    (t : Fin cfg4.N) (a : Fin 1) (k : Fin 64) :
    (iblk4 (F := Ideal) V c 10 t : Vec Ideal S1x64 .f32) (ix2 a k) = A (ix2 a k) := by
  subst hA
  unfold iblk4
  rw [View.read_apply]
  show (V c main_v143 : S1x64.Idx → Elt Ideal .f32) _ = (V c main_v143 : S1x64.Idx → Elt Ideal .f32) _
  refine congrArg _ (funext fun ax => Fin.ext ?_)
  obtain ⟨e0, e1⟩ := idx4_10 t
  match ax with
  | ⟨0, _⟩ => show win4_10.index t (0 : Fin 2) * 1 + 1 * a.val = a.val; rw [e0]; omega
  | ⟨1, _⟩ => show win4_10.index t (1 : Fin 2) * 64 + 1 * k.val = k.val; rw [e1]; omega

/-- Input 11, the same at every point: the block is the whole array. -/
theorem blk4_11 (c : Dev nD) (A : (⟨S1x1, .f32⟩ : BufTy).Contents (Elt Ideal)) (hA : V c main_v145 = A)
    (t : Fin cfg4.N) (a : Fin 1) (k : Fin 1) :
    (iblk4 (F := Ideal) V c 11 t : Vec Ideal S1x1 .f32) (ix2 a k) = A (ix2 a k) := by
  subst hA
  unfold iblk4
  rw [View.read_apply]
  show (V c main_v145 : S1x1.Idx → Elt Ideal .f32) _ = (V c main_v145 : S1x1.Idx → Elt Ideal .f32) _
  refine congrArg _ (funext fun ax => Fin.ext ?_)
  obtain ⟨e0, e1⟩ := idx4_11 t
  match ax with
  | ⟨0, _⟩ => show win4_11.index t (0 : Fin 2) * 1 + 1 * a.val = a.val; rw [e0]; omega
  | ⟨1, _⟩ => show win4_11.index t (1 : Fin 2) * 1 + 1 * k.val = k.val; rw [e1]; omega

/-- Input 12, the same at every point: the block is the whole array. -/
theorem blk4_12 (c : Dev nD) (A : (⟨S1x64, .f32⟩ : BufTy).Contents (Elt Ideal)) (hA : V c main_v147 = A)
    (t : Fin cfg4.N) (a : Fin 1) (k : Fin 64) :
    (iblk4 (F := Ideal) V c 12 t : Vec Ideal S1x64 .f32) (ix2 a k) = A (ix2 a k) := by
  subst hA
  unfold iblk4
  rw [View.read_apply]
  show (V c main_v147 : S1x64.Idx → Elt Ideal .f32) _ = (V c main_v147 : S1x64.Idx → Elt Ideal .f32) _
  refine congrArg _ (funext fun ax => Fin.ext ?_)
  obtain ⟨e0, e1⟩ := idx4_12 t
  match ax with
  | ⟨0, _⟩ => show win4_12.index t (0 : Fin 2) * 1 + 1 * a.val = a.val; rw [e0]; omega
  | ⟨1, _⟩ => show win4_12.index t (1 : Fin 2) * 64 + 1 * k.val = k.val; rw [e1]; omega

/-! ## The output block -/

/-- Entry (p, q) of the output block at point t sits at entry (2000 t + p, q) of the output array. -/
theorem emb13 (t : Fin cfg4.N) (p : Fin 2000) (q : Fin 64) (r : Fin 50000) (hr : r.val = t.val * 2000 + p.val) :
    ((cfg4.win 13).blk t).view.emb (ix2 p q) = (ix2 r q : S50000x64.Idx) := by
  funext ax
  apply Fin.ext
  obtain ⟨e0, e1⟩ := idx4_13 t
  match ax with
  | ⟨0, _⟩ => show win4_13.index t (0 : Fin 2) * 2000 + 1 * p.val = r.val; rw [e0, hr]; omega
  | ⟨1, _⟩ => show win4_13.index t (1 : Fin 2) * 64 + 1 * q.val = q.val; rw [e1]; omega

/-- What the body stores at an entry of the block at point t is the item rows of the result at the array entry
    under it: the blocked arithmetic at the block entries is the item entry of the array entries of row
    2000 t + p, and so is the plain program's. -/
theorem point (c : Dev nD) (x : XArr) (u i : IArr)
    (h0 : V c main_v14 = Cert.ReferenceIdeal.Read.val_main_v18 (F := Ideal) x)
    (h1 : V c main_v117 = Cert.ReferenceIdeal.Read.val_main_v93 (F := Ideal) x u i)
    (h2 : V c main_v123 = Cert.ReferenceIdeal.Read.val_main_v217 (F := Ideal) x u i)
    (h3 : V c main_v126 = Cert.ReferenceIdeal.Read.val_main_v245 (F := Ideal) x u i)
    (h4 : V c main_v135 = Cert.ReferenceIdeal.Read.val_main_v201 (F := Ideal) x u i)
    (h5 : V c main_v138 = Cert.ReferenceIdeal.Read.val_main_v262 (F := Ideal) x u i)
    (h6 : V c main_v120 = Cert.ReferenceIdeal.Read.val_main_v127 (F := Ideal) x u i)
    (h7 : V c main_v129 = Cert.ReferenceIdeal.Read.val_main_v110 (F := Ideal) x u i)
    (h8 : V c main_v132 = Cert.ReferenceIdeal.Read.val_main_v147 (F := Ideal) x u i)
    (h9 : V c main_v141 = Cert.ReferenceIdeal.Read.val_main_v221 (F := Ideal) x u)
    (h10 : V c main_v143 = Cert.ReferenceIdeal.Read.val_main_v115 (F := Ideal) x u)
    (h11 : V c main_v145 = Cert.ReferenceIdeal.Read.val_main_v134 (F := Ideal) x u i)
    (h12 : V c main_v147 = Cert.ReferenceIdeal.Read.val_main_v229 (F := Ideal) x u i)
    (t : Fin cfg4.N) (j : S2000x64.Idx) :
    k4_pay1 (k4_pay2 (iblk4 V c 0 t)) (k4_pay3 (iblk4 V c 2 t)) (k4_pay4 (iblk4 V c 3 t)) (k4_pay5 (iblk4 V c 4 t))
        (k4_pay6 (iblk4 V c 5 t)) (k4_pay7 (iblk4 V c 8 t)) (k4_pay8 (iblk4 V c 9 t)) (k4_pay9 (iblk4 V c 11 t))
        (k4_pay10 (iblk4 V c 12 t)) (k4_pay11 (iblk4 V c 0 t) (iblk4 V c 1 t) (iblk4 V c 7 t))
        (k4_pay12 (iblk4 V c 6 t) (iblk4 V c 10 t)) j
      = Cert.Stages.outI x u i (((cfg4.win 13).blk t).view.emb j) := by
  obtain ⟨p, q, rfl⟩ : ∃ (p : Fin 2000) (q : Fin 64), j = ix2 p q := ⟨j 0, j 1, eq_ix2 j⟩
  have hN : cfg4.N = 25 := N_4
  have ht : t.val < 25 := hN ▸ t.isLt
  have hp : p.val < 2000 := p.isLt
  obtain ⟨r, hr⟩ : ∃ r : Fin 50000, r.val = t.val * 2000 + p.val := ⟨⟨t.val * 2000 + p.val, by omega⟩, rfl⟩
  rw [emb13 t p q r hr, Cert.ItemSide.outI_apply]
  exact Cert.ItemSide.item_point_arrays (iblk4 V c 0 t) (iblk4 V c 1 t) (iblk4 V c 2 t) (iblk4 V c 3 t) (iblk4 V c 4 t)
    (iblk4 V c 5 t) (iblk4 V c 6 t) (iblk4 V c 7 t) (iblk4 V c 8 t) (iblk4 V c 9 t) (iblk4 V c 10 t) (iblk4 V c 11 t)
    (iblk4 V c 12 t) _ _ _ _ _ _ _ _ _ _ _ _ _ p q r
    (fun k => blk4_0 V c _ h0 t p k r hr) (fun k => blk4_1 V c _ h1 t p k r hr)
    (blk4_2 V c _ h2 t p q r hr) (blk4_3 V c _ h3 t p q r hr) (blk4_4 V c _ h4 t p q r hr) (blk4_5 V c _ h5 t p q r hr)
    (fun k => blk4_6 V c _ h6 t p k r hr) (blk4_7 V c _ h7 t p 0 r hr) (blk4_8 V c _ h8 t p 0 r hr)
    (fun k => blk4_9 V c _ h9 t k q) (fun k => blk4_10 V c _ h10 t 0 k) (blk4_11 V c _ h11 t 0 0) (blk4_12 V c _ h12 t 0 q)

/-- What point t writes back is block t of the item rows of the result. -/
theorem flushed13 (c : Dev nD) (x : XArr) (u i : IArr)
    (h0 : V c main_v14 = Cert.ReferenceIdeal.Read.val_main_v18 (F := Ideal) x)
    (h1 : V c main_v117 = Cert.ReferenceIdeal.Read.val_main_v93 (F := Ideal) x u i)
    (h2 : V c main_v123 = Cert.ReferenceIdeal.Read.val_main_v217 (F := Ideal) x u i)
    (h3 : V c main_v126 = Cert.ReferenceIdeal.Read.val_main_v245 (F := Ideal) x u i)
    (h4 : V c main_v135 = Cert.ReferenceIdeal.Read.val_main_v201 (F := Ideal) x u i)
    (h5 : V c main_v138 = Cert.ReferenceIdeal.Read.val_main_v262 (F := Ideal) x u i)
    (h6 : V c main_v120 = Cert.ReferenceIdeal.Read.val_main_v127 (F := Ideal) x u i)
    (h7 : V c main_v129 = Cert.ReferenceIdeal.Read.val_main_v110 (F := Ideal) x u i)
    (h8 : V c main_v132 = Cert.ReferenceIdeal.Read.val_main_v147 (F := Ideal) x u i)
    (h9 : V c main_v141 = Cert.ReferenceIdeal.Read.val_main_v221 (F := Ideal) x u)
    (h10 : V c main_v143 = Cert.ReferenceIdeal.Read.val_main_v115 (F := Ideal) x u)
    (h11 : V c main_v145 = Cert.ReferenceIdeal.Read.val_main_v134 (F := Ideal) x u i)
    (h12 : V c main_v147 = Cert.ReferenceIdeal.Read.val_main_v229 (F := Ideal) x u i)
    (t : Fin cfg4.N) :
    (dat4 (F := Ideal) V c).flushed 13 t = ((cfg4.win 13).blk t).view.read (Elt Ideal) (Cert.Stages.outI x u i) := by
  show (cfg4.win 13).cut (grid4.coords t) ((dat4 V c).after 13 t) = _
  rw [after4_13]
  unfold out4_13
  rw [View.canon_unit_zero hz]
  simp only [View.ld_unit_zero (S := S2000x64) hz, View.ld_unit_zero (S := S2000x1) hz, View.ld_unit_zero (S := S64x64) hz,
    View.ld_unit_zero (S := S1x64) hz, View.ld_unit_zero (S := S1x1) hz]
  funext j
  exact point V c x u i h0 h1 h2 h3 h4 h5 h6 h7 h8 h9 h10 h11 h12 t j

/-- An index of the output array is in point t's block iff each coordinate is in the block's range on its axis. -/
theorem mem_blk13 (t : Fin cfg4.N) (i : S50000x64.Idx) :
    i ∈ ((cfg4.win 13).blk t).view.set ↔ ∀ a : Fin 2, win4_13.index t a * S2000x64.size a ≤ (i a).val
      ∧ (i a).val < win4_13.index t a * S2000x64.size a + S2000x64.size a := by
  show i ∈ ((View.whole main_v148).slice (win4_13.rect t)).set ↔ _
  rw [View.set_slice_whole, Rect.mem_set_unit]
  exact Iff.rfl

/-- The 25 blocks of 2000 rows tile the 50000 rows: row r is in the block of point r / 2000. -/
theorem cover13 (i : S50000x64.Idx) :
    ∃ t : Fin cfg4.N, (cfg4.win 13).flush t = true ∧ i ∈ ((cfg4.win 13).blk t).view.set := by
  have hi0 : (i 0).val < 50000 := (i 0).isLt
  have hi1 : (i 1).val < 64 := (i 1).isLt
  have hN : cfg4.N = 25 := N_4
  obtain ⟨t, ht⟩ : ∃ t : Fin cfg4.N, t.val = (i 0).val / 2000 := ⟨⟨(i 0).val / 2000, by rw [hN]; omega⟩, rfl⟩
  refine ⟨t, flush4_13 t, ?_⟩
  rw [mem_blk13]
  obtain ⟨e0, e1⟩ := idx4_13 t
  intro a
  match a with
  | ⟨0, _⟩ =>
    show win4_13.index t (0 : Fin 2) * 2000 ≤ (i 0).val ∧ (i 0).val < win4_13.index t (0 : Fin 2) * 2000 + 2000
    rw [e0, ht]; omega
  | ⟨1, _⟩ =>
    show win4_13.index t (1 : Fin 2) * 64 ≤ (i 1).val ∧ (i 1).val < win4_13.index t (1 : Fin 2) * 64 + 64
    rw [e1]; omega

end Cert.ItemSide

end
-- ==== Proof.Region4.lean ====
/-
  Region 4, the item side: if the thirteen input arrays of the region are the stages of the plain program they
  are meant to be (the normalised item rows, the per-item sums over edges, and the four operands shared by all
  items), then after the region the output array is the item rows of the result. Each of the 25 grid points
  writes back its block of 2000 rows of that array, and the blocks tile the 50000 rows.
-/
import proofs.«138700_j66589172957770_1_alg».proof.Proof.Gen.KernelIdeal.Frame
import proofs.«138700_j66589172957770_1_alg».proof.Proof.Stages
import proofs.«138700_j66589172957770_1_alg».proof.Proof.ItemWindows

set_option maxRecDepth 16384

noncomputable section

namespace Cert.Regions

open Idealize.ShloMosaic Idealize.ShloMosaic.TcCoe Idealize.SL.Sem
open Cert.KernelIdeal Cert.KernelIdeal.Gen Cert.Stages

variable (V : (c : Dev nD) → (b : Ref sig .tc) → Buf (Elt Ideal) ((c : Thread nD τ).loc b))

theorem region4_outI (c : Dev nD) (x : XArr) (u i : IArr)
    (h0 : V c main_v14 = Cert.ReferenceIdeal.Read.val_main_v18 (F := Ideal) x)
    (h1 : V c main_v117 = Cert.ReferenceIdeal.Read.val_main_v93 (F := Ideal) x u i)
    (h2 : V c main_v123 = Cert.ReferenceIdeal.Read.val_main_v217 (F := Ideal) x u i)
    (h3 : V c main_v126 = Cert.ReferenceIdeal.Read.val_main_v245 (F := Ideal) x u i)
    (h4 : V c main_v135 = Cert.ReferenceIdeal.Read.val_main_v201 (F := Ideal) x u i)
    (h5 : V c main_v138 = Cert.ReferenceIdeal.Read.val_main_v262 (F := Ideal) x u i)
    (h6 : V c main_v120 = Cert.ReferenceIdeal.Read.val_main_v127 (F := Ideal) x u i)
    (h7 : V c main_v129 = Cert.ReferenceIdeal.Read.val_main_v110 (F := Ideal) x u i)
    (h8 : V c main_v132 = Cert.ReferenceIdeal.Read.val_main_v147 (F := Ideal) x u i)
    (h9 : V c main_v141 = Cert.ReferenceIdeal.Read.val_main_v221 (F := Ideal) x u)
    (h10 : V c main_v143 = Cert.ReferenceIdeal.Read.val_main_v115 (F := Ideal) x u)
    (h11 : V c main_v145 = Cert.ReferenceIdeal.Read.val_main_v134 (F := Ideal) x u i)
    (h12 : V c main_v147 = Cert.ReferenceIdeal.Read.val_main_v229 (F := Ideal) x u i) :
    (dat4 (F := Ideal) V c).arrAt 13 cfg4.N = Cert.Stages.outI x u i :=
  (dat4 (F := Ideal) V c).arrAt_eq_of_cover 13 (Cert.Stages.outI x u i)
    (fun t _ => Cert.ItemSide.flushed13 V c x u i h0 h1 h2 h3 h4 h5 h6 h7 h8 h9 h10 h11 h12 t) Cert.ItemSide.cover13

end Cert.Regions

end
-- ==== Proof.Final.lean ====
/-
  The last step. The blocked program finishes the user rows and the item rows separately, each numerator over
  its own denominator, and then joins them along the rows; the plain program joins the numerators, joins each
  of the two denominator columns, clamps, adds, spreads the column along the rows and divides once. Read at
  a row below n = 100000 every join returns its first piece at that row, and from n on its second piece at
  the row less n, so index by index both are the same quotient.
-/
import proofs.«138700_j66589172957770_1_alg».proof.Proof.Stages
import Idealize.ShloMosaic.Lib.Pipeline.Value

set_option maxRecDepth 16384

noncomputable section

namespace Cert.Final

open Idealize.ShloMosaic Cert.ReferenceIdeal Cert.ReferenceIdeal.Gen Cert.ReferenceIdeal.Read Cert.Stages

/-- Row r < n of the joined array, as a row of the user part. -/
abbrev rowU (j : S150000x64.Idx) (h : (j 0).val < 100000) : S100000x64.Idx := fun a => match a with
  | ⟨0, _⟩ => ⟨(j 0).val, h⟩
  | ⟨1, _⟩ => ⟨(j 1).val, (j 1).isLt⟩
/-- Row r ≥ n of the joined array, as row r - n of the item part. -/
abbrev rowI (j : S150000x64.Idx) (h : ¬ (j 0).val < 100000) : S50000x64.Idx := fun a => match a with
  | ⟨0, _⟩ => ⟨(j 0).val - 100000, by have h2 : (j 0).val < 150000 := (j 0).isLt; show (j 0).val - 100000 < 50000; omega⟩
  | ⟨1, _⟩ => ⟨(j 1).val, (j 1).isLt⟩

/-- The user rows joined with the item rows are the plain program's result. -/
theorem join_eq (x : XArr) (u i : IArr) :
    concatenate S150000x64 0 [⟨S100000x64, outU x u i⟩, ⟨S50000x64, outI x u i⟩] concatenates_S100000x64_S50000x64_S150000x64_d0
      = val_main_v276 (F := Ideal) x u i := by
  funext j
  rw [val_main_v276_apply, val_main_v275_apply, val_main_v274_apply, val_main_v270_apply, val_main_v273_apply,
    val_main_v269_apply, val_main_v272_apply, val_main_cst_61_apply, val_main_cst_62_apply]
  unfold val_main_v267 val_main_v268 val_main_v271
  by_cases hj : (j 0).val < 100000
  · rw [concatenate_pair_apply_left (0 : Fin 2) (outU x u i) (outI x u i) concatenates_S100000x64_S50000x64_S150000x64_d0 j rfl (rowU j hj)
        (fun b => by match b with | ⟨0, _⟩ => rfl | ⟨1, _⟩ => rfl),
      concatenate_pair_apply_left (0 : Fin 2) (val_main_v265 (F := Ideal) x u i) (val_main_v266 (F := Ideal) x u i) concatenates_S100000x64_S50000x64_S150000x64_d0 j rfl (rowU j hj)
        (fun b => by match b with | ⟨0, _⟩ => rfl | ⟨1, _⟩ => rfl),
      concatenate_pair_apply_left (0 : Fin 2) (val_main_v73 (F := Ideal) x u i) (val_main_v111 (F := Ideal) x u i) concatenates_S100000x1_S50000x1_S150000x1_d0 (idx_main_v275 j) rfl (colU (rowU j hj))
        (fun b => by match b with | ⟨0, _⟩ => rfl | ⟨1, _⟩ => rfl),
      concatenate_pair_apply_left (0 : Fin 2) (val_main_v81 (F := Ideal) x u i) (val_main_v154 (F := Ideal) x u i) concatenates_S100000x1_S50000x1_S150000x1_d0 (idx_main_v275 j) rfl (colU (rowU j hj))
        (fun b => by match b with | ⟨0, _⟩ => rfl | ⟨1, _⟩ => rfl)]
    rfl
  · have hlt : (j 0).val < 150000 := (j 0).isLt
    rw [concatenate_pair_apply_right (0 : Fin 2) (outU x u i) (outI x u i) concatenates_S100000x64_S50000x64_S150000x64_d0 j rfl rfl (rowI j hj)
        (fun b hb => by match b with | ⟨0, _⟩ => exact absurd rfl hb | ⟨1, _⟩ => rfl)
        (by show (j 0).val - 100000 + 100000 = (j 0).val; omega),
      concatenate_pair_apply_right (0 : Fin 2) (val_main_v265 (F := Ideal) x u i) (val_main_v266 (F := Ideal) x u i) concatenates_S100000x64_S50000x64_S150000x64_d0 j rfl rfl (rowI j hj)
        (fun b hb => by match b with | ⟨0, _⟩ => exact absurd rfl hb | ⟨1, _⟩ => rfl)
        (by show (j 0).val - 100000 + 100000 = (j 0).val; omega),
      concatenate_pair_apply_right (0 : Fin 2) (val_main_v73 (F := Ideal) x u i) (val_main_v111 (F := Ideal) x u i) concatenates_S100000x1_S50000x1_S150000x1_d0 (idx_main_v275 j) rfl rfl (colI (rowI j hj))
        (fun b hb => by match b with | ⟨0, _⟩ => exact absurd rfl hb | ⟨1, _⟩ => rfl)
        (by show (j 0).val - 100000 + 100000 = (j 0).val; omega),
      concatenate_pair_apply_right (0 : Fin 2) (val_main_v81 (F := Ideal) x u i) (val_main_v154 (F := Ideal) x u i) concatenates_S100000x1_S50000x1_S150000x1_d0 (idx_main_v275 j) rfl rfl (colI (rowI j hj))
        (fun b hb => by match b with | ⟨0, _⟩ => exact absurd rfl hb | ⟨1, _⟩ => rfl)
        (by show (j 0).val - 100000 + 100000 = (j 0).val; omega)]
    rfl

end Cert.Final

end
-- ==== Proof.Fold5.lean ====
/-
  Boundaries 9 and 10, and the result. The fifth stretch sums the per-edge arrays per item, forms the
  64 x 64 product of xu / duj with vu, and the three whole-column sums. The fifth region, the item side,
  writes the item rows of the result. The last stretch joins user rows and item rows, which is the plain
  program's last stage.
-/
import proofs.«138700_j66589172957770_1_alg».proof.Proof.Fold4
import proofs.«138700_j66589172957770_1_alg».proof.Proof.Region4
import proofs.«138700_j66589172957770_1_alg».proof.Proof.Final
import Idealize.ShloMosaic.Lib.StableHlo.Run

set_option maxRecDepth 16384

noncomputable section

namespace Cert.Fold

open Idealize.ShloMosaic Idealize.ShloMosaic.TcCoe Idealize.SL.Sem Idealize.ShloMosaic.StableHlo
open Cert.KernelIdeal Cert.KernelIdeal.Gen Cert.Stages

variable (m : (ℓ : Loc nD τ sig) → Buf (Elt Ideal) ℓ) (ρ : Dev nD → PrngReg)

/-! ## Boundary 9 -/

theorem w9_v117 (c : Dev nD) : W9 (F := Ideal) m ρ c (Proc.devRef .tc main_v117) = Cert.ReferenceIdeal.Read.val_main_v93 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v120 (c : Dev nD) : W9 (F := Ideal) m ρ c (Proc.devRef .tc main_v120) = Cert.ReferenceIdeal.Read.val_main_v127 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v123 (c : Dev nD) : W9 (F := Ideal) m ρ c (Proc.devRef .tc main_v123) = Cert.ReferenceIdeal.Read.val_main_v217 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v126 (c : Dev nD) : W9 (F := Ideal) m ρ c (Proc.devRef .tc main_v126) = Cert.ReferenceIdeal.Read.val_main_v245 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v129 (c : Dev nD) : W9 (F := Ideal) m ρ c (Proc.devRef .tc main_v129) = Cert.ReferenceIdeal.Read.val_main_v110 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v132 (c : Dev nD) : W9 (F := Ideal) m ρ c (Proc.devRef .tc main_v132) = Cert.ReferenceIdeal.Read.val_main_v147 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v135 (c : Dev nD) : W9 (F := Ideal) m ρ c (Proc.devRef .tc main_v135) = Cert.ReferenceIdeal.Read.val_main_v201 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v138 (c : Dev nD) : W9 (F := Ideal) m ρ c (Proc.devRef .tc main_v138) = Cert.ReferenceIdeal.Read.val_main_v262 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v141 (c : Dev nD) : W9 (F := Ideal) m ρ c (Proc.devRef .tc main_v141) = Cert.ReferenceIdeal.Read.val_main_v221 (F := Ideal) (xa m c) (ua m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v143 (c : Dev nD) : W9 (F := Ideal) m ρ c (Proc.devRef .tc main_v143) = Cert.ReferenceIdeal.Read.val_main_v115 (F := Ideal) (xa m c) (ua m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v145 (c : Dev nD) : W9 (F := Ideal) m ρ c (Proc.devRef .tc main_v145) = Cert.ReferenceIdeal.Read.val_main_v134 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v147 (c : Dev nD) : W9 (F := Ideal) m ρ c (Proc.devRef .tc main_v147) = Cert.ReferenceIdeal.Read.val_main_v229 (F := Ideal) (xa m c) (ua m c) (ia m c) := by
  dsimp only [W9, hostOps4]
  after_results_simp
  simp only [w8_v71 m ρ c, w8_v78 m ρ c, w8_v92 m ρ c, w8_v99 m ρ c, w8_v106 m ρ c, w8_v113 m ρ c, w8_v14 m ρ c, w8_v13 m ρ c, w8_v15 m ρ c, w8_v11 m ρ c, w8_v57_0 m ρ c, w8_v57_3 m ρ c, w8_v57_6 m ρ c, w8_v57_8 m ρ c, w8_arg2 m ρ c, w8_v114_0 m ρ c, w8_v114_1 m ρ c]
  rfl

theorem w9_v14 (c : Dev nD) : W9 (F := Ideal) m ρ c (Proc.devRef .tc main_v14) = Cert.ReferenceIdeal.Read.val_main_v18 (F := Ideal) (xa m c) := by
  dsimp only [W9, hostOps4]
  after_results_simp
  exact w8_v14 m ρ c

theorem w9_v57_0 (c : Dev nD) : W9 (F := Ideal) m ρ c (Proc.devRef .tc main_v57_0) = Cert.Stages.outU (xa m c) (ua m c) (ia m c) := by
  dsimp only [W9, hostOps4]
  after_results_simp
  exact w8_v57_0 m ρ c

/-! ## Boundary 10 -/

theorem w10_v57_0 (c : Dev nD) : W10 (F := Ideal) m ρ c (Proc.devRef .tc main_v57_0) = Cert.Stages.outU (xa m c) (ua m c) (ia m c) :=
  (W10_of_ne m ρ c main_v57_0 (by decide)).trans (w9_v57_0 m ρ c)

theorem w10_v148 (c : Dev nD) : W10 (F := Ideal) m ρ c (Proc.devRef .tc main_v148) = Cert.Stages.outI (xa m c) (ua m c) (ia m c) :=
  (W10_arr m ρ c 13).trans (Cert.Regions.region4_outI (V9 (F := Ideal) m ρ) c (xa m c) (ua m c) (ia m c) (w9_v14 m ρ c) (w9_v117 m ρ c) (w9_v123 m ρ c) (w9_v126 m ρ c) (w9_v135 m ρ c) (w9_v138 m ρ c) (w9_v120 m ρ c) (w9_v129 m ρ c) (w9_v132 m ρ c) (w9_v141 m ρ c) (w9_v143 m ρ c) (w9_v145 m ρ c) (w9_v147 m ρ c))

/-! ## The result -/

/-- The result buffer at the last boundary is the plain program's last stage of the arguments as launched. -/
theorem result_eq (c : Dev nD) : W11 (F := Ideal) m ρ c (Proc.devRef .tc main_v149)
    = Cert.ReferenceIdeal.Read.val_main_v276 (F := Ideal) (xa m c) (ua m c) (ia m c) := by
  dsimp only [W11, hostOps5]
  after_results_simp
  rw [w10_v57_0 m ρ c, w10_v148 m ρ c]
  exact Cert.Final.join_eq (xa m c) (ua m c) (ia m c)

end Cert.Fold

end
-- ==== Proof.lean ====
/-
  The claim: the blocked Rankformer forward and the plain one compute the same array on the extended reals.

  With n = 100000 users, m = 50000 items, E = 1000000 edges and D = 64, both programs normalise the rows of
  x, gather rows per edge, take per-edge scores, sum per user and per item, and divide each row of the
  combined numerator by the sum of its two clamped denominators. The blocked program does the dense pieces
  in five pipelined regions and leaves the gathers and scatter-sums to the host; the plain program is host
  operations only. The proof follows the blocked program through its eleven segments and shows that every
  array it forms is a stage of the plain program (module Fold*: host stretches are the same operations on
  equal operands; each region's output is read off its blocks in modules Region*), and that the final join
  of user rows and item rows is the plain program's last stage (module Final). Two places need algebra, both
  a division by a degree column that is at least 1 and so never zero (module Degrees): a sign moved across
  it, and a factor moved across it. No finiteness of the inputs is used.

  The three frames: the word-level and the idealized blocked program by their generated frame; the plain
  program by its run with the result dropped. The idealization rewrote nothing, so the fourth conjunct is
  trivial. The fifth states both runs at one array, the plain program's last stage of the arguments.
-/
import proofs.«138700_j66589172957770_1_alg».proof.Defs
import proofs.«138700_j66589172957770_1_alg».proof.Proof.Gen.Kernel
import proofs.«138700_j66589172957770_1_alg».proof.Proof.Gen.Kernel.Frame
import proofs.«138700_j66589172957770_1_alg».proof.Proof.Gen.KernelIdeal
import proofs.«138700_j66589172957770_1_alg».proof.Proof.Gen.KernelIdeal.Frame
import proofs.«138700_j66589172957770_1_alg».proof.Proof.Gen.ReferenceIdeal
import proofs.«138700_j66589172957770_1_alg».proof.Proof.Gen.Pre_finite_inputs
import proofs.«138700_j66589172957770_1_alg».proof.Proof.KernelRun
import proofs.«138700_j66589172957770_1_alg».proof.Proof.RefRun
import proofs.«138700_j66589172957770_1_alg».proof.Proof.RefResult
import proofs.«138700_j66589172957770_1_alg».proof.Proof.Fold5
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result buffer at the plain program's last stage of the arguments: the blocked
    program by the fold through its segments, the plain one by its run; the arguments agree by hypothesis. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v276 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1.trans (Cert.Fold.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.RefResult.res_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
